-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200x8 : Shape := ⟨3, ![16384, 200, 8]⟩
abbrev S7x4 : Shape := ⟨2, ![7, 4]⟩
abbrev S_ : Shape := ⟨0, ![]⟩

class Facts : Prop where
  bcast_S_S7x4 : S_.BroadcastsInDim S7x4 (![] : Fin 0 → Fin S7x4.rank)
  reducesTo_S7x4_S_d0_1 : S7x4.ReducesTo [0, 1] S_
  h_S_ : 0 < S_.numel
  bcast_S_S16384x200x8 : S_.BroadcastsInDim S16384x200x8 (![] : Fin 0 → Fin S16384x200x8.rank)
  reducesTo_S16384x200x8_S_d0_1_2 : S16384x200x8.ReducesTo [0, 1, 2] S_

variable [Facts]

def fn {F : FTy → Type} [FloatOps F] (main_arg0 : IVec S16384x200x8 32) (main_arg1 : FVec F S7x4 .f32) : IVec S_ 1 :=
  let main_v0 : FVec F S7x4 .f32 := Host.absf main_arg1
  let main_cst : FVec F S_ .f32 := constant S_ .f32 0x7F800000#32
  let main_v1 : FVec F S7x4 .f32 := broadcastInDim S7x4 ![] bcast_S_S7x4 main_cst
  let main_v2 : IVec S7x4 1 := cmpf .olt main_v0 main_v1
  let main_c : IVec S_ 1 := constantI S_ 1 1#1
  let main_v3 : IVec S_ 1 := (fun x v => Host.reduce IntOp.andi x v reducesTo_S7x4_S_d0_1 h_S_) main_v2 main_c
  let main_c_0 : IVec S_ 32 := constantI S_ 32 0#32
  let main_v4 : IVec S16384x200x8 32 := broadcastInDim S16384x200x8 ![] bcast_S_S16384x200x8 main_c_0
  let main_v5 : IVec S16384x200x8 1 := cmpi .sge main_arg0 main_v4
  let main_c_1 : IVec S_ 32 := constantI S_ 32 6#32
  let main_v6 : IVec S16384x200x8 32 := broadcastInDim S16384x200x8 ![] bcast_S_S16384x200x8 main_c_1
  let main_v7 : IVec S16384x200x8 1 := cmpi .sle main_arg0 main_v6
  let main_v8 : IVec S16384x200x8 1 := andi main_v5 main_v7
  let main_c_2 : IVec S_ 1 := constantI S_ 1 1#1
  let main_v9 : IVec S_ 1 := (fun x v => Host.reduce IntOp.andi x v reducesTo_S16384x200x8_S_d0_1_2 h_S_) main_v8 main_c_2
  let main_v10 : IVec S_ 1 := andi main_v3 main_v9
  main_v10
-- ==== Kernel.lean ====
abbrev S16384x200x8 : Shape := ⟨3, ![16384, 200, 8]⟩
abbrev S7x4 : Shape := ⟨2, ![7, 4]⟩
abbrev S128x128x200x8 : Shape := ⟨4, ![128, 128, 200, 8]⟩
abbrev S200x128x8x128 : Shape := ⟨4, ![200, 128, 8, 128]⟩
abbrev S25600x8x128 : Shape := ⟨3, ![25600, 8, 128]⟩
abbrev S28 : Shape := ⟨1, ![28]⟩
abbrev S25600x4x128 : Shape := ⟨3, ![25600, 4, 128]⟩
abbrev S80x1x128 : Shape := ⟨3, ![80, 1, 128]⟩
abbrev S80x4x128 : Shape := ⟨3, ![80, 4, 128]⟩
abbrev S_ : Shape := ⟨0, ![]⟩
abbrev S16 : Shape := ⟨1, ![16]⟩
abbrev S1x1x16 : Shape := ⟨3, ![1, 1, 16]⟩
abbrev S200x128x4x128 : Shape := ⟨4, ![200, 128, 4, 128]⟩
abbrev S128x128x200x4 : Shape := ⟨4, ![128, 128, 200, 4]⟩
abbrev S16384x200x4 : Shape := ⟨3, ![16384, 200, 4]⟩

abbrev nBuf : Table → Nat
  | .hbm => 10
  | .local .scVector .vmem => 5
  | _ => 0

abbrev bufTy : (tb : Table) → Fin (nBuf tb) → BufTy
  | .hbm, ⟨0, _⟩ => ⟨S16384x200x8, .i32⟩
  | .hbm, ⟨1, _⟩ => ⟨S7x4, .f32⟩
  | .hbm, ⟨2, _⟩ => ⟨S128x128x200x8, .i32⟩
  | .hbm, ⟨3, _⟩ => ⟨S200x128x8x128, .i32⟩
  | .hbm, ⟨4, _⟩ => ⟨S25600x8x128, .i32⟩
  | .hbm, ⟨5, _⟩ => ⟨S28, .f32⟩
  | .hbm, ⟨6, _⟩ => ⟨S25600x4x128, .f32⟩
  | .hbm, ⟨7, _⟩ => ⟨S200x128x4x128, .f32⟩
  | .hbm, ⟨8, _⟩ => ⟨S128x128x200x4, .f32⟩
  | .hbm, ⟨9, _⟩ => ⟨S16384x200x4, .f32⟩
  | .local .scVector .vmem, ⟨0, _⟩ => ⟨S28, .f32⟩
  | .local .scVector .vmem, ⟨1, _⟩ => ⟨S80x1x128, .i32⟩
  | .local .scVector .vmem, ⟨2, _⟩ => ⟨S80x1x128, .i32⟩
  | .local .scVector .vmem, ⟨3, _⟩ => ⟨S80x4x128, .f32⟩
  | .local .scVector .vmem, ⟨4, _⟩ => ⟨S80x4x128, .f32⟩
  | _, _ => ⟨S16384x200x8, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v2_scv : Ref sig .scVector := ⟨.hbm, 4, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  let v3 : BitVec 32 := Scalar.addi v2 c0_i32
  let c0_i32_0 : BitVec 32 := 0#32
  let c0_i32_1 : BitVec 32 := 0#32
  ![v3.toNat, 0, 0]
@[reducible] def k0_t1_loop : Scf.Loop 32 :=
  let c0_i32_13 : BitVec 32 := 0#32
  let c80_i32_14 : BitVec 32 := 80#32
  let v11 : BitVec 32 := Scalar.addi c0_i32_13 c80_i32_14
  let c1_i32 : BitVec 32 := 1#32
  ⟨c0_i32_13, v11, c1_i32⟩
@[reducible] def k0_t2_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off2 (k0_t1 : Fin k0_t1_loop.trips) (k0_t2 : Fin k0_t2_loop.trips) : Fin 3 → Nat :=
  let c0_i32_13 : BitVec 32 := 0#32
  let c1_i32 : BitVec 32 := 1#32
  let arg15 : BitVec 32 := Scf.iv c0_i32_13 c1_i32 k0_t1
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t2
  let c16_i32 : BitVec 32 := 16#32
  let v125 : BitVec 32 := Scalar.muli arg17 c16_i32
  let v128 : Index := Scalar.indexCast v125
  ![v126.toNat, 0, v128.toNat]

def k0_chk1 (v133 : IVec S16 32) : Prop :=
  (∀ a x, ((![v133] : Fin 1 → IVec S16 32) a x).toNat < S28.size a)
instance k0_chk1.dec : ∀ (v133 : IVec S16 32), Decidable (k0_chk1 v133) := fun v133 => decidable_of_iff' _ (Iff.of_eq (k0_chk1.eq_1 v133))
theorem k0_idx1_inb : ∀ (v133 : IVec S16 32) (k0_hw1 : k0_chk1 v133), ∀ a x, ((![v133] : Fin 1 → IVec S16 32) a x).toNat < S28.size a := fun v133 k0_hw1 => k0_hw1
def k0_off3 (k0_t1 : Fin k0_t1_loop.trips) (k0_t2 : Fin k0_t2_loop.trips) : Fin 3 → Nat :=
  let c0_i32_13 : BitVec 32 := 0#32
  let c1_i32 : BitVec 32 := 1#32
  let arg15 : BitVec 32 := Scf.iv c0_i32_13 c1_i32 k0_t1
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t2
  let c16_i32_227 : BitVec 32 := 16#32
  let v135 : BitVec 32 := Scalar.muli arg17 c16_i32_227
  let v138 : Index := Scalar.indexCast v135
  ![v136.toNat, 0, v138.toNat]

def k0_chk2 (v141 : IVec S16 32) : Prop :=
  (∀ a x, ((![v141] : Fin 1 → IVec S16 32) a x).toNat < S28.size a)
instance k0_chk2.dec : ∀ (v141 : IVec S16 32), Decidable (k0_chk2 v141) := fun v141 => decidable_of_iff' _ (Iff.of_eq (k0_chk2.eq_1 v141))
theorem k0_idx2_inb : ∀ (v141 : IVec S16 32) (k0_hw2 : k0_chk2 v141), ∀ a x, ((![v141] : Fin 1 → IVec S16 32) a x).toNat < S28.size a := fun v141 k0_hw2 => k0_hw2
def k0_off4 (k0_t1 : Fin k0_t1_loop.trips) (k0_t2 : Fin k0_t2_loop.trips) : Fin 3 → Nat :=
  let c0_i32_13 : BitVec 32 := 0#32
  let c1_i32 : BitVec 32 := 1#32
  let arg15 : BitVec 32 := Scf.iv c0_i32_13 c1_i32 k0_t1
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t2
  let c16_i32_230 : BitVec 32 := 16#32
  let v143 : BitVec 32 := Scalar.muli arg17 c16_i32_230
  let v146 : Index := Scalar.indexCast v143
  ![v144.toNat, 1, v146.toNat]

def k0_chk3 (v149 : IVec S16 32) : Prop :=
  (∀ a x, ((![v149] : Fin 1 → IVec S16 32) a x).toNat < S28.size a)
instance k0_chk3.dec : ∀ (v149 : IVec S16 32), Decidable (k0_chk3 v149) := fun v149 => decidable_of_iff' _ (Iff.of_eq (k0_chk3.eq_1 v149))
theorem k0_idx3_inb : ∀ (v149 : IVec S16 32) (k0_hw3 : k0_chk3 v149), ∀ a x, ((![v149] : Fin 1 → IVec S16 32) a x).toNat < S28.size a := fun v149 k0_hw3 => k0_hw3
def k0_off5 (k0_t1 : Fin k0_t1_loop.trips) (k0_t2 : Fin k0_t2_loop.trips) : Fin 3 → Nat :=
  let c0_i32_13 : BitVec 32 := 0#32
  let c1_i32 : BitVec 32 := 1#32
  let arg15 : BitVec 32 := Scf.iv c0_i32_13 c1_i32 k0_t1
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t2
  let c16_i32_233 : BitVec 32 := 16#32
  let v151 : BitVec 32 := Scalar.muli arg17 c16_i32_233
  let v154 : Index := Scalar.indexCast v151
  ![v152.toNat, 2, v154.toNat]

def k0_chk4 (v157 : IVec S16 32) : Prop :=
  (∀ a x, ((![v157] : Fin 1 → IVec S16 32) a x).toNat < S28.size a)
instance k0_chk4.dec : ∀ (v157 : IVec S16 32), Decidable (k0_chk4 v157) := fun v157 => decidable_of_iff' _ (Iff.of_eq (k0_chk4.eq_1 v157))
theorem k0_idx4_inb : ∀ (v157 : IVec S16 32) (k0_hw4 : k0_chk4 v157), ∀ a x, ((![v157] : Fin 1 → IVec S16 32) a x).toNat < S28.size a := fun v157 k0_hw4 => k0_hw4
def k0_off6 (k0_t1 : Fin k0_t1_loop.trips) (k0_t2 : Fin k0_t2_loop.trips) : Fin 3 → Nat :=
  let c0_i32_13 : BitVec 32 := 0#32
  let c1_i32 : BitVec 32 := 1#32
  let arg15 : BitVec 32 := Scf.iv c0_i32_13 c1_i32 k0_t1
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t2
  let c16_i32_235 : BitVec 32 := 16#32
  let v159 : BitVec 32 := Scalar.muli arg17 c16_i32_235
  let v162 : Index := Scalar.indexCast v159
  ![v160.toNat, 3, v162.toNat]
def k0_off7 (i : grid0.Coords) (c0_i32_16 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  let v13 : BitVec 32 := Scalar.addi v2 c0_i32_16
  let c0_i32_17 : BitVec 32 := 0#32
  let c0_i32_18 : BitVec 32 := 0#32
  ![v13.toNat, 0, 0]
@[reducible] def k0_t3_loop : Scf.Loop 32 :=
  let c0_i32_30 : BitVec 32 := 0#32
  let c80_i32_31 : BitVec 32 := 80#32
  let v21 : BitVec 32 := Scalar.addi c0_i32_30 c80_i32_31
  let c1_i32_32 : BitVec 32 := 1#32
  ⟨c0_i32_30, v21, c1_i32_32⟩
@[reducible] def k0_t4_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off8 (k0_t3 : Fin k0_t3_loop.trips) (k0_t4 : Fin k0_t4_loop.trips) : Fin 3 → Nat :=
  let c0_i32_30 : BitVec 32 := 0#32
  let c1_i32_32 : BitVec 32 := 1#32
  let arg15 : BitVec 32 := Scf.iv c0_i32_30 c1_i32_32 k0_t3
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t4
  let c16_i32 : BitVec 32 := 16#32
  let v125 : BitVec 32 := Scalar.muli arg17 c16_i32
  let v128 : Index := Scalar.indexCast v125
  ![v126.toNat, 0, v128.toNat]

def k0_chk5 (v133 : IVec S16 32) : Prop :=
  (∀ a x, ((![v133] : Fin 1 → IVec S16 32) a x).toNat < S28.size a)
instance k0_chk5.dec : ∀ (v133 : IVec S16 32), Decidable (k0_chk5 v133) := fun v133 => decidable_of_iff' _ (Iff.of_eq (k0_chk5.eq_1 v133))
theorem k0_idx5_inb : ∀ (v133 : IVec S16 32) (k0_hw5 : k0_chk5 v133), ∀ a x, ((![v133] : Fin 1 → IVec S16 32) a x).toNat < S28.size a := fun v133 k0_hw5 => k0_hw5
def k0_off9 (k0_t3 : Fin k0_t3_loop.trips) (k0_t4 : Fin k0_t4_loop.trips) : Fin 3 → Nat :=
  let c0_i32_30 : BitVec 32 := 0#32
  let c1_i32_32 : BitVec 32 := 1#32
  let arg15 : BitVec 32 := Scf.iv c0_i32_30 c1_i32_32 k0_t3
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t4
  let c16_i32_227 : BitVec 32 := 16#32
  let v135 : BitVec 32 := Scalar.muli arg17 c16_i32_227
  let v138 : Index := Scalar.indexCast v135
  ![v136.toNat, 0, v138.toNat]

def k0_chk6 (v141 : IVec S16 32) : Prop :=
  (∀ a x, ((![v141] : Fin 1 → IVec S16 32) a x).toNat < S28.size a)
instance k0_chk6.dec : ∀ (v141 : IVec S16 32), Decidable (k0_chk6 v141) := fun v141 => decidable_of_iff' _ (Iff.of_eq (k0_chk6.eq_1 v141))
theorem k0_idx6_inb : ∀ (v141 : IVec S16 32) (k0_hw6 : k0_chk6 v141), ∀ a x, ((![v141] : Fin 1 → IVec S16 32) a x).toNat < S28.size a := fun v141 k0_hw6 => k0_hw6
def k0_off10 (k0_t3 : Fin k0_t3_loop.trips) (k0_t4 : Fin k0_t4_loop.trips) : Fin 3 → Nat :=
  let c0_i32_30 : BitVec 32 := 0#32
  let c1_i32_32 : BitVec 32 := 1#32
  let arg15 : BitVec 32 := Scf.iv c0_i32_30 c1_i32_32 k0_t3
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t4
  let c16_i32_230 : BitVec 32 := 16#32
  let v143 : BitVec 32 := Scalar.muli arg17 c16_i32_230
  let v146 : Index := Scalar.indexCast v143
  ![v144.toNat, 1, v146.toNat]

def k0_chk7 (v149 : IVec S16 32) : Prop :=
  (∀ a x, ((![v149] : Fin 1 → IVec S16 32) a x).toNat < S28.size a)
instance k0_chk7.dec : ∀ (v149 : IVec S16 32), Decidable (k0_chk7 v149) := fun v149 => decidable_of_iff' _ (Iff.of_eq (k0_chk7.eq_1 v149))
theorem k0_idx7_inb : ∀ (v149 : IVec S16 32) (k0_hw7 : k0_chk7 v149), ∀ a x, ((![v149] : Fin 1 → IVec S16 32) a x).toNat < S28.size a := fun v149 k0_hw7 => k0_hw7
def k0_off11 (k0_t3 : Fin k0_t3_loop.trips) (k0_t4 : Fin k0_t4_loop.trips) : Fin 3 → Nat :=
  let c0_i32_30 : BitVec 32 := 0#32
  let c1_i32_32 : BitVec 32 := 1#32
  let arg15 : BitVec 32 := Scf.iv c0_i32_30 c1_i32_32 k0_t3
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t4
  let c16_i32_233 : BitVec 32 := 16#32
  let v151 : BitVec 32 := Scalar.muli arg17 c16_i32_233
  let v154 : Index := Scalar.indexCast v151
  ![v152.toNat, 2, v154.toNat]

def k0_chk8 (v157 : IVec S16 32) : Prop :=
  (∀ a x, ((![v157] : Fin 1 → IVec S16 32) a x).toNat < S28.size a)
instance k0_chk8.dec : ∀ (v157 : IVec S16 32), Decidable (k0_chk8 v157) := fun v157 => decidable_of_iff' _ (Iff.of_eq (k0_chk8.eq_1 v157))
theorem k0_idx8_inb : ∀ (v157 : IVec S16 32) (k0_hw8 : k0_chk8 v157), ∀ a x, ((![v157] : Fin 1 → IVec S16 32) a x).toNat < S28.size a := fun v157 k0_hw8 => k0_hw8
def k0_off12 (k0_t3 : Fin k0_t3_loop.trips) (k0_t4 : Fin k0_t4_loop.trips) : Fin 3 → Nat :=
  let c0_i32_30 : BitVec 32 := 0#32
  let c1_i32_32 : BitVec 32 := 1#32
  let arg15 : BitVec 32 := Scf.iv c0_i32_30 c1_i32_32 k0_t3
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t4
  let c16_i32_235 : BitVec 32 := 16#32
  let v159 : BitVec 32 := Scalar.muli arg17 c16_i32_235
  let v162 : Index := Scalar.indexCast v159
  ![v160.toNat, 3, v162.toNat]
@[reducible] def k0_t5_loop : Scf.Loop 32 :=
  let c0_i32_52 : BitVec 32 := 0#32
  let c80_i32_53 : BitVec 32 := 80#32
  let v33 : BitVec 32 := Scalar.addi c0_i32_52 c80_i32_53
  let c1_i32_54 : BitVec 32 := 1#32
  ⟨c0_i32_52, v33, c1_i32_54⟩
@[reducible] def k0_t6_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off13 (k0_t5 : Fin k0_t5_loop.trips) (k0_t6 : Fin k0_t6_loop.trips) : Fin 3 → Nat :=
  let c0_i32_52 : BitVec 32 := 0#32
  let c1_i32_54 : BitVec 32 := 1#32
  let arg15 : BitVec 32 := Scf.iv c0_i32_52 c1_i32_54 k0_t5
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t6
  let c16_i32 : BitVec 32 := 16#32
  let v125 : BitVec 32 := Scalar.muli arg17 c16_i32
  let v128 : Index := Scalar.indexCast v125
  ![v126.toNat, 0, v128.toNat]

def k0_chk9 (v133 : IVec S16 32) : Prop :=
  (∀ a x, ((![v133] : Fin 1 → IVec S16 32) a x).toNat < S28.size a)
instance k0_chk9.dec : ∀ (v133 : IVec S16 32), Decidable (k0_chk9 v133) := fun v133 => decidable_of_iff' _ (Iff.of_eq (k0_chk9.eq_1 v133))
theorem k0_idx9_inb : ∀ (v133 : IVec S16 32) (k0_hw9 : k0_chk9 v133), ∀ a x, ((![v133] : Fin 1 → IVec S16 32) a x).toNat < S28.size a := fun v133 k0_hw9 => k0_hw9
def k0_off14 (k0_t5 : Fin k0_t5_loop.trips) (k0_t6 : Fin k0_t6_loop.trips) : Fin 3 → Nat :=
  let c0_i32_52 : BitVec 32 := 0#32
  let c1_i32_54 : BitVec 32 := 1#32
  let arg15 : BitVec 32 := Scf.iv c0_i32_52 c1_i32_54 k0_t5
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t6
  let c16_i32_227 : BitVec 32 := 16#32
  let v135 : BitVec 32 := Scalar.muli arg17 c16_i32_227
  let v138 : Index := Scalar.indexCast v135
  ![v136.toNat, 0, v138.toNat]

def k0_chk10 (v141 : IVec S16 32) : Prop :=
  (∀ a x, ((![v141] : Fin 1 → IVec S16 32) a x).toNat < S28.size a)
instance k0_chk10.dec : ∀ (v141 : IVec S16 32), Decidable (k0_chk10 v141) := fun v141 => decidable_of_iff' _ (Iff.of_eq (k0_chk10.eq_1 v141))
theorem k0_idx10_inb : ∀ (v141 : IVec S16 32) (k0_hw10 : k0_chk10 v141), ∀ a x, ((![v141] : Fin 1 → IVec S16 32) a x).toNat < S28.size a := fun v141 k0_hw10 => k0_hw10
def k0_off15 (k0_t5 : Fin k0_t5_loop.trips) (k0_t6 : Fin k0_t6_loop.trips) : Fin 3 → Nat :=
  let c0_i32_52 : BitVec 32 := 0#32
  let c1_i32_54 : BitVec 32 := 1#32
  let arg15 : BitVec 32 := Scf.iv c0_i32_52 c1_i32_54 k0_t5
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t6
  let c16_i32_230 : BitVec 32 := 16#32
  let v143 : BitVec 32 := Scalar.muli arg17 c16_i32_230
  let v146 : Index := Scalar.indexCast v143
  ![v144.toNat, 1, v146.toNat]

def k0_chk11 (v149 : IVec S16 32) : Prop :=
  (∀ a x, ((![v149] : Fin 1 → IVec S16 32) a x).toNat < S28.size a)
instance k0_chk11.dec : ∀ (v149 : IVec S16 32), Decidable (k0_chk11 v149) := fun v149 => decidable_of_iff' _ (Iff.of_eq (k0_chk11.eq_1 v149))
theorem k0_idx11_inb : ∀ (v149 : IVec S16 32) (k0_hw11 : k0_chk11 v149), ∀ a x, ((![v149] : Fin 1 → IVec S16 32) a x).toNat < S28.size a := fun v149 k0_hw11 => k0_hw11
def k0_off16 (k0_t5 : Fin k0_t5_loop.trips) (k0_t6 : Fin k0_t6_loop.trips) : Fin 3 → Nat :=
  let c0_i32_52 : BitVec 32 := 0#32
  let c1_i32_54 : BitVec 32 := 1#32
  let arg15 : BitVec 32 := Scf.iv c0_i32_52 c1_i32_54 k0_t5
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t6
  let c16_i32_233 : BitVec 32 := 16#32
  let v151 : BitVec 32 := Scalar.muli arg17 c16_i32_233
  let v154 : Index := Scalar.indexCast v151
  ![v152.toNat, 2, v154.toNat]

def k0_chk12 (v157 : IVec S16 32) : Prop :=
  (∀ a x, ((![v157] : Fin 1 → IVec S16 32) a x).toNat < S28.size a)
instance k0_chk12.dec : ∀ (v157 : IVec S16 32), Decidable (k0_chk12 v157) := fun v157 => decidable_of_iff' _ (Iff.of_eq (k0_chk12.eq_1 v157))
theorem k0_idx12_inb : ∀ (v157 : IVec S16 32) (k0_hw12 : k0_chk12 v157), ∀ a x, ((![v157] : Fin 1 → IVec S16 32) a x).toNat < S28.size a := fun v157 k0_hw12 => k0_hw12
def k0_off17 (k0_t5 : Fin k0_t5_loop.trips) (k0_t6 : Fin k0_t6_loop.trips) : Fin 3 → Nat :=
  let c0_i32_52 : BitVec 32 := 0#32
  let c1_i32_54 : BitVec 32 := 1#32
  let arg15 : BitVec 32 := Scf.iv c0_i32_52 c1_i32_54 k0_t5
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t6
  let c16_i32_235 : BitVec 32 := 16#32
  let v159 : BitVec 32 := Scalar.muli arg17 c16_i32_235
  let v162 : Index := Scalar.indexCast v159
  ![v160.toNat, 3, v162.toNat]
@[reducible] def k0_t7_loop : Scf.Loop 32 :=
  let c0_i32_74 : BitVec 32 := 0#32
  let c80_i32_75 : BitVec 32 := 80#32
  let v45 : BitVec 32 := Scalar.addi c0_i32_74 c80_i32_75
  let c1_i32_76 : BitVec 32 := 1#32
  ⟨c0_i32_74, v45, c1_i32_76⟩
@[reducible] def k0_t8_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off18 (k0_t7 : Fin k0_t7_loop.trips) (k0_t8 : Fin k0_t8_loop.trips) : Fin 3 → Nat :=
  let c0_i32_74 : BitVec 32 := 0#32
  let c1_i32_76 : BitVec 32 := 1#32
  let arg15 : BitVec 32 := Scf.iv c0_i32_74 c1_i32_76 k0_t7
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t8
  let c16_i32 : BitVec 32 := 16#32
  let v125 : BitVec 32 := Scalar.muli arg17 c16_i32
  let v128 : Index := Scalar.indexCast v125
  ![v126.toNat, 0, v128.toNat]

def k0_chk13 (v133 : IVec S16 32) : Prop :=
  (∀ a x, ((![v133] : Fin 1 → IVec S16 32) a x).toNat < S28.size a)
instance k0_chk13.dec : ∀ (v133 : IVec S16 32), Decidable (k0_chk13 v133) := fun v133 => decidable_of_iff' _ (Iff.of_eq (k0_chk13.eq_1 v133))
theorem k0_idx13_inb : ∀ (v133 : IVec S16 32) (k0_hw13 : k0_chk13 v133), ∀ a x, ((![v133] : Fin 1 → IVec S16 32) a x).toNat < S28.size a := fun v133 k0_hw13 => k0_hw13
def k0_off19 (k0_t7 : Fin k0_t7_loop.trips) (k0_t8 : Fin k0_t8_loop.trips) : Fin 3 → Nat :=
  let c0_i32_74 : BitVec 32 := 0#32
  let c1_i32_76 : BitVec 32 := 1#32
  let arg15 : BitVec 32 := Scf.iv c0_i32_74 c1_i32_76 k0_t7
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t8
  let c16_i32_227 : BitVec 32 := 16#32
  let v135 : BitVec 32 := Scalar.muli arg17 c16_i32_227
  let v138 : Index := Scalar.indexCast v135
  ![v136.toNat, 0, v138.toNat]

def k0_chk14 (v141 : IVec S16 32) : Prop :=
  (∀ a x, ((![v141] : Fin 1 → IVec S16 32) a x).toNat < S28.size a)
instance k0_chk14.dec : ∀ (v141 : IVec S16 32), Decidable (k0_chk14 v141) := fun v141 => decidable_of_iff' _ (Iff.of_eq (k0_chk14.eq_1 v141))
theorem k0_idx14_inb : ∀ (v141 : IVec S16 32) (k0_hw14 : k0_chk14 v141), ∀ a x, ((![v141] : Fin 1 → IVec S16 32) a x).toNat < S28.size a := fun v141 k0_hw14 => k0_hw14
def k0_off20 (k0_t7 : Fin k0_t7_loop.trips) (k0_t8 : Fin k0_t8_loop.trips) : Fin 3 → Nat :=
  let c0_i32_74 : BitVec 32 := 0#32
  let c1_i32_76 : BitVec 32 := 1#32
  let arg15 : BitVec 32 := Scf.iv c0_i32_74 c1_i32_76 k0_t7
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t8
  let c16_i32_230 : BitVec 32 := 16#32
  let v143 : BitVec 32 := Scalar.muli arg17 c16_i32_230
  let v146 : Index := Scalar.indexCast v143
  ![v144.toNat, 1, v146.toNat]

def k0_chk15 (v149 : IVec S16 32) : Prop :=
  (∀ a x, ((![v149] : Fin 1 → IVec S16 32) a x).toNat < S28.size a)
instance k0_chk15.dec : ∀ (v149 : IVec S16 32), Decidable (k0_chk15 v149) := fun v149 => decidable_of_iff' _ (Iff.of_eq (k0_chk15.eq_1 v149))
theorem k0_idx15_inb : ∀ (v149 : IVec S16 32) (k0_hw15 : k0_chk15 v149), ∀ a x, ((![v149] : Fin 1 → IVec S16 32) a x).toNat < S28.size a := fun v149 k0_hw15 => k0_hw15
def k0_off21 (k0_t7 : Fin k0_t7_loop.trips) (k0_t8 : Fin k0_t8_loop.trips) : Fin 3 → Nat :=
  let c0_i32_74 : BitVec 32 := 0#32
  let c1_i32_76 : BitVec 32 := 1#32
  let arg15 : BitVec 32 := Scf.iv c0_i32_74 c1_i32_76 k0_t7
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t8
  let c16_i32_233 : BitVec 32 := 16#32
  let v151 : BitVec 32 := Scalar.muli arg17 c16_i32_233
  let v154 : Index := Scalar.indexCast v151
  ![v152.toNat, 2, v154.toNat]

def k0_chk16 (v157 : IVec S16 32) : Prop :=
  (∀ a x, ((![v157] : Fin 1 → IVec S16 32) a x).toNat < S28.size a)
instance k0_chk16.dec : ∀ (v157 : IVec S16 32), Decidable (k0_chk16 v157) := fun v157 => decidable_of_iff' _ (Iff.of_eq (k0_chk16.eq_1 v157))
theorem k0_idx16_inb : ∀ (v157 : IVec S16 32) (k0_hw16 : k0_chk16 v157), ∀ a x, ((![v157] : Fin 1 → IVec S16 32) a x).toNat < S28.size a := fun v157 k0_hw16 => k0_hw16
def k0_off22 (k0_t7 : Fin k0_t7_loop.trips) (k0_t8 : Fin k0_t8_loop.trips) : Fin 3 → Nat :=
  let c0_i32_74 : BitVec 32 := 0#32
  let c1_i32_76 : BitVec 32 := 1#32
  let arg15 : BitVec 32 := Scf.iv c0_i32_74 c1_i32_76 k0_t7
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t8
  let c16_i32_235 : BitVec 32 := 16#32
  let v159 : BitVec 32 := Scalar.muli arg17 c16_i32_235
  let v162 : Index := Scalar.indexCast v159
  ![v160.toNat, 3, v162.toNat]
@[reducible] def k0_t9_loop : Scf.Loop 32 :=
  let c0_i32_96 : BitVec 32 := 0#32
  let c80_i32_97 : BitVec 32 := 80#32
  let v57 : BitVec 32 := Scalar.addi c0_i32_96 c80_i32_97
  let c1_i32_98 : BitVec 32 := 1#32
  ⟨c0_i32_96, v57, c1_i32_98⟩
@[reducible] def k0_t10_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off23 (k0_t9 : Fin k0_t9_loop.trips) (k0_t10 : Fin k0_t10_loop.trips) : Fin 3 → Nat :=
  let c0_i32_96 : BitVec 32 := 0#32
  let c1_i32_98 : BitVec 32 := 1#32
  let arg15 : BitVec 32 := Scf.iv c0_i32_96 c1_i32_98 k0_t9
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t10
  let c16_i32 : BitVec 32 := 16#32
  let v125 : BitVec 32 := Scalar.muli arg17 c16_i32
  let v128 : Index := Scalar.indexCast v125
  ![v126.toNat, 0, v128.toNat]

def k0_chk17 (v133 : IVec S16 32) : Prop :=
  (∀ a x, ((![v133] : Fin 1 → IVec S16 32) a x).toNat < S28.size a)
instance k0_chk17.dec : ∀ (v133 : IVec S16 32), Decidable (k0_chk17 v133) := fun v133 => decidable_of_iff' _ (Iff.of_eq (k0_chk17.eq_1 v133))
theorem k0_idx17_inb : ∀ (v133 : IVec S16 32) (k0_hw17 : k0_chk17 v133), ∀ a x, ((![v133] : Fin 1 → IVec S16 32) a x).toNat < S28.size a := fun v133 k0_hw17 => k0_hw17
def k0_off24 (k0_t9 : Fin k0_t9_loop.trips) (k0_t10 : Fin k0_t10_loop.trips) : Fin 3 → Nat :=
  let c0_i32_96 : BitVec 32 := 0#32
  let c1_i32_98 : BitVec 32 := 1#32
  let arg15 : BitVec 32 := Scf.iv c0_i32_96 c1_i32_98 k0_t9
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t10
  let c16_i32_227 : BitVec 32 := 16#32
  let v135 : BitVec 32 := Scalar.muli arg17 c16_i32_227
  let v138 : Index := Scalar.indexCast v135
  ![v136.toNat, 0, v138.toNat]

def k0_chk18 (v141 : IVec S16 32) : Prop :=
  (∀ a x, ((![v141] : Fin 1 → IVec S16 32) a x).toNat < S28.size a)
instance k0_chk18.dec : ∀ (v141 : IVec S16 32), Decidable (k0_chk18 v141) := fun v141 => decidable_of_iff' _ (Iff.of_eq (k0_chk18.eq_1 v141))
theorem k0_idx18_inb : ∀ (v141 : IVec S16 32) (k0_hw18 : k0_chk18 v141), ∀ a x, ((![v141] : Fin 1 → IVec S16 32) a x).toNat < S28.size a := fun v141 k0_hw18 => k0_hw18
def k0_off25 (k0_t9 : Fin k0_t9_loop.trips) (k0_t10 : Fin k0_t10_loop.trips) : Fin 3 → Nat :=
  let c0_i32_96 : BitVec 32 := 0#32
  let c1_i32_98 : BitVec 32 := 1#32
  let arg15 : BitVec 32 := Scf.iv c0_i32_96 c1_i32_98 k0_t9
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t10
  let c16_i32_230 : BitVec 32 := 16#32
  let v143 : BitVec 32 := Scalar.muli arg17 c16_i32_230
  let v146 : Index := Scalar.indexCast v143
  ![v144.toNat, 1, v146.toNat]

def k0_chk19 (v149 : IVec S16 32) : Prop :=
  (∀ a x, ((![v149] : Fin 1 → IVec S16 32) a x).toNat < S28.size a)
instance k0_chk19.dec : ∀ (v149 : IVec S16 32), Decidable (k0_chk19 v149) := fun v149 => decidable_of_iff' _ (Iff.of_eq (k0_chk19.eq_1 v149))
theorem k0_idx19_inb : ∀ (v149 : IVec S16 32) (k0_hw19 : k0_chk19 v149), ∀ a x, ((![v149] : Fin 1 → IVec S16 32) a x).toNat < S28.size a := fun v149 k0_hw19 => k0_hw19
def k0_off26 (k0_t9 : Fin k0_t9_loop.trips) (k0_t10 : Fin k0_t10_loop.trips) : Fin 3 → Nat :=
  let c0_i32_96 : BitVec 32 := 0#32
  let c1_i32_98 : BitVec 32 := 1#32
  let arg15 : BitVec 32 := Scf.iv c0_i32_96 c1_i32_98 k0_t9
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t10
  let c16_i32_233 : BitVec 32 := 16#32
  let v151 : BitVec 32 := Scalar.muli arg17 c16_i32_233
  let v154 : Index := Scalar.indexCast v151
  ![v152.toNat, 2, v154.toNat]

def k0_chk20 (v157 : IVec S16 32) : Prop :=
  (∀ a x, ((![v157] : Fin 1 → IVec S16 32) a x).toNat < S28.size a)
instance k0_chk20.dec : ∀ (v157 : IVec S16 32), Decidable (k0_chk20 v157) := fun v157 => decidable_of_iff' _ (Iff.of_eq (k0_chk20.eq_1 v157))
theorem k0_idx20_inb : ∀ (v157 : IVec S16 32) (k0_hw20 : k0_chk20 v157), ∀ a x, ((![v157] : Fin 1 → IVec S16 32) a x).toNat < S28.size a := fun v157 k0_hw20 => k0_hw20
def k0_off27 (k0_t9 : Fin k0_t9_loop.trips) (k0_t10 : Fin k0_t10_loop.trips) : Fin 3 → Nat :=
  let c0_i32_96 : BitVec 32 := 0#32
  let c1_i32_98 : BitVec 32 := 1#32
  let arg15 : BitVec 32 := Scf.iv c0_i32_96 c1_i32_98 k0_t9
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t10
  let c16_i32_235 : BitVec 32 := 16#32
  let v159 : BitVec 32 := Scalar.muli arg17 c16_i32_235
  let v162 : Index := Scalar.indexCast v159
  ![v160.toNat, 3, v162.toNat]
@[reducible] def k0_t11_loop : Scf.Loop 32 :=
  let c0_i32_118 : BitVec 32 := 0#32
  let c80_i32_119 : BitVec 32 := 80#32
  let v69 : BitVec 32 := Scalar.addi c0_i32_118 c80_i32_119
  let c1_i32_120 : BitVec 32 := 1#32
  ⟨c0_i32_118, v69, c1_i32_120⟩
@[reducible] def k0_t12_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off28 (k0_t11 : Fin k0_t11_loop.trips) (k0_t12 : Fin k0_t12_loop.trips) : Fin 3 → Nat :=
  let c0_i32_118 : BitVec 32 := 0#32
  let c1_i32_120 : BitVec 32 := 1#32
  let arg15 : BitVec 32 := Scf.iv c0_i32_118 c1_i32_120 k0_t11
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t12
  let c16_i32 : BitVec 32 := 16#32
  let v125 : BitVec 32 := Scalar.muli arg17 c16_i32
  let v128 : Index := Scalar.indexCast v125
  ![v126.toNat, 0, v128.toNat]

def k0_chk21 (v133 : IVec S16 32) : Prop :=
  (∀ a x, ((![v133] : Fin 1 → IVec S16 32) a x).toNat < S28.size a)
instance k0_chk21.dec : ∀ (v133 : IVec S16 32), Decidable (k0_chk21 v133) := fun v133 => decidable_of_iff' _ (Iff.of_eq (k0_chk21.eq_1 v133))
theorem k0_idx21_inb : ∀ (v133 : IVec S16 32) (k0_hw21 : k0_chk21 v133), ∀ a x, ((![v133] : Fin 1 → IVec S16 32) a x).toNat < S28.size a := fun v133 k0_hw21 => k0_hw21
def k0_off29 (k0_t11 : Fin k0_t11_loop.trips) (k0_t12 : Fin k0_t12_loop.trips) : Fin 3 → Nat :=
  let c0_i32_118 : BitVec 32 := 0#32
  let c1_i32_120 : BitVec 32 := 1#32
  let arg15 : BitVec 32 := Scf.iv c0_i32_118 c1_i32_120 k0_t11
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t12
  let c16_i32_227 : BitVec 32 := 16#32
  let v135 : BitVec 32 := Scalar.muli arg17 c16_i32_227
  let v138 : Index := Scalar.indexCast v135
  ![v136.toNat, 0, v138.toNat]

def k0_chk22 (v141 : IVec S16 32) : Prop :=
  (∀ a x, ((![v141] : Fin 1 → IVec S16 32) a x).toNat < S28.size a)
instance k0_chk22.dec : ∀ (v141 : IVec S16 32), Decidable (k0_chk22 v141) := fun v141 => decidable_of_iff' _ (Iff.of_eq (k0_chk22.eq_1 v141))
theorem k0_idx22_inb : ∀ (v141 : IVec S16 32) (k0_hw22 : k0_chk22 v141), ∀ a x, ((![v141] : Fin 1 → IVec S16 32) a x).toNat < S28.size a := fun v141 k0_hw22 => k0_hw22
def k0_off30 (k0_t11 : Fin k0_t11_loop.trips) (k0_t12 : Fin k0_t12_loop.trips) : Fin 3 → Nat :=
  let c0_i32_118 : BitVec 32 := 0#32
  let c1_i32_120 : BitVec 32 := 1#32
  let arg15 : BitVec 32 := Scf.iv c0_i32_118 c1_i32_120 k0_t11
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t12
  let c16_i32_230 : BitVec 32 := 16#32
  let v143 : BitVec 32 := Scalar.muli arg17 c16_i32_230
  let v146 : Index := Scalar.indexCast v143
  ![v144.toNat, 1, v146.toNat]

def k0_chk23 (v149 : IVec S16 32) : Prop :=
  (∀ a x, ((![v149] : Fin 1 → IVec S16 32) a x).toNat < S28.size a)
instance k0_chk23.dec : ∀ (v149 : IVec S16 32), Decidable (k0_chk23 v149) := fun v149 => decidable_of_iff' _ (Iff.of_eq (k0_chk23.eq_1 v149))
theorem k0_idx23_inb : ∀ (v149 : IVec S16 32) (k0_hw23 : k0_chk23 v149), ∀ a x, ((![v149] : Fin 1 → IVec S16 32) a x).toNat < S28.size a := fun v149 k0_hw23 => k0_hw23
def k0_off31 (k0_t11 : Fin k0_t11_loop.trips) (k0_t12 : Fin k0_t12_loop.trips) : Fin 3 → Nat :=
  let c0_i32_118 : BitVec 32 := 0#32
  let c1_i32_120 : BitVec 32 := 1#32
  let arg15 : BitVec 32 := Scf.iv c0_i32_118 c1_i32_120 k0_t11
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t12
  let c16_i32_233 : BitVec 32 := 16#32
  let v151 : BitVec 32 := Scalar.muli arg17 c16_i32_233
  let v154 : Index := Scalar.indexCast v151
  ![v152.toNat, 2, v154.toNat]

def k0_chk24 (v157 : IVec S16 32) : Prop :=
  (∀ a x, ((![v157] : Fin 1 → IVec S16 32) a x).toNat < S28.size a)
instance k0_chk24.dec : ∀ (v157 : IVec S16 32), Decidable (k0_chk24 v157) := fun v157 => decidable_of_iff' _ (Iff.of_eq (k0_chk24.eq_1 v157))
theorem k0_idx24_inb : ∀ (v157 : IVec S16 32) (k0_hw24 : k0_chk24 v157), ∀ a x, ((![v157] : Fin 1 → IVec S16 32) a x).toNat < S28.size a := fun v157 k0_hw24 => k0_hw24
def k0_off32 (k0_t11 : Fin k0_t11_loop.trips) (k0_t12 : Fin k0_t12_loop.trips) : Fin 3 → Nat :=
  let c0_i32_118 : BitVec 32 := 0#32
  let c1_i32_120 : BitVec 32 := 1#32
  let arg15 : BitVec 32 := Scf.iv c0_i32_118 c1_i32_120 k0_t11
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t12
  let c16_i32_235 : BitVec 32 := 16#32
  let v159 : BitVec 32 := Scalar.muli arg17 c16_i32_235
  let v162 : Index := Scalar.indexCast v159
  ![v160.toNat, 3, v162.toNat]
@[reducible] def k0_t13_loop : Scf.Loop 32 :=
  let c0_i32_140 : BitVec 32 := 0#32
  let c80_i32_141 : BitVec 32 := 80#32
  let v81 : BitVec 32 := Scalar.addi c0_i32_140 c80_i32_141
  let c1_i32_142 : BitVec 32 := 1#32
  ⟨c0_i32_140, v81, c1_i32_142⟩
@[reducible] def k0_t14_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off33 (k0_t13 : Fin k0_t13_loop.trips) (k0_t14 : Fin k0_t14_loop.trips) : Fin 3 → Nat :=
  let c0_i32_140 : BitVec 32 := 0#32
  let c1_i32_142 : BitVec 32 := 1#32
  let arg15 : BitVec 32 := Scf.iv c0_i32_140 c1_i32_142 k0_t13
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t14
  let c16_i32 : BitVec 32 := 16#32
  let v125 : BitVec 32 := Scalar.muli arg17 c16_i32
  let v128 : Index := Scalar.indexCast v125
  ![v126.toNat, 0, v128.toNat]

def k0_chk25 (v133 : IVec S16 32) : Prop :=
  (∀ a x, ((![v133] : Fin 1 → IVec S16 32) a x).toNat < S28.size a)
instance k0_chk25.dec : ∀ (v133 : IVec S16 32), Decidable (k0_chk25 v133) := fun v133 => decidable_of_iff' _ (Iff.of_eq (k0_chk25.eq_1 v133))
theorem k0_idx25_inb : ∀ (v133 : IVec S16 32) (k0_hw25 : k0_chk25 v133), ∀ a x, ((![v133] : Fin 1 → IVec S16 32) a x).toNat < S28.size a := fun v133 k0_hw25 => k0_hw25
def k0_off34 (k0_t13 : Fin k0_t13_loop.trips) (k0_t14 : Fin k0_t14_loop.trips) : Fin 3 → Nat :=
  let c0_i32_140 : BitVec 32 := 0#32
  let c1_i32_142 : BitVec 32 := 1#32
  let arg15 : BitVec 32 := Scf.iv c0_i32_140 c1_i32_142 k0_t13
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t14
  let c16_i32_227 : BitVec 32 := 16#32
  let v135 : BitVec 32 := Scalar.muli arg17 c16_i32_227
  let v138 : Index := Scalar.indexCast v135
  ![v136.toNat, 0, v138.toNat]

def k0_chk26 (v141 : IVec S16 32) : Prop :=
  (∀ a x, ((![v141] : Fin 1 → IVec S16 32) a x).toNat < S28.size a)
instance k0_chk26.dec : ∀ (v141 : IVec S16 32), Decidable (k0_chk26 v141) := fun v141 => decidable_of_iff' _ (Iff.of_eq (k0_chk26.eq_1 v141))
theorem k0_idx26_inb : ∀ (v141 : IVec S16 32) (k0_hw26 : k0_chk26 v141), ∀ a x, ((![v141] : Fin 1 → IVec S16 32) a x).toNat < S28.size a := fun v141 k0_hw26 => k0_hw26
def k0_off35 (k0_t13 : Fin k0_t13_loop.trips) (k0_t14 : Fin k0_t14_loop.trips) : Fin 3 → Nat :=
  let c0_i32_140 : BitVec 32 := 0#32
  let c1_i32_142 : BitVec 32 := 1#32
  let arg15 : BitVec 32 := Scf.iv c0_i32_140 c1_i32_142 k0_t13
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t14
  let c16_i32_230 : BitVec 32 := 16#32
  let v143 : BitVec 32 := Scalar.muli arg17 c16_i32_230
  let v146 : Index := Scalar.indexCast v143
  ![v144.toNat, 1, v146.toNat]

def k0_chk27 (v149 : IVec S16 32) : Prop :=
  (∀ a x, ((![v149] : Fin 1 → IVec S16 32) a x).toNat < S28.size a)
instance k0_chk27.dec : ∀ (v149 : IVec S16 32), Decidable (k0_chk27 v149) := fun v149 => decidable_of_iff' _ (Iff.of_eq (k0_chk27.eq_1 v149))
theorem k0_idx27_inb : ∀ (v149 : IVec S16 32) (k0_hw27 : k0_chk27 v149), ∀ a x, ((![v149] : Fin 1 → IVec S16 32) a x).toNat < S28.size a := fun v149 k0_hw27 => k0_hw27
def k0_off36 (k0_t13 : Fin k0_t13_loop.trips) (k0_t14 : Fin k0_t14_loop.trips) : Fin 3 → Nat :=
  let c0_i32_140 : BitVec 32 := 0#32
  let c1_i32_142 : BitVec 32 := 1#32
  let arg15 : BitVec 32 := Scf.iv c0_i32_140 c1_i32_142 k0_t13
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t14
  let c16_i32_233 : BitVec 32 := 16#32
  let v151 : BitVec 32 := Scalar.muli arg17 c16_i32_233
  let v154 : Index := Scalar.indexCast v151
  ![v152.toNat, 2, v154.toNat]

def k0_chk28 (v157 : IVec S16 32) : Prop :=
  (∀ a x, ((![v157] : Fin 1 → IVec S16 32) a x).toNat < S28.size a)
instance k0_chk28.dec : ∀ (v157 : IVec S16 32), Decidable (k0_chk28 v157) := fun v157 => decidable_of_iff' _ (Iff.of_eq (k0_chk28.eq_1 v157))
theorem k0_idx28_inb : ∀ (v157 : IVec S16 32) (k0_hw28 : k0_chk28 v157), ∀ a x, ((![v157] : Fin 1 → IVec S16 32) a x).toNat < S28.size a := fun v157 k0_hw28 => k0_hw28
def k0_off37 (k0_t13 : Fin k0_t13_loop.trips) (k0_t14 : Fin k0_t14_loop.trips) : Fin 3 → Nat :=
  let c0_i32_140 : BitVec 32 := 0#32
  let c1_i32_142 : BitVec 32 := 1#32
  let arg15 : BitVec 32 := Scf.iv c0_i32_140 c1_i32_142 k0_t13
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t14
  let c16_i32_235 : BitVec 32 := 16#32
  let v159 : BitVec 32 := Scalar.muli arg17 c16_i32_235
  let v162 : Index := Scalar.indexCast v159
  ![v160.toNat, 3, v162.toNat]
@[reducible] def k0_t15_loop : Scf.Loop 32 :=
  let c0_i32_162 : BitVec 32 := 0#32
  let c80_i32_163 : BitVec 32 := 80#32
  let v93 : BitVec 32 := Scalar.addi c0_i32_162 c80_i32_163
  let c1_i32_164 : BitVec 32 := 1#32
  ⟨c0_i32_162, v93, c1_i32_164⟩
@[reducible] def k0_t16_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off38 (k0_t15 : Fin k0_t15_loop.trips) (k0_t16 : Fin k0_t16_loop.trips) : Fin 3 → Nat :=
  let c0_i32_162 : BitVec 32 := 0#32
  let c1_i32_164 : BitVec 32 := 1#32
  let arg15 : BitVec 32 := Scf.iv c0_i32_162 c1_i32_164 k0_t15
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t16
  let c16_i32 : BitVec 32 := 16#32
  let v125 : BitVec 32 := Scalar.muli arg17 c16_i32
  let v128 : Index := Scalar.indexCast v125
  ![v126.toNat, 0, v128.toNat]

def k0_chk29 (v133 : IVec S16 32) : Prop :=
  (∀ a x, ((![v133] : Fin 1 → IVec S16 32) a x).toNat < S28.size a)
instance k0_chk29.dec : ∀ (v133 : IVec S16 32), Decidable (k0_chk29 v133) := fun v133 => decidable_of_iff' _ (Iff.of_eq (k0_chk29.eq_1 v133))
theorem k0_idx29_inb : ∀ (v133 : IVec S16 32) (k0_hw29 : k0_chk29 v133), ∀ a x, ((![v133] : Fin 1 → IVec S16 32) a x).toNat < S28.size a := fun v133 k0_hw29 => k0_hw29
def k0_off39 (k0_t15 : Fin k0_t15_loop.trips) (k0_t16 : Fin k0_t16_loop.trips) : Fin 3 → Nat :=
  let c0_i32_162 : BitVec 32 := 0#32
  let c1_i32_164 : BitVec 32 := 1#32
  let arg15 : BitVec 32 := Scf.iv c0_i32_162 c1_i32_164 k0_t15
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t16
  let c16_i32_227 : BitVec 32 := 16#32
  let v135 : BitVec 32 := Scalar.muli arg17 c16_i32_227
  let v138 : Index := Scalar.indexCast v135
  ![v136.toNat, 0, v138.toNat]

def k0_chk30 (v141 : IVec S16 32) : Prop :=
  (∀ a x, ((![v141] : Fin 1 → IVec S16 32) a x).toNat < S28.size a)
instance k0_chk30.dec : ∀ (v141 : IVec S16 32), Decidable (k0_chk30 v141) := fun v141 => decidable_of_iff' _ (Iff.of_eq (k0_chk30.eq_1 v141))
theorem k0_idx30_inb : ∀ (v141 : IVec S16 32) (k0_hw30 : k0_chk30 v141), ∀ a x, ((![v141] : Fin 1 → IVec S16 32) a x).toNat < S28.size a := fun v141 k0_hw30 => k0_hw30
def k0_off40 (k0_t15 : Fin k0_t15_loop.trips) (k0_t16 : Fin k0_t16_loop.trips) : Fin 3 → Nat :=
  let c0_i32_162 : BitVec 32 := 0#32
  let c1_i32_164 : BitVec 32 := 1#32
  let arg15 : BitVec 32 := Scf.iv c0_i32_162 c1_i32_164 k0_t15
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t16
  let c16_i32_230 : BitVec 32 := 16#32
  let v143 : BitVec 32 := Scalar.muli arg17 c16_i32_230
  let v146 : Index := Scalar.indexCast v143
  ![v144.toNat, 1, v146.toNat]

def k0_chk31 (v149 : IVec S16 32) : Prop :=
  (∀ a x, ((![v149] : Fin 1 → IVec S16 32) a x).toNat < S28.size a)
instance k0_chk31.dec : ∀ (v149 : IVec S16 32), Decidable (k0_chk31 v149) := fun v149 => decidable_of_iff' _ (Iff.of_eq (k0_chk31.eq_1 v149))
theorem k0_idx31_inb : ∀ (v149 : IVec S16 32) (k0_hw31 : k0_chk31 v149), ∀ a x, ((![v149] : Fin 1 → IVec S16 32) a x).toNat < S28.size a := fun v149 k0_hw31 => k0_hw31
def k0_off41 (k0_t15 : Fin k0_t15_loop.trips) (k0_t16 : Fin k0_t16_loop.trips) : Fin 3 → Nat :=
  let c0_i32_162 : BitVec 32 := 0#32
  let c1_i32_164 : BitVec 32 := 1#32
  let arg15 : BitVec 32 := Scf.iv c0_i32_162 c1_i32_164 k0_t15
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t16
  let c16_i32_233 : BitVec 32 := 16#32
  let v151 : BitVec 32 := Scalar.muli arg17 c16_i32_233
  let v154 : Index := Scalar.indexCast v151
  ![v152.toNat, 2, v154.toNat]

def k0_chk32 (v157 : IVec S16 32) : Prop :=
  (∀ a x, ((![v157] : Fin 1 → IVec S16 32) a x).toNat < S28.size a)
instance k0_chk32.dec : ∀ (v157 : IVec S16 32), Decidable (k0_chk32 v157) := fun v157 => decidable_of_iff' _ (Iff.of_eq (k0_chk32.eq_1 v157))
theorem k0_idx32_inb : ∀ (v157 : IVec S16 32) (k0_hw32 : k0_chk32 v157), ∀ a x, ((![v157] : Fin 1 → IVec S16 32) a x).toNat < S28.size a := fun v157 k0_hw32 => k0_hw32
def k0_off42 (k0_t15 : Fin k0_t15_loop.trips) (k0_t16 : Fin k0_t16_loop.trips) : Fin 3 → Nat :=
  let c0_i32_162 : BitVec 32 := 0#32
  let c1_i32_164 : BitVec 32 := 1#32
  let arg15 : BitVec 32 := Scf.iv c0_i32_162 c1_i32_164 k0_t15
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t16
  let c16_i32_235 : BitVec 32 := 16#32
  let v159 : BitVec 32 := Scalar.muli arg17 c16_i32_235
  let v162 : Index := Scalar.indexCast v159
  ![v160.toNat, 3, v162.toNat]
@[reducible] def k0_t17_loop : Scf.Loop 32 :=
  let c0_i32_184 : BitVec 32 := 0#32
  let c80_i32_185 : BitVec 32 := 80#32
  let v105 : BitVec 32 := Scalar.addi c0_i32_184 c80_i32_185
  let c1_i32_186 : BitVec 32 := 1#32
  ⟨c0_i32_184, v105, c1_i32_186⟩
@[reducible] def k0_t18_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off43 (k0_t17 : Fin k0_t17_loop.trips) (k0_t18 : Fin k0_t18_loop.trips) : Fin 3 → Nat :=
  let c0_i32_184 : BitVec 32 := 0#32
  let c1_i32_186 : BitVec 32 := 1#32
  let arg15 : BitVec 32 := Scf.iv c0_i32_184 c1_i32_186 k0_t17
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t18
  let c16_i32 : BitVec 32 := 16#32
  let v125 : BitVec 32 := Scalar.muli arg17 c16_i32
  let v128 : Index := Scalar.indexCast v125
  ![v126.toNat, 0, v128.toNat]

def k0_chk33 (v133 : IVec S16 32) : Prop :=
  (∀ a x, ((![v133] : Fin 1 → IVec S16 32) a x).toNat < S28.size a)
instance k0_chk33.dec : ∀ (v133 : IVec S16 32), Decidable (k0_chk33 v133) := fun v133 => decidable_of_iff' _ (Iff.of_eq (k0_chk33.eq_1 v133))
theorem k0_idx33_inb : ∀ (v133 : IVec S16 32) (k0_hw33 : k0_chk33 v133), ∀ a x, ((![v133] : Fin 1 → IVec S16 32) a x).toNat < S28.size a := fun v133 k0_hw33 => k0_hw33
def k0_off44 (k0_t17 : Fin k0_t17_loop.trips) (k0_t18 : Fin k0_t18_loop.trips) : Fin 3 → Nat :=
  let c0_i32_184 : BitVec 32 := 0#32
  let c1_i32_186 : BitVec 32 := 1#32
  let arg15 : BitVec 32 := Scf.iv c0_i32_184 c1_i32_186 k0_t17
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t18
  let c16_i32_227 : BitVec 32 := 16#32
  let v135 : BitVec 32 := Scalar.muli arg17 c16_i32_227
  let v138 : Index := Scalar.indexCast v135
  ![v136.toNat, 0, v138.toNat]

def k0_chk34 (v141 : IVec S16 32) : Prop :=
  (∀ a x, ((![v141] : Fin 1 → IVec S16 32) a x).toNat < S28.size a)
instance k0_chk34.dec : ∀ (v141 : IVec S16 32), Decidable (k0_chk34 v141) := fun v141 => decidable_of_iff' _ (Iff.of_eq (k0_chk34.eq_1 v141))
theorem k0_idx34_inb : ∀ (v141 : IVec S16 32) (k0_hw34 : k0_chk34 v141), ∀ a x, ((![v141] : Fin 1 → IVec S16 32) a x).toNat < S28.size a := fun v141 k0_hw34 => k0_hw34
def k0_off45 (k0_t17 : Fin k0_t17_loop.trips) (k0_t18 : Fin k0_t18_loop.trips) : Fin 3 → Nat :=
  let c0_i32_184 : BitVec 32 := 0#32
  let c1_i32_186 : BitVec 32 := 1#32
  let arg15 : BitVec 32 := Scf.iv c0_i32_184 c1_i32_186 k0_t17
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t18
  let c16_i32_230 : BitVec 32 := 16#32
  let v143 : BitVec 32 := Scalar.muli arg17 c16_i32_230
  let v146 : Index := Scalar.indexCast v143
  ![v144.toNat, 1, v146.toNat]

def k0_chk35 (v149 : IVec S16 32) : Prop :=
  (∀ a x, ((![v149] : Fin 1 → IVec S16 32) a x).toNat < S28.size a)
instance k0_chk35.dec : ∀ (v149 : IVec S16 32), Decidable (k0_chk35 v149) := fun v149 => decidable_of_iff' _ (Iff.of_eq (k0_chk35.eq_1 v149))
theorem k0_idx35_inb : ∀ (v149 : IVec S16 32) (k0_hw35 : k0_chk35 v149), ∀ a x, ((![v149] : Fin 1 → IVec S16 32) a x).toNat < S28.size a := fun v149 k0_hw35 => k0_hw35
def k0_off46 (k0_t17 : Fin k0_t17_loop.trips) (k0_t18 : Fin k0_t18_loop.trips) : Fin 3 → Nat :=
  let c0_i32_184 : BitVec 32 := 0#32
  let c1_i32_186 : BitVec 32 := 1#32
  let arg15 : BitVec 32 := Scf.iv c0_i32_184 c1_i32_186 k0_t17
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t18
  let c16_i32_233 : BitVec 32 := 16#32
  let v151 : BitVec 32 := Scalar.muli arg17 c16_i32_233
  let v154 : Index := Scalar.indexCast v151
  ![v152.toNat, 2, v154.toNat]

def k0_chk36 (v157 : IVec S16 32) : Prop :=
  (∀ a x, ((![v157] : Fin 1 → IVec S16 32) a x).toNat < S28.size a)
instance k0_chk36.dec : ∀ (v157 : IVec S16 32), Decidable (k0_chk36 v157) := fun v157 => decidable_of_iff' _ (Iff.of_eq (k0_chk36.eq_1 v157))
theorem k0_idx36_inb : ∀ (v157 : IVec S16 32) (k0_hw36 : k0_chk36 v157), ∀ a x, ((![v157] : Fin 1 → IVec S16 32) a x).toNat < S28.size a := fun v157 k0_hw36 => k0_hw36
def k0_off47 (k0_t17 : Fin k0_t17_loop.trips) (k0_t18 : Fin k0_t18_loop.trips) : Fin 3 → Nat :=
  let c0_i32_184 : BitVec 32 := 0#32
  let c1_i32_186 : BitVec 32 := 1#32
  let arg15 : BitVec 32 := Scf.iv c0_i32_184 c1_i32_186 k0_t17
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t18
  let c16_i32_235 : BitVec 32 := 16#32
  let v159 : BitVec 32 := Scalar.muli arg17 c16_i32_235
  let v162 : Index := Scalar.indexCast v159
  ![v160.toNat, 3, v162.toNat]
@[reducible] def k0_t19_loop : Scf.Loop 32 :=
  let c0_i32_202 : BitVec 32 := 0#32
  let c80_i32_203 : BitVec 32 := 80#32
  let v114 : BitVec 32 := Scalar.addi c0_i32_202 c80_i32_203
  let c1_i32_204 : BitVec 32 := 1#32
  ⟨c0_i32_202, v114, c1_i32_204⟩
@[reducible] def k0_t20_loop : Scf.Loop 32 :=
  let c0_i32_220 : BitVec 32 := 0#32
  let c8_i32 : BitVec 32 := 8#32
  let v123 : BitVec 32 := Scalar.addi c0_i32_220 c8_i32
  let c1_i32_221 : BitVec 32 := 1#32
  ⟨c0_i32_220, v123, c1_i32_221⟩
def k0_off48 (k0_t19 : Fin k0_t19_loop.trips) (k0_t20 : Fin k0_t20_loop.trips) : Fin 3 → Nat :=
  let c0_i32_202 : BitVec 32 := 0#32
  let c1_i32_204 : BitVec 32 := 1#32
  let arg15 : BitVec 32 := Scf.iv c0_i32_202 c1_i32_204 k0_t19
  let v126 : Index := Scalar.indexCast arg15
  let c0_i32_224 : BitVec 32 := 0#32
  let v127 : Index := Scalar.indexCast c0_i32_224
  let c0_i32_220 : BitVec 32 := 0#32
  let c1_i32_221 : BitVec 32 := 1#32
  let arg17 : BitVec 32 := Scf.iv c0_i32_220 c1_i32_221 k0_t20
  let c16_i32 : BitVec 32 := 16#32
  let v125 : BitVec 32 := Scalar.muli arg17 c16_i32
  let v128 : Index := Scalar.indexCast v125
  ![v126.toNat, 0, v128.toNat]

def k0_chk37 (v133 : IVec S16 32) : Prop :=
  (∀ a x, ((![v133] : Fin 1 → IVec S16 32) a x).toNat < S28.size a)
instance k0_chk37.dec : ∀ (v133 : IVec S16 32), Decidable (k0_chk37 v133) := fun v133 => decidable_of_iff' _ (Iff.of_eq (k0_chk37.eq_1 v133))
theorem k0_idx37_inb : ∀ (v133 : IVec S16 32) (k0_hw37 : k0_chk37 v133), ∀ a x, ((![v133] : Fin 1 → IVec S16 32) a x).toNat < S28.size a := fun v133 k0_hw37 => k0_hw37
def k0_off49 (k0_t19 : Fin k0_t19_loop.trips) (k0_t20 : Fin k0_t20_loop.trips) : Fin 3 → Nat :=
  let c0_i32_202 : BitVec 32 := 0#32
  let c1_i32_204 : BitVec 32 := 1#32
  let arg15 : BitVec 32 := Scf.iv c0_i32_202 c1_i32_204 k0_t19
  let v136 : Index := Scalar.indexCast arg15
  let c0_i32_228 : BitVec 32 := 0#32
  let v137 : Index := Scalar.indexCast c0_i32_228
  let c0_i32_220 : BitVec 32 := 0#32
  let c1_i32_221 : BitVec 32 := 1#32
  let arg17 : BitVec 32 := Scf.iv c0_i32_220 c1_i32_221 k0_t20
  let c16_i32_227 : BitVec 32 := 16#32
  let v135 : BitVec 32 := Scalar.muli arg17 c16_i32_227
  let v138 : Index := Scalar.indexCast v135
  ![v136.toNat, 0, v138.toNat]

def k0_chk38 (v141 : IVec S16 32) : Prop :=
  (∀ a x, ((![v141] : Fin 1 → IVec S16 32) a x).toNat < S28.size a)
instance k0_chk38.dec : ∀ (v141 : IVec S16 32), Decidable (k0_chk38 v141) := fun v141 => decidable_of_iff' _ (Iff.of_eq (k0_chk38.eq_1 v141))
theorem k0_idx38_inb : ∀ (v141 : IVec S16 32) (k0_hw38 : k0_chk38 v141), ∀ a x, ((![v141] : Fin 1 → IVec S16 32) a x).toNat < S28.size a := fun v141 k0_hw38 => k0_hw38
def k0_off50 (k0_t19 : Fin k0_t19_loop.trips) (k0_t20 : Fin k0_t20_loop.trips) : Fin 3 → Nat :=
  let c0_i32_202 : BitVec 32 := 0#32
  let c1_i32_204 : BitVec 32 := 1#32
  let arg15 : BitVec 32 := Scf.iv c0_i32_202 c1_i32_204 k0_t19
  let v144 : Index := Scalar.indexCast arg15
  let c1_i32_231 : BitVec 32 := 1#32
  let v145 : Index := Scalar.indexCast c1_i32_231
  let c0_i32_220 : BitVec 32 := 0#32
  let c1_i32_221 : BitVec 32 := 1#32
  let arg17 : BitVec 32 := Scf.iv c0_i32_220 c1_i32_221 k0_t20
  let c16_i32_230 : BitVec 32 := 16#32
  let v143 : BitVec 32 := Scalar.muli arg17 c16_i32_230
  let v146 : Index := Scalar.indexCast v143
  ![v144.toNat, 1, v146.toNat]

def k0_chk39 (v149 : IVec S16 32) : Prop :=
  (∀ a x, ((![v149] : Fin 1 → IVec S16 32) a x).toNat < S28.size a)
instance k0_chk39.dec : ∀ (v149 : IVec S16 32), Decidable (k0_chk39 v149) := fun v149 => decidable_of_iff' _ (Iff.of_eq (k0_chk39.eq_1 v149))
theorem k0_idx39_inb : ∀ (v149 : IVec S16 32) (k0_hw39 : k0_chk39 v149), ∀ a x, ((![v149] : Fin 1 → IVec S16 32) a x).toNat < S28.size a := fun v149 k0_hw39 => k0_hw39
def k0_off51 (k0_t19 : Fin k0_t19_loop.trips) (k0_t20 : Fin k0_t20_loop.trips) : Fin 3 → Nat :=
  let c0_i32_202 : BitVec 32 := 0#32
  let c1_i32_204 : BitVec 32 := 1#32
  let arg15 : BitVec 32 := Scf.iv c0_i32_202 c1_i32_204 k0_t19
  let v152 : Index := Scalar.indexCast arg15
  let c2_i32_234 : BitVec 32 := 2#32
  let v153 : Index := Scalar.indexCast c2_i32_234
  let c0_i32_220 : BitVec 32 := 0#32
  let c1_i32_221 : BitVec 32 := 1#32
  let arg17 : BitVec 32 := Scf.iv c0_i32_220 c1_i32_221 k0_t20
  let c16_i32_233 : BitVec 32 := 16#32
  let v151 : BitVec 32 := Scalar.muli arg17 c16_i32_233
  let v154 : Index := Scalar.indexCast v151
  ![v152.toNat, 2, v154.toNat]

def k0_chk40 (v157 : IVec S16 32) : Prop :=
  (∀ a x, ((![v157] : Fin 1 → IVec S16 32) a x).toNat < S28.size a)
instance k0_chk40.dec : ∀ (v157 : IVec S16 32), Decidable (k0_chk40 v157) := fun v157 => decidable_of_iff' _ (Iff.of_eq (k0_chk40.eq_1 v157))
theorem k0_idx40_inb : ∀ (v157 : IVec S16 32) (k0_hw40 : k0_chk40 v157), ∀ a x, ((![v157] : Fin 1 → IVec S16 32) a x).toNat < S28.size a := fun v157 k0_hw40 => k0_hw40
def k0_off52 (k0_t19 : Fin k0_t19_loop.trips) (k0_t20 : Fin k0_t20_loop.trips) : Fin 3 → Nat :=
  let c0_i32_202 : BitVec 32 := 0#32
  let c1_i32_204 : BitVec 32 := 1#32
  let arg15 : BitVec 32 := Scf.iv c0_i32_202 c1_i32_204 k0_t19
  let v160 : Index := Scalar.indexCast arg15
  let c3_i32_236 : BitVec 32 := 3#32
  let v161 : Index := Scalar.indexCast c3_i32_236
  let c0_i32_220 : BitVec 32 := 0#32
  let c1_i32_221 : BitVec 32 := 1#32
  let arg17 : BitVec 32 := Scf.iv c0_i32_220 c1_i32_221 k0_t20
  let c16_i32_235 : BitVec 32 := 16#32
  let v159 : BitVec 32 := Scalar.muli arg17 c16_i32_235
  let v162 : Index := Scalar.indexCast v159
  ![v160.toNat, 3, v162.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x200x8_S128x128x200x8 : S16384x200x8.ShapeCasts S128x128x200x8
  transposes_S128x128x200x8_S200x128x8x128_2_0_3_1 : S128x128x200x8.Transposes [2, 0, 3, 1] S200x128x8x128
  shapeCasts_S200x128x8x128_S25600x8x128 : S200x128x8x128.ShapeCasts S25600x8x128
  shapeCasts_S7x4_S28 : S7x4.ShapeCasts S28
  h_S1x1x16 : 0 < S1x1x16.numel
  shapeCasts_S1x1x16_S16 : S1x1x16.ShapeCasts S16
  h_S28 : 0 < S28.numel
  shapeCasts_S16_S1x1x16 : S16.ShapeCasts S1x1x16
  shapeCasts_S25600x4x128_S200x128x4x128 : S25600x4x128.ShapeCasts S200x128x4x128
  transposes_S200x128x4x128_S128x128x200x4_1_3_0_2 : S200x128x4x128.Transposes [1, 3, 0, 2] S128x128x200x4
  shapeCasts_S128x128x200x4_S16384x200x4 : S128x128x200x4.ShapeCasts S16384x200x4
  hcc0_scratch5 : 0 + S_.numel ≤ 5
  hcc0_scratch6 : 1 + S_.numel ≤ 5
  hcc0_scratch7 : 2 + S_.numel ≤ 5
  hcc0_scratch8 : 3 + S_.numel ≤ 5
  hcc0_scratch9 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 10), ∀ a, (k0_off1 i (BitVec.ofNat 32 (80 * r.val))) a + S80x1x128.size a ≤ S25600x8x128.size a
  k0_t1_ok : k0_t1_loop.OK
  k0_t2_ok : k0_t2_loop.OK
  k0_off2_inb : ∀ (k0_t1 : Fin k0_t1_loop.trips) (k0_t2 : Fin k0_t2_loop.trips), ∀ a, (k0_off2 k0_t1 k0_t2) a + S1x1x16.size a ≤ S80x1x128.size a
  k0_off3_inb : ∀ (k0_t1 : Fin k0_t1_loop.trips) (k0_t2 : Fin k0_t2_loop.trips), ∀ a, (k0_off3 k0_t1 k0_t2) a + S1x1x16.size a ≤ S80x4x128.size a
  k0_off4_inb : ∀ (k0_t1 : Fin k0_t1_loop.trips) (k0_t2 : Fin k0_t2_loop.trips), ∀ a, (k0_off4 k0_t1 k0_t2) a + S1x1x16.size a ≤ S80x4x128.size a
  k0_off5_inb : ∀ (k0_t1 : Fin k0_t1_loop.trips) (k0_t2 : Fin k0_t2_loop.trips), ∀ a, (k0_off5 k0_t1 k0_t2) a + S1x1x16.size a ≤ S80x4x128.size a
  k0_off6_inb : ∀ (k0_t1 : Fin k0_t1_loop.trips) (k0_t2 : Fin k0_t2_loop.trips), ∀ a, (k0_off6 k0_t1 k0_t2) a + S1x1x16.size a ≤ S80x4x128.size a
  k0_off7_inb : ∀ i : grid0.Coords, ∀ (r : Fin 10), ∀ a, (k0_off7 i (BitVec.ofNat 32 (80 * r.val))) a + S80x4x128.size a ≤ S25600x4x128.size a
  k0_t3_ok : k0_t3_loop.OK
  k0_t4_ok : k0_t4_loop.OK
  k0_off8_inb : ∀ (k0_t3 : Fin k0_t3_loop.trips) (k0_t4 : Fin k0_t4_loop.trips), ∀ a, (k0_off8 k0_t3 k0_t4) a + S1x1x16.size a ≤ S80x1x128.size a
  k0_off9_inb : ∀ (k0_t3 : Fin k0_t3_loop.trips) (k0_t4 : Fin k0_t4_loop.trips), ∀ a, (k0_off9 k0_t3 k0_t4) a + S1x1x16.size a ≤ S80x4x128.size a
  k0_off10_inb : ∀ (k0_t3 : Fin k0_t3_loop.trips) (k0_t4 : Fin k0_t4_loop.trips), ∀ a, (k0_off10 k0_t3 k0_t4) a + S1x1x16.size a ≤ S80x4x128.size a
  k0_off11_inb : ∀ (k0_t3 : Fin k0_t3_loop.trips) (k0_t4 : Fin k0_t4_loop.trips), ∀ a, (k0_off11 k0_t3 k0_t4) a + S1x1x16.size a ≤ S80x4x128.size a
  k0_off12_inb : ∀ (k0_t3 : Fin k0_t3_loop.trips) (k0_t4 : Fin k0_t4_loop.trips), ∀ a, (k0_off12 k0_t3 k0_t4) a + S1x1x16.size a ≤ S80x4x128.size a
  k0_t5_ok : k0_t5_loop.OK
  k0_t6_ok : k0_t6_loop.OK
  k0_off13_inb : ∀ (k0_t5 : Fin k0_t5_loop.trips) (k0_t6 : Fin k0_t6_loop.trips), ∀ a, (k0_off13 k0_t5 k0_t6) a + S1x1x16.size a ≤ S80x1x128.size a
  k0_off14_inb : ∀ (k0_t5 : Fin k0_t5_loop.trips) (k0_t6 : Fin k0_t6_loop.trips), ∀ a, (k0_off14 k0_t5 k0_t6) a + S1x1x16.size a ≤ S80x4x128.size a
  k0_off15_inb : ∀ (k0_t5 : Fin k0_t5_loop.trips) (k0_t6 : Fin k0_t6_loop.trips), ∀ a, (k0_off15 k0_t5 k0_t6) a + S1x1x16.size a ≤ S80x4x128.size a
  k0_off16_inb : ∀ (k0_t5 : Fin k0_t5_loop.trips) (k0_t6 : Fin k0_t6_loop.trips), ∀ a, (k0_off16 k0_t5 k0_t6) a + S1x1x16.size a ≤ S80x4x128.size a
  k0_off17_inb : ∀ (k0_t5 : Fin k0_t5_loop.trips) (k0_t6 : Fin k0_t6_loop.trips), ∀ a, (k0_off17 k0_t5 k0_t6) a + S1x1x16.size a ≤ S80x4x128.size a
  k0_t7_ok : k0_t7_loop.OK
  k0_t8_ok : k0_t8_loop.OK
  k0_off18_inb : ∀ (k0_t7 : Fin k0_t7_loop.trips) (k0_t8 : Fin k0_t8_loop.trips), ∀ a, (k0_off18 k0_t7 k0_t8) a + S1x1x16.size a ≤ S80x1x128.size a
  k0_off19_inb : ∀ (k0_t7 : Fin k0_t7_loop.trips) (k0_t8 : Fin k0_t8_loop.trips), ∀ a, (k0_off19 k0_t7 k0_t8) a + S1x1x16.size a ≤ S80x4x128.size a
  k0_off20_inb : ∀ (k0_t7 : Fin k0_t7_loop.trips) (k0_t8 : Fin k0_t8_loop.trips), ∀ a, (k0_off20 k0_t7 k0_t8) a + S1x1x16.size a ≤ S80x4x128.size a
  k0_off21_inb : ∀ (k0_t7 : Fin k0_t7_loop.trips) (k0_t8 : Fin k0_t8_loop.trips), ∀ a, (k0_off21 k0_t7 k0_t8) a + S1x1x16.size a ≤ S80x4x128.size a
  k0_off22_inb : ∀ (k0_t7 : Fin k0_t7_loop.trips) (k0_t8 : Fin k0_t8_loop.trips), ∀ a, (k0_off22 k0_t7 k0_t8) a + S1x1x16.size a ≤ S80x4x128.size a
  k0_t9_ok : k0_t9_loop.OK
  k0_t10_ok : k0_t10_loop.OK
  k0_off23_inb : ∀ (k0_t9 : Fin k0_t9_loop.trips) (k0_t10 : Fin k0_t10_loop.trips), ∀ a, (k0_off23 k0_t9 k0_t10) a + S1x1x16.size a ≤ S80x1x128.size a
  k0_off24_inb : ∀ (k0_t9 : Fin k0_t9_loop.trips) (k0_t10 : Fin k0_t10_loop.trips), ∀ a, (k0_off24 k0_t9 k0_t10) a + S1x1x16.size a ≤ S80x4x128.size a
  k0_off25_inb : ∀ (k0_t9 : Fin k0_t9_loop.trips) (k0_t10 : Fin k0_t10_loop.trips), ∀ a, (k0_off25 k0_t9 k0_t10) a + S1x1x16.size a ≤ S80x4x128.size a
  k0_off26_inb : ∀ (k0_t9 : Fin k0_t9_loop.trips) (k0_t10 : Fin k0_t10_loop.trips), ∀ a, (k0_off26 k0_t9 k0_t10) a + S1x1x16.size a ≤ S80x4x128.size a
  k0_off27_inb : ∀ (k0_t9 : Fin k0_t9_loop.trips) (k0_t10 : Fin k0_t10_loop.trips), ∀ a, (k0_off27 k0_t9 k0_t10) a + S1x1x16.size a ≤ S80x4x128.size a
  k0_t11_ok : k0_t11_loop.OK
  k0_t12_ok : k0_t12_loop.OK
  k0_off28_inb : ∀ (k0_t11 : Fin k0_t11_loop.trips) (k0_t12 : Fin k0_t12_loop.trips), ∀ a, (k0_off28 k0_t11 k0_t12) a + S1x1x16.size a ≤ S80x1x128.size a
  k0_off29_inb : ∀ (k0_t11 : Fin k0_t11_loop.trips) (k0_t12 : Fin k0_t12_loop.trips), ∀ a, (k0_off29 k0_t11 k0_t12) a + S1x1x16.size a ≤ S80x4x128.size a
  k0_off30_inb : ∀ (k0_t11 : Fin k0_t11_loop.trips) (k0_t12 : Fin k0_t12_loop.trips), ∀ a, (k0_off30 k0_t11 k0_t12) a + S1x1x16.size a ≤ S80x4x128.size a
  k0_off31_inb : ∀ (k0_t11 : Fin k0_t11_loop.trips) (k0_t12 : Fin k0_t12_loop.trips), ∀ a, (k0_off31 k0_t11 k0_t12) a + S1x1x16.size a ≤ S80x4x128.size a
  k0_off32_inb : ∀ (k0_t11 : Fin k0_t11_loop.trips) (k0_t12 : Fin k0_t12_loop.trips), ∀ a, (k0_off32 k0_t11 k0_t12) a + S1x1x16.size a ≤ S80x4x128.size a
  k0_t13_ok : k0_t13_loop.OK
  k0_t14_ok : k0_t14_loop.OK
  k0_off33_inb : ∀ (k0_t13 : Fin k0_t13_loop.trips) (k0_t14 : Fin k0_t14_loop.trips), ∀ a, (k0_off33 k0_t13 k0_t14) a + S1x1x16.size a ≤ S80x1x128.size a
  k0_off34_inb : ∀ (k0_t13 : Fin k0_t13_loop.trips) (k0_t14 : Fin k0_t14_loop.trips), ∀ a, (k0_off34 k0_t13 k0_t14) a + S1x1x16.size a ≤ S80x4x128.size a
  k0_off35_inb : ∀ (k0_t13 : Fin k0_t13_loop.trips) (k0_t14 : Fin k0_t14_loop.trips), ∀ a, (k0_off35 k0_t13 k0_t14) a + S1x1x16.size a ≤ S80x4x128.size a
  k0_off36_inb : ∀ (k0_t13 : Fin k0_t13_loop.trips) (k0_t14 : Fin k0_t14_loop.trips), ∀ a, (k0_off36 k0_t13 k0_t14) a + S1x1x16.size a ≤ S80x4x128.size a
  k0_off37_inb : ∀ (k0_t13 : Fin k0_t13_loop.trips) (k0_t14 : Fin k0_t14_loop.trips), ∀ a, (k0_off37 k0_t13 k0_t14) a + S1x1x16.size a ≤ S80x4x128.size a
  k0_t15_ok : k0_t15_loop.OK
  k0_t16_ok : k0_t16_loop.OK
  k0_off38_inb : ∀ (k0_t15 : Fin k0_t15_loop.trips) (k0_t16 : Fin k0_t16_loop.trips), ∀ a, (k0_off38 k0_t15 k0_t16) a + S1x1x16.size a ≤ S80x1x128.size a
  k0_off39_inb : ∀ (k0_t15 : Fin k0_t15_loop.trips) (k0_t16 : Fin k0_t16_loop.trips), ∀ a, (k0_off39 k0_t15 k0_t16) a + S1x1x16.size a ≤ S80x4x128.size a
  k0_off40_inb : ∀ (k0_t15 : Fin k0_t15_loop.trips) (k0_t16 : Fin k0_t16_loop.trips), ∀ a, (k0_off40 k0_t15 k0_t16) a + S1x1x16.size a ≤ S80x4x128.size a
  k0_off41_inb : ∀ (k0_t15 : Fin k0_t15_loop.trips) (k0_t16 : Fin k0_t16_loop.trips), ∀ a, (k0_off41 k0_t15 k0_t16) a + S1x1x16.size a ≤ S80x4x128.size a
  k0_off42_inb : ∀ (k0_t15 : Fin k0_t15_loop.trips) (k0_t16 : Fin k0_t16_loop.trips), ∀ a, (k0_off42 k0_t15 k0_t16) a + S1x1x16.size a ≤ S80x4x128.size a
  k0_t17_ok : k0_t17_loop.OK
  k0_t18_ok : k0_t18_loop.OK
  k0_off43_inb : ∀ (k0_t17 : Fin k0_t17_loop.trips) (k0_t18 : Fin k0_t18_loop.trips), ∀ a, (k0_off43 k0_t17 k0_t18) a + S1x1x16.size a ≤ S80x1x128.size a
  k0_off44_inb : ∀ (k0_t17 : Fin k0_t17_loop.trips) (k0_t18 : Fin k0_t18_loop.trips), ∀ a, (k0_off44 k0_t17 k0_t18) a + S1x1x16.size a ≤ S80x4x128.size a
  k0_off45_inb : ∀ (k0_t17 : Fin k0_t17_loop.trips) (k0_t18 : Fin k0_t18_loop.trips), ∀ a, (k0_off45 k0_t17 k0_t18) a + S1x1x16.size a ≤ S80x4x128.size a
  k0_off46_inb : ∀ (k0_t17 : Fin k0_t17_loop.trips) (k0_t18 : Fin k0_t18_loop.trips), ∀ a, (k0_off46 k0_t17 k0_t18) a + S1x1x16.size a ≤ S80x4x128.size a
  k0_off47_inb : ∀ (k0_t17 : Fin k0_t17_loop.trips) (k0_t18 : Fin k0_t18_loop.trips), ∀ a, (k0_off47 k0_t17 k0_t18) a + S1x1x16.size a ≤ S80x4x128.size a
  k0_t19_ok : k0_t19_loop.OK
  k0_t20_ok : k0_t20_loop.OK
  k0_off48_inb : ∀ (k0_t19 : Fin k0_t19_loop.trips) (k0_t20 : Fin k0_t20_loop.trips), ∀ a, (k0_off48 k0_t19 k0_t20) a + S1x1x16.size a ≤ S80x1x128.size a
  k0_off49_inb : ∀ (k0_t19 : Fin k0_t19_loop.trips) (k0_t20 : Fin k0_t20_loop.trips), ∀ a, (k0_off49 k0_t19 k0_t20) a + S1x1x16.size a ≤ S80x4x128.size a
  k0_off50_inb : ∀ (k0_t19 : Fin k0_t19_loop.trips) (k0_t20 : Fin k0_t20_loop.trips), ∀ a, (k0_off50 k0_t19 k0_t20) a + S1x1x16.size a ≤ S80x4x128.size a
  k0_off51_inb : ∀ (k0_t19 : Fin k0_t19_loop.trips) (k0_t20 : Fin k0_t20_loop.trips), ∀ a, (k0_off51 k0_t19 k0_t20) a + S1x1x16.size a ≤ S80x4x128.size a
  k0_off52_inb : ∀ (k0_t19 : Fin k0_t19_loop.trips) (k0_t20 : Fin k0_t20_loop.trips), ∀ a, (k0_off52 k0_t19 k0_t20) a + S1x1x16.size a ≤ S80x4x128.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9

class Facts : Prop extends Facts₀ where

variable [Facts]
-- ==== ReferenceIdeal.lean ====
abbrev S16384x200x8 : Shape := ⟨3, ![16384, 200, 8]⟩
abbrev S7x4 : Shape := ⟨2, ![7, 4]⟩
abbrev S16384x200x1 : Shape := ⟨3, ![16384, 200, 1]⟩
abbrev S16384x200 : Shape := ⟨2, ![16384, 200]⟩
abbrev S_ : Shape := ⟨0, ![]⟩
abbrev S1 : Shape := ⟨1, ![1]⟩
abbrev S1x1x1 : Shape := ⟨3, ![1, 1, 1]⟩
abbrev S16384x200x4 : Shape := ⟨3, ![16384, 200, 4]⟩

abbrev nBuf : Space → Nat
  | .hbm => 27
  | .vmem => 0
  | .smem => 0
  | _ => 0

abbrev bufTy : (tb : Table) → Fin (tcTables nBuf tb) → BufTy
  | .hbm, ⟨0, _⟩ => ⟨S16384x200x8, .i32⟩
  | .hbm, ⟨1, _⟩ => ⟨S7x4, .f32⟩
  | .hbm, ⟨2, _⟩ => ⟨S16384x200x1, .i32⟩
  | .hbm, ⟨3, _⟩ => ⟨S16384x200, .i32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S1, .i32⟩
  | .hbm, ⟨13, _⟩ => ⟨S_, .i32⟩
  | .hbm, ⟨14, _⟩ => ⟨S16384x200x1, .i32⟩
  | .hbm, ⟨15, _⟩ => ⟨S16384x200x1, .i1⟩
  | .hbm, ⟨16, _⟩ => ⟨S1x1x1, .i32⟩
  | .hbm, ⟨17, _⟩ => ⟨S16384x200x1, .i32⟩
  | .hbm, ⟨18, _⟩ => ⟨S16384x200x1, .i1⟩
  | .hbm, ⟨19, _⟩ => ⟨S16384x200x1, .i1⟩
  | .hbm, ⟨20, _⟩ => ⟨S_, .i1⟩
  | .hbm, ⟨21, _⟩ => ⟨S16384x200, .i1⟩
  | .hbm, ⟨22, _⟩ => ⟨S16384x200x4, .f32⟩
  | .hbm, ⟨23, _⟩ => ⟨S16384x200x4, .i1⟩
  | .hbm, ⟨24, _⟩ => ⟨S_, .f32⟩
  | .hbm, ⟨25, _⟩ => ⟨S16384x200x4, .f32⟩
  | .hbm, ⟨26, _⟩ => ⟨S16384x200x4, .f32⟩
  | _, _ => ⟨S16384x200x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  slices_S16384x200x8_S16384x200x1_0_0_0 : S16384x200x8.Slices ![0, 0, 0] S16384x200x1
  shapeCasts_S16384x200x1_S16384x200 : S16384x200x1.ShapeCasts S16384x200
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x4_0_1 : S16384x200.BroadcastsInDim S16384x200x4 (![0, 1] : Fin 2 → Fin S16384x200x4.rank)
  bcast_S_S16384x200x4 : S_.BroadcastsInDim S16384x200x4 (![] : Fin 0 → Fin S16384x200x4.rank)
  gather_S7x4_S16384x200x1_S16384x200x4_2_0_n_n_0_2_14_wf : GatherDims.WF S7x4 S16384x200x1 S16384x200x4 [2] [0] [] [0] [] 2 ![1, 4]

variable [Facts₀]

def gather_S7x4_S16384x200x1_S16384x200x4_2_0_n_n_0_2_14 : GatherDims S7x4 S16384x200x1 S16384x200x4 where
  offsetDims := [2]
  collapsedSliceDims := [0]
  operandBatchingDims := []
  startIndicesBatchingDims := []
  startIndexMap := [0]
  indexVectorDim := 2
  sliceSizes := ![1, 4]
  wf := gather_S7x4_S16384x200x1_S16384x200x4_2_0_n_n_0_2_14_wf

class Facts : Prop extends Facts₀ where

variable [Facts]
-- ==== Proof.KSpec.lean ====
/-
  What the lookup kernel leaves in its own output array, as one function of the arrays it is given: the
  index array x laid out as 25600 panels of 8 rows of 128 lanes, the table flattened to 28 words. Entry
  (p, c, l) of the output is the flat table's word at 4·x[p, 0, l] + c. The word is folded into the 28
  words so that the function is total; for 0 ≤ x ≤ 6 the folding is the identity.
-/
import Idealize.ShloMosaic.PureOps
import Idealize.ShloMosaic.Lib.ValueIdx

namespace Cert.KSpec

open Idealize.ShloMosaic

abbrev SX : Shape := ⟨3, ![25600, 8, 128]⟩
abbrev ST : Shape := ⟨1, ![28]⟩
abbrev SO : Shape := ⟨3, ![25600, 4, 128]⟩

/-- The flat table's word that an index word w and a column c name: 4·w + c, folded into the 28 words. -/
def tabIx (w : BitVec 32) (c : Fin 4) : ST.Idx :=
  ValueIdx.ix1 (n := 28) ⟨(w.toNat * 4 + c.val) % 28, Nat.mod_lt _ (by decide)⟩

theorem tabIx_val_of_le {w : BitVec 32} (h : w.toNat ≤ 6) (c : Fin 4) : (tabIx w c 0).val = w.toNat * 4 + c.val :=
  Nat.mod_eq_of_lt (by have := c.isLt; omega)

/-- Entry (p, c, l) of the kernel's output: the flat table's word at 4·x[p, 0, l] + c. -/
def Gk {α : Type} (x : SX.Idx → BitVec 32) (tab : ST.Idx → α) : SO.Idx → α :=
  fun j => tab (tabIx (x (ValueIdx.ix3 (n0 := 25600) (n1 := 8) (n2 := 128) (j 0) 0 (j 2))) (j 1))

theorem Gk_apply {α : Type} (x : SX.Idx → BitVec 32) (tab : ST.Idx → α) (p : Fin 25600) (c : Fin 4) (l : Fin 128) :
    Gk x tab (ValueIdx.ix3 p c l) = tab (tabIx (x (ValueIdx.ix3 p 0 l)) c) := rfl

end Cert.KSpec
-- ==== Proof.Words.lean ====
/-
  Index words. A table index 0 ≤ w ≤ 6, shifted left by two and increased by a column 0 ≤ c ≤ 3, is the
  number 4·w + c < 28: the shift does not overflow and the sum does not wrap.
-/
import Idealize.ShloMosaic.PureOps

namespace Cert.Words

open Idealize.ShloMosaic

theorem word_cases {w : BitVec 32} (h : w.toNat ≤ 6) :
    w = 0#32 ∨ w = 1#32 ∨ w = 2#32 ∨ w = 3#32 ∨ w = 4#32 ∨ w = 5#32 ∨ w = 6#32 := by
  have e : w = BitVec.ofNat 32 w.toNat := by simp
  generalize w.toNat = n at h e
  subst e
  have hn : n = 0 ∨ n = 1 ∨ n = 2 ∨ n = 3 ∨ n = 4 ∨ n = 5 ∨ n = 6 := by omega
  rcases hn with rfl | rfl | rfl | rfl | rfl | rfl | rfl <;> simp

/-- The word the kernel computes for column c from an index word w ≤ 6 is 4·w + c. -/
theorem lane_toNat {w : BitVec 32} (h : w.toNat ≤ 6) (c : Fin 4) :
    (IntOp.addi (IntOp.shli .vector w 2#32) (BitVec.ofNat 32 c.val)).toNat = w.toNat * 4 + c.val := by
  rcases word_cases h with rfl | rfl | rfl | rfl | rfl | rfl | rfl <;> fin_cases c <;> decide

theorem lane_lt {w : BitVec 32} (h : w.toNat ≤ 6) (c : Fin 4) :
    (IntOp.addi (IntOp.shli .vector w 2#32) (BitVec.ofNat 32 c.val)).toNat < 28 := by
  rw [lane_toNat h c]; have := c.isLt; omega

end Cert.Words
-- ==== Proof.LibWholeWrites.lean ====
/-
  A store through a rectangle of a WHOLE buffer, read back at an index of the buffer: inside the
  rectangle it is the payload at the matching local index, outside it the buffer is unchanged.
-/
import Idealize.ShloMosaic.Lib.Writes

namespace Cert.LibWholeWrites

open Idealize.ShloMosaic

variable {sig : RefSig} {κ : Kind} {Val : EltTy → Type}

/-- Inside the rectangle: the payload at the local index. -/
theorem whole_write_hit (b : Ref sig κ) (r : Rect b.ty.shape) (g : b.ty.Contents Val) (w : r.shape.Idx → Val b.ty.elt)
    (x : r.shape.Idx) : ((View.whole b).slice r).write Val g w Finset.univ (r.emb x) = w x := by
  have h := View.write_emb_of_mem (v := (View.whole b).slice r) g w (Finset.mem_univ x)
  exact h

/-- Outside the rectangle: unchanged. -/
theorem whole_write_miss (b : Ref sig κ) (r : Rect b.ty.shape) (g : b.ty.Contents Val) (w : r.shape.Idx → Val b.ty.elt)
    (i : b.ty.shape.Idx) (hi : i ∉ r.set) : ((View.whole b).slice r).write Val g w Finset.univ i = g i :=
  View.write_of_not_mem g w Finset.univ (by rw [View.setOn_univ, View.set_slice_whole]; exact hi)

end Cert.LibWholeWrites
-- ==== Proof.StripKI.lean ====
/-
  One trip of a block's inner loop stores four strips of sixteen lanes, one per table column, into the block's
  output scratch at row k, lanes 16·j … 16·j + 15. Read back index by index: an entry inside a strip holds
  that strip's payload, every other entry is unchanged; so the part of the scratch that already agrees
  with a whole-block function G grows by those lanes when each payload is G there.
-/
import Idealize.ShloMosaic.Lib.ValueIdx
import proofs.«206284_g43061342110465_cont_8to1_b_1111_8_alg».proof.Proof.Gen.KernelIdeal
import proofs.«206284_g43061342110465_cont_8to1_b_1111_8_alg».proof.Proof.LibWholeWrites

namespace Cert.Proof.KI

open Cert.KernelIdeal Cert.KernelIdeal.Gen
open Idealize.ShloMosaic

variable {F : FTy → Type}

theorem mem_strip (off : Fin 3 → Nat) (inb : ∀ a, off a + S1x1x16.size a ≤ S80x4x128.size a) (i : S80x4x128.Idx) :
    i ∈ (Rect.unit (s := S80x4x128) off S1x1x16.size inb).set ↔
      (off 0 ≤ (i 0).val ∧ (i 0).val < off 0 + 1) ∧ (off 1 ≤ (i 1).val ∧ (i 1).val < off 1 + 1)
        ∧ (off 2 ≤ (i 2).val ∧ (i 2).val < off 2 + 16) := by
  rw [Rect.mem_set_unit]
  constructor
  · intro h; exact ⟨h 0, h 1, h 2⟩
  · rintro ⟨h0, h1, h2⟩ a
    match a with
    | 0 => exact h0
    | 1 => exact h1
    | 2 => exact h2

/-- The local index of lane l of a strip. -/
def laneIx (l : Fin 16) : S1x1x16.Idx := ValueIdx.ix3 (n0 := 1) (n1 := 1) (n2 := 16) 0 0 l

theorem emb_strip (off : Fin 3 → Nat) (inb : ∀ a, off a + S1x1x16.size a ≤ S80x4x128.size a) (i : S80x4x128.Idx) (l : Fin 16)
    (h0 : (i 0).val = off 0) (h1 : (i 1).val = off 1) (h2 : (i 2).val = off 2 + l.val) :
    (Rect.unit (s := S80x4x128) off S1x1x16.size inb).emb (laneIx l) = i := by
  funext a
  apply Fin.ext
  rw [Rect.emb_apply]
  match a with
  | 0 => show off 0 + 1 * 0 = (i 0).val; omega
  | 1 => show off 1 + 1 * 0 = (i 1).val; omega
  | 2 => show off 2 + 1 * l.val = (i 2).val; omega

section
variable (g : S80x4x128.Idx → Elt F .f32) (off : Fin 3 → Nat) (inb : ∀ a, off a + S1x1x16.size a ≤ S80x4x128.size a)
  (w : S1x1x16.Idx → Elt F .f32) (i : S80x4x128.Idx)

theorem strip3_hit (l : Fin 16) (h0 : (i 0).val = off 0) (h1 : (i 1).val = off 1) (h2 : (i 2).val = off 2 + l.val) :
    ((View.whole (cc0_scratch3 : Ref sig .scVector)).slice (Rect.unit (s := S80x4x128) off S1x1x16.size inb)).write (Elt F) g w Finset.univ i = w (laneIx l) := by
  rw [← emb_strip off inb i l h0 h1 h2]
  exact Cert.LibWholeWrites.whole_write_hit (cc0_scratch3 : Ref sig .scVector) (Rect.unit (s := S80x4x128) off S1x1x16.size inb) g w (laneIx l)

theorem strip3_miss (h : ¬ ((off 0 ≤ (i 0).val ∧ (i 0).val < off 0 + 1) ∧ (off 1 ≤ (i 1).val ∧ (i 1).val < off 1 + 1)
      ∧ (off 2 ≤ (i 2).val ∧ (i 2).val < off 2 + 16))) :
    ((View.whole (cc0_scratch3 : Ref sig .scVector)).slice (Rect.unit (s := S80x4x128) off S1x1x16.size inb)).write (Elt F) g w Finset.univ i = g i :=
  Cert.LibWholeWrites.whole_write_miss (cc0_scratch3 : Ref sig .scVector) (Rect.unit (s := S80x4x128) off S1x1x16.size inb) g w i
    (fun hm => h ((mem_strip off inb i).mp hm))
end

/-- Four strips at row k, lanes 16·j …, columns 0 … 3 (stored in that order): the entries that agree with G grow by those lanes. -/
theorem strips3_step (k j : Nat) (hj : j < 8) (f G : S80x4x128.Idx → Elt F .f32)
    (o0 o1 o2 o3 : Fin 3 → Nat) (e0 : o0 = ![k, 0, 16 * j]) (e1 : o1 = ![k, 1, 16 * j]) (e2 : o2 = ![k, 2, 16 * j]) (e3 : o3 = ![k, 3, 16 * j])
    (i0 : ∀ a, o0 a + S1x1x16.size a ≤ S80x4x128.size a) (i1 : ∀ a, o1 a + S1x1x16.size a ≤ S80x4x128.size a)
    (i2 : ∀ a, o2 a + S1x1x16.size a ≤ S80x4x128.size a) (i3 : ∀ a, o3 a + S1x1x16.size a ≤ S80x4x128.size a)
    (w0 w1 w2 w3 : S1x1x16.Idx → Elt F .f32)
    (hw0 : ∀ (l : Fin 16) (i : S80x4x128.Idx), (i 0).val = k → (i 1).val = 0 → (i 2).val = 16 * j + l.val → w0 (laneIx l) = G i)
    (hw1 : ∀ (l : Fin 16) (i : S80x4x128.Idx), (i 0).val = k → (i 1).val = 1 → (i 2).val = 16 * j + l.val → w1 (laneIx l) = G i)
    (hw2 : ∀ (l : Fin 16) (i : S80x4x128.Idx), (i 0).val = k → (i 1).val = 2 → (i 2).val = 16 * j + l.val → w2 (laneIx l) = G i)
    (hw3 : ∀ (l : Fin 16) (i : S80x4x128.Idx), (i 0).val = k → (i 1).val = 3 → (i 2).val = 16 * j + l.val → w3 (laneIx l) = G i)
    (hf : ∀ i : S80x4x128.Idx, ((i 0).val < k ∨ ((i 0).val = k ∧ (i 2).val < 16 * j)) → f i = G i) :
    ∀ i : S80x4x128.Idx, ((i 0).val < k ∨ ((i 0).val = k ∧ (i 2).val < 16 * (j + 1))) →
      (View.whole (cc0_scratch3 : Ref sig .scVector)).writes (Elt F) f
        [⟨Rect.unit (s := S80x4x128) o3 S1x1x16.size i3, w3⟩, ⟨Rect.unit (s := S80x4x128) o2 S1x1x16.size i2, w2⟩,
          ⟨Rect.unit (s := S80x4x128) o1 S1x1x16.size i1, w1⟩, ⟨Rect.unit (s := S80x4x128) o0 S1x1x16.size i0, w0⟩] i = G i := by
  subst e0 e1 e2 e3
  intro i hi
  simp only [View.writes_cons, View.writes_nil]
  have hc : (i 1).val < 4 := (i 1).isLt
  by_cases hs : (i 0).val = k ∧ 16 * j ≤ (i 2).val
  · obtain ⟨hk, hlo⟩ := hs
    have hhi : (i 2).val < 16 * j + 16 := by rcases hi with h | h <;> omega
    have hl : (i 2).val - 16 * j < 16 := by omega
    have h2 : (i 2).val = 16 * j + (⟨(i 2).val - 16 * j, hl⟩ : Fin 16).val := by show _ = 16 * j + ((i 2).val - 16 * j); omega
    have hcase : (i 1).val = 0 ∨ (i 1).val = 1 ∨ (i 1).val = 2 ∨ (i 1).val = 3 := by omega
    rcases hcase with hc0 | hc1 | hc2 | hc3
    · rw [strip3_miss _ _ _ _ i (by simp; omega), strip3_miss _ _ _ _ i (by simp; omega), strip3_miss _ _ _ _ i (by simp; omega),
        strip3_hit _ _ _ _ i ⟨(i 2).val - 16 * j, hl⟩ (by simpa using hk) (by simpa using hc0) (by simpa using h2)]
      exact hw0 _ i hk hc0 h2
    · rw [strip3_miss _ _ _ _ i (by simp; omega), strip3_miss _ _ _ _ i (by simp; omega),
        strip3_hit _ _ _ _ i ⟨(i 2).val - 16 * j, hl⟩ (by simpa using hk) (by simpa using hc1) (by simpa using h2)]
      exact hw1 _ i hk hc1 h2
    · rw [strip3_miss _ _ _ _ i (by simp; omega),
        strip3_hit _ _ _ _ i ⟨(i 2).val - 16 * j, hl⟩ (by simpa using hk) (by simpa using hc2) (by simpa using h2)]
      exact hw2 _ i hk hc2 h2
    · rw [strip3_hit _ _ _ _ i ⟨(i 2).val - 16 * j, hl⟩ (by simpa using hk) (by simpa using hc3) (by simpa using h2)]
      exact hw3 _ i hk hc3 h2
  · have hout : (i 0).val < k ∨ ((i 0).val = k ∧ (i 2).val < 16 * j) := by
      rcases hi with h | h
      · exact .inl h
      · exact .inr ⟨h.1, by by_contra hn; exact hs ⟨h.1, by omega⟩⟩
    have hm : ∀ c : Nat, ¬ ((![k, c, 16 * j] 0 ≤ (i 0).val ∧ (i 0).val < ![k, c, 16 * j] 0 + 1) ∧ (![k, c, 16 * j] 1 ≤ (i 1).val ∧ (i 1).val < ![k, c, 16 * j] 1 + 1)
        ∧ (![k, c, 16 * j] 2 ≤ (i 2).val ∧ (i 2).val < ![k, c, 16 * j] 2 + 16)) := by
      intro c; simp; intro h1 h2 _ _ h5; exact absurd ⟨by omega, h5⟩ hs
    rw [strip3_miss _ _ _ _ i (hm 3), strip3_miss _ _ _ _ i (hm 2), strip3_miss _ _ _ _ i (hm 1), strip3_miss _ _ _ _ i (hm 0)]
    exact hf i hout

section
variable (g : S80x4x128.Idx → Elt F .f32) (off : Fin 3 → Nat) (inb : ∀ a, off a + S1x1x16.size a ≤ S80x4x128.size a)
  (w : S1x1x16.Idx → Elt F .f32) (i : S80x4x128.Idx)

theorem strip4_hit (l : Fin 16) (h0 : (i 0).val = off 0) (h1 : (i 1).val = off 1) (h2 : (i 2).val = off 2 + l.val) :
    ((View.whole (cc0_scratch4 : Ref sig .scVector)).slice (Rect.unit (s := S80x4x128) off S1x1x16.size inb)).write (Elt F) g w Finset.univ i = w (laneIx l) := by
  rw [← emb_strip off inb i l h0 h1 h2]
  exact Cert.LibWholeWrites.whole_write_hit (cc0_scratch4 : Ref sig .scVector) (Rect.unit (s := S80x4x128) off S1x1x16.size inb) g w (laneIx l)

theorem strip4_miss (h : ¬ ((off 0 ≤ (i 0).val ∧ (i 0).val < off 0 + 1) ∧ (off 1 ≤ (i 1).val ∧ (i 1).val < off 1 + 1)
      ∧ (off 2 ≤ (i 2).val ∧ (i 2).val < off 2 + 16))) :
    ((View.whole (cc0_scratch4 : Ref sig .scVector)).slice (Rect.unit (s := S80x4x128) off S1x1x16.size inb)).write (Elt F) g w Finset.univ i = g i :=
  Cert.LibWholeWrites.whole_write_miss (cc0_scratch4 : Ref sig .scVector) (Rect.unit (s := S80x4x128) off S1x1x16.size inb) g w i
    (fun hm => h ((mem_strip off inb i).mp hm))
end

/-- Four strips at row k, lanes 16·j …, columns 0 … 3 (stored in that order): the entries that agree with G grow by those lanes. -/
theorem strips4_step (k j : Nat) (hj : j < 8) (f G : S80x4x128.Idx → Elt F .f32)
    (o0 o1 o2 o3 : Fin 3 → Nat) (e0 : o0 = ![k, 0, 16 * j]) (e1 : o1 = ![k, 1, 16 * j]) (e2 : o2 = ![k, 2, 16 * j]) (e3 : o3 = ![k, 3, 16 * j])
    (i0 : ∀ a, o0 a + S1x1x16.size a ≤ S80x4x128.size a) (i1 : ∀ a, o1 a + S1x1x16.size a ≤ S80x4x128.size a)
    (i2 : ∀ a, o2 a + S1x1x16.size a ≤ S80x4x128.size a) (i3 : ∀ a, o3 a + S1x1x16.size a ≤ S80x4x128.size a)
    (w0 w1 w2 w3 : S1x1x16.Idx → Elt F .f32)
    (hw0 : ∀ (l : Fin 16) (i : S80x4x128.Idx), (i 0).val = k → (i 1).val = 0 → (i 2).val = 16 * j + l.val → w0 (laneIx l) = G i)
    (hw1 : ∀ (l : Fin 16) (i : S80x4x128.Idx), (i 0).val = k → (i 1).val = 1 → (i 2).val = 16 * j + l.val → w1 (laneIx l) = G i)
    (hw2 : ∀ (l : Fin 16) (i : S80x4x128.Idx), (i 0).val = k → (i 1).val = 2 → (i 2).val = 16 * j + l.val → w2 (laneIx l) = G i)
    (hw3 : ∀ (l : Fin 16) (i : S80x4x128.Idx), (i 0).val = k → (i 1).val = 3 → (i 2).val = 16 * j + l.val → w3 (laneIx l) = G i)
    (hf : ∀ i : S80x4x128.Idx, ((i 0).val < k ∨ ((i 0).val = k ∧ (i 2).val < 16 * j)) → f i = G i) :
    ∀ i : S80x4x128.Idx, ((i 0).val < k ∨ ((i 0).val = k ∧ (i 2).val < 16 * (j + 1))) →
      (View.whole (cc0_scratch4 : Ref sig .scVector)).writes (Elt F) f
        [⟨Rect.unit (s := S80x4x128) o3 S1x1x16.size i3, w3⟩, ⟨Rect.unit (s := S80x4x128) o2 S1x1x16.size i2, w2⟩,
          ⟨Rect.unit (s := S80x4x128) o1 S1x1x16.size i1, w1⟩, ⟨Rect.unit (s := S80x4x128) o0 S1x1x16.size i0, w0⟩] i = G i := by
  subst e0 e1 e2 e3
  intro i hi
  simp only [View.writes_cons, View.writes_nil]
  have hc : (i 1).val < 4 := (i 1).isLt
  by_cases hs : (i 0).val = k ∧ 16 * j ≤ (i 2).val
  · obtain ⟨hk, hlo⟩ := hs
    have hhi : (i 2).val < 16 * j + 16 := by rcases hi with h | h <;> omega
    have hl : (i 2).val - 16 * j < 16 := by omega
    have h2 : (i 2).val = 16 * j + (⟨(i 2).val - 16 * j, hl⟩ : Fin 16).val := by show _ = 16 * j + ((i 2).val - 16 * j); omega
    have hcase : (i 1).val = 0 ∨ (i 1).val = 1 ∨ (i 1).val = 2 ∨ (i 1).val = 3 := by omega
    rcases hcase with hc0 | hc1 | hc2 | hc3
    · rw [strip4_miss _ _ _ _ i (by simp; omega), strip4_miss _ _ _ _ i (by simp; omega), strip4_miss _ _ _ _ i (by simp; omega),
        strip4_hit _ _ _ _ i ⟨(i 2).val - 16 * j, hl⟩ (by simpa using hk) (by simpa using hc0) (by simpa using h2)]
      exact hw0 _ i hk hc0 h2
    · rw [strip4_miss _ _ _ _ i (by simp; omega), strip4_miss _ _ _ _ i (by simp; omega),
        strip4_hit _ _ _ _ i ⟨(i 2).val - 16 * j, hl⟩ (by simpa using hk) (by simpa using hc1) (by simpa using h2)]
      exact hw1 _ i hk hc1 h2
    · rw [strip4_miss _ _ _ _ i (by simp; omega),
        strip4_hit _ _ _ _ i ⟨(i 2).val - 16 * j, hl⟩ (by simpa using hk) (by simpa using hc2) (by simpa using h2)]
      exact hw2 _ i hk hc2 h2
    · rw [strip4_hit _ _ _ _ i ⟨(i 2).val - 16 * j, hl⟩ (by simpa using hk) (by simpa using hc3) (by simpa using h2)]
      exact hw3 _ i hk hc3 h2
  · have hout : (i 0).val < k ∨ ((i 0).val = k ∧ (i 2).val < 16 * j) := by
      rcases hi with h | h
      · exact .inl h
      · exact .inr ⟨h.1, by by_contra hn; exact hs ⟨h.1, by omega⟩⟩
    have hm : ∀ c : Nat, ¬ ((![k, c, 16 * j] 0 ≤ (i 0).val ∧ (i 0).val < ![k, c, 16 * j] 0 + 1) ∧ (![k, c, 16 * j] 1 ≤ (i 1).val ∧ (i 1).val < ![k, c, 16 * j] 1 + 1)
        ∧ (![k, c, 16 * j] 2 ≤ (i 2).val ∧ (i 2).val < ![k, c, 16 * j] 2 + 16)) := by
      intro c; simp; intro h1 h2 _ _ h5; exact absurd ⟨by omega, h5⟩ hs
    rw [strip4_miss _ _ _ _ i (hm 3), strip4_miss _ _ _ _ i (hm 2), strip4_miss _ _ _ _ i (hm 1), strip4_miss _ _ _ _ i (hm 0)]
    exact hf i hout

end Cert.Proof.KI
-- ==== Proof.ComputeKI.lean ====
/-
  One block's computation: for each of its 80 panels and each group of 16 lanes, the index words are
  loaded, shifted to word addresses of the flat table, and the four columns are gathered out of the table
  scratch and stored. After the two loops the output scratch holds, at (p, c, l), the table word at
  4·x[p, 0, l] + c, where x is the index scratch. Stated once for each of the two buffer pairs the
  kernel alternates between.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.KernelIdeal
import proofs.«206284_g43061342110465_cont_8to1_b_1111_8_alg».proof.Proof.Gen.KernelIdeal.Skeleton
import proofs.«206284_g43061342110465_cont_8to1_b_1111_8_alg».proof.Proof.KSpec
import proofs.«206284_g43061342110465_cont_8to1_b_1111_8_alg».proof.Proof.Words
import proofs.«206284_g43061342110465_cont_8to1_b_1111_8_alg».proof.Proof.StripKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

abbrev xV : Memref sig .scVector .hbm S25600x8x128 .i32 := Memref.whole main_v2_scv
abbrev tV : Memref sig .scVector .hbm S28 .f32 := Memref.whole main_v3_scv
abbrev oV : Memref sig .scVector .hbm S25600x4x128 .f32 := Memref.whole main_v4_scv
abbrev sT : Memref sig .scVector .vmem S28 .f32 := Memref.whole cc0_scratch0
abbrev sI0 : Memref sig .scVector .vmem S80x1x128 .i32 := Memref.whole cc0_scratch1
abbrev sI1 : Memref sig .scVector .vmem S80x1x128 .i32 := Memref.whole cc0_scratch2
abbrev sO0 : Memref sig .scVector .vmem S80x4x128 .f32 := Memref.whole cc0_scratch3
abbrev sO1 : Memref sig .scVector .vmem S80x4x128 .f32 := Memref.whole cc0_scratch4

abbrev cV (L : grid0.Coords) : Fin τ.nSC := (L 0).castLE hcore0
abbrev jV (L : grid0.Coords) : Fin τ.nSub := (L 1).castLE hsub0

/-- A block's output as one function of its index scratch and of the table scratch: entry (p, c, l) is the
    flat table's word at 4·x[p, 0, l] + c. -/
def Gblk (fin : S80x1x128.Idx → BitVec 32) (Tv : S28.Idx → Elt F .f32) : S80x4x128.Idx → Elt F .f32 :=
  fun i => Tv (Cert.KSpec.tabIx (fin (ValueIdx.ix3 (n0 := 80) (n1 := 1) (n2 := 128) (i 0) 0 (i 2))) (i 1))

theorem t1_lt (k : Fin k0_t1_loop.trips) : k.val < 80 := lt_of_lt_of_le k.isLt k0_t1_abs.2.1
theorem t2_lt (j : Fin k0_t2_loop.trips) : j.val < 8 := lt_of_lt_of_le j.isLt k0_t2_abs.2.1

theorem Gblk_apply (fin : S80x1x128.Idx → BitVec 32) (Tv : S28.Idx → Elt F .f32) (p : Fin 80) (c : Fin 4) (l : Fin 128) :
    Gblk fin Tv (ValueIdx.ix3 p c l) = Tv (Cert.KSpec.tabIx (fin (ValueIdx.ix3 p 0 l)) c) := rfl
theorem t4_lt (j : Fin k0_t4_loop.trips) : j.val < 8 := lt_of_lt_of_le j.isLt k0_t4_abs.2.1

section
variable (d : Dev nD) (L : grid0.Coords)

omit [FloatOps F] in
theorem readAt_le {fin : Buf (Elt F) ((V d (cV L) (jV L)).loc cc0_scratch1)} (hfin : ∀ i, (fin i).toNat ≤ 6) (r : LoadRect S80x1x128) (x : r.shape.Idx) :
    ((sI0).view.readAt (Elt F) r fin x).toNat ≤ 6 := by
  simp only [View.readAt_apply, Memref.view_whole, View.read_whole]
  exact hfin _

theorem chk1_of (v : Vec F S1x1x16 .i32) (hv : ∀ x, (v x).toNat ≤ 6) : k0_chk1 (k0_pay2 v) := by
  intro a x
  obtain rfl : a = 0 := Subsingleton.elim _ _
  exact Cert.Words.lane_lt (hv _) 0
theorem chk2_of (v : Vec F S1x1x16 .i32) (hv : ∀ x, (v x).toNat ≤ 6) : k0_chk2 (k0_pay3 v) := by
  intro a x
  obtain rfl : a = 0 := Subsingleton.elim _ _
  exact Cert.Words.lane_lt (hv _) 1
theorem chk3_of (v : Vec F S1x1x16 .i32) (hv : ∀ x, (v x).toNat ≤ 6) : k0_chk3 (k0_pay4 v) := by
  intro a x
  obtain rfl : a = 0 := Subsingleton.elim _ _
  exact Cert.Words.lane_lt (hv _) 2
theorem chk4_of (v : Vec F S1x1x16 .i32) (hv : ∀ x, (v x).toNat ≤ 6) : k0_chk4 (k0_pay5 v) := by
  intro a x
  obtain rfl : a = 0 := Subsingleton.elim _ _
  exact Cert.Words.lane_lt (hv _) 3

/-- The loops' invariant: the table and the index scratch as they are, the output scratch agreeing with the block's
    function on the rows before k and, in row k, on the lanes before 16·j. -/
def IinE (Tv : Buf (Elt F) ((V d (cV L) (jV L)).loc cc0_scratch0)) (fin : Buf (Elt F) ((V d (cV L) (jV L)).loc cc0_scratch1))
    (k : Nat) (j : Nat) (_ : BitVec 32) : sProp 𝕄 :=
  iprop(((sT).view.loc (V d (cV L) (jV L)) ↦{fullShare} Tv) ∗ ((sI0).view.loc (V d (cV L) (jV L)) ↦{fullShare} fin)
    ∗ ∃ f : Buf (Elt F) ((V d (cV L) (jV L)).loc cc0_scratch3), ((sO0).view.loc (V d (cV L) (jV L)) ↦{fullShare} f)
      ∗ ⌜∀ i : S80x4x128.Idx, ((i 0).val < k ∨ ((i 0).val = k ∧ (i 2).val < 16 * j)) → f i = Gblk fin Tv i⌝)

theorem hwE (Tv : S28.Idx → Elt F .f32) (fin : S80x1x128.Idx → BitVec 32) (hfin : ∀ i, (fin i).toNat ≤ 6)
    (k : Fin k0_t1_loop.trips) (j : Fin k0_t2_loop.trips) (c : Fin 4) (pay : IVec S16 32)
    (hpay : ∀ y : S16.Idx, pay y = IntOp.addi (IntOp.shli .vector
      (View.readAt (Elt F) (sI0).view (Rect.unit (s := S80x1x128) (k0_off2 k j) S1x1x16.size (k0_off2_inb k j)).toLoadRect fin
        (Shape.reshapeEquiv shapeCasts_S1x1x16_S16 y)) 2#32) (BitVec.ofNat 32 c.val))
    (h : ∀ a x, ((![pay] : Fin 1 → IVec S16 32) a x).toNat < S28.size a) :
    ∀ (l : Fin 16) (i : S80x4x128.Idx), (i 0).val = k.val → (i 1).val = c.val → (i 2).val = 16 * j.val + l.val →
      shapeCast S1x1x16 (loadIdx (View.readAt (Elt F) (sT).view (LoadRect.whole S28) Tv) ![pay] h) shapeCasts_S16_S1x1x16 (laneIx l) = Gblk fin Tv i := by
  intro l i h0 h1 h2
  obtain ⟨p, cc, l', rfl⟩ : ∃ (p : Fin 80) (cc : Fin 4) (l' : Fin 128), i = ValueIdx.ix3 p cc l' := ⟨i 0, i 1, i 2, ValueIdx.eq_ix3 i⟩
  change p.val = k.val at h0
  change cc.val = c.val at h1
  change l'.val = 16 * j.val + l.val at h2
  rw [Gblk_apply]
  unfold shapeCast loadIdx
  rw [View.readAt_apply]
  show Tv _ = Tv _
  refine congrArg Tv ?_
  refine (ValueIdx.eq_ix1 (n := 28) _).trans ?_
  unfold Cert.KSpec.tabIx
  refine congrArg (ValueIdx.ix1 (n := 28)) (Fin.ext ?_)
  show 0 + 1 * (pay (Shape.reshapeEquiv shapeCasts_S16_S1x1x16 (laneIx l))).toNat = ((fin (ValueIdx.ix3 p 0 l')).toNat * 4 + cc.val) % 28
  rw [hpay, Shape.reshapeEquiv_reshapeEquiv, Shape.reshapeEquiv_self, View.readAt_apply]
  have e : (Rect.unit (s := S80x1x128) (k0_off2 k j) S1x1x16.size (k0_off2_inb k j)).toLoadRect.idx (laneIx l)
      = ValueIdx.ix3 (n0 := 80) (n1 := 1) (n2 := 128) p 0 l' := by
    funext a
    apply Fin.ext
    rw [LoadRect.idx_apply]
    have ho := k0_off2_eq k j
    match a with
    | 0 => show k0_off2 k j 0 + 1 * 0 = p.val; rw [ho]; simp; omega
    | 1 => show k0_off2 k j 1 + 1 * 0 = 0; rw [ho]; simp
    | 2 => show k0_off2 k j 2 + 1 * l.val = l'.val; rw [ho]; simp; omega
  rw [e]
  show 0 + 1 * (IntOp.addi (IntOp.shli .vector (fin (ValueIdx.ix3 (n0 := 80) (n1 := 1) (n2 := 128) p 0 l')) 2#32) (BitVec.ofNat 32 c.val)).toNat = _
  rw [Cert.Words.lane_toNat (hfin _) c]
  have := hfin (ValueIdx.ix3 (n0 := 80) (n1 := 1) (n2 := 128) p 0 l')
  have hc := c.isLt
  omega

set_option maxRecDepth 65536 in
theorem compute_even
    (Tv : Buf (Elt F) ((V d (cV L) (jV L)).loc cc0_scratch0)) (fin : Buf (Elt F) ((V d (cV L) (jV L)).loc cc0_scratch1))
    (hfin : ∀ i, (fin i).toNat ≤ 6)
    (f0 : Buf (Elt F) ((V d (cV L) (jV L)).loc cc0_scratch3)) :
    iprop(((sT).view.loc (V d (cV L) (jV L)) ↦{fullShare} Tv) ∗ ((sI0).view.loc (V d (cV L) (jV L)) ↦{fullShare} fin)
        ∗ ((sO0).view.loc (V d (cV L) (jV L)) ↦{fullShare} f0) : sProp 𝕄)
      ⊢ wp frame (wpE (defs₀ (F := F)) 𝒱₀ (V d (cV L) (jV L)) none) Set.univ
          (Scf.Loop.for k0_t1_loop k0_t1_ok 0#32 (k0_t1_body L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9))
          fun _ => iprop(((sT).view.loc (V d (cV L) (jV L)) ↦{fullShare} Tv) ∗ ((sI0).view.loc (V d (cV L) (jV L)) ↦{fullShare} fin)
            ∗ ((sO0).view.loc (V d (cV L) (jV L)) ↦{fullShare} Gblk fin Tv)) := by
  unfold k0_t1_body k0_t2_body
  rw [k0_part1_eq_skeleton]; unfold k0_part1_skel
  unfold SparseCore.vectorLoadIdx
  iintro ⟨HT, HI, HO⟩
  sl_for (fun k acc => IinE d L Tv fin k 0 acc) $$ [HT HI HO]
  case region =>
    intro k _
    unfold IinE
    iintro ⟨HT, HI, %f, HO, %hf⟩
    sl_exec
    sl_for (fun j acc => IinE d L Tv fin k.val j acc) $$ [HT HI HO]
    case region =>
      intro j _
      unfold IinE
      iintro ⟨HT, HI, %f, HO, %hf⟩
      have hc1 : k0_chk1 (k0_pay2 (View.readAt (Elt F) (sI0).view (Rect.unit (s := S80x1x128) (k0_off2 k j) S1x1x16.size (k0_off2_inb k j)).toLoadRect fin)) :=
        chk1_of _ (fun x => readAt_le d L hfin (Rect.unit (s := S80x1x128) (k0_off2 k j) S1x1x16.size (k0_off2_inb k j)).toLoadRect x)
      have hc2 : k0_chk2 (k0_pay3 (View.readAt (Elt F) (sI0).view (Rect.unit (s := S80x1x128) (k0_off2 k j) S1x1x16.size (k0_off2_inb k j)).toLoadRect fin)) :=
        chk2_of _ (fun x => readAt_le d L hfin (Rect.unit (s := S80x1x128) (k0_off2 k j) S1x1x16.size (k0_off2_inb k j)).toLoadRect x)
      have hc3 : k0_chk3 (k0_pay4 (View.readAt (Elt F) (sI0).view (Rect.unit (s := S80x1x128) (k0_off2 k j) S1x1x16.size (k0_off2_inb k j)).toLoadRect fin)) :=
        chk3_of _ (fun x => readAt_le d L hfin (Rect.unit (s := S80x1x128) (k0_off2 k j) S1x1x16.size (k0_off2_inb k j)).toLoadRect x)
      have hc4 : k0_chk4 (k0_pay5 (View.readAt (Elt F) (sI0).view (Rect.unit (s := S80x1x128) (k0_off2 k j) S1x1x16.size (k0_off2_inb k j)).toLoadRect fin)) :=
        chk4_of _ (fun x => readAt_le d L hfin (Rect.unit (s := S80x1x128) (k0_off2 k j) S1x1x16.size (k0_off2_inb k j)).toLoadRect x)
      sl_exec
      sl_step
      isplitl [HT]; · iexact HT
      isplitl [HI]; · iexact HI
      iexists _
      isplitl [HO]; · iexact HO
      ipureintro
      exact strips3_step k.val j.val (t2_lt j) f (Gblk fin Tv) (k0_off3 k j) (k0_off4 k j) (k0_off5 k j) (k0_off6 k j)
        (k0_off3_eq k j) (k0_off4_eq k j) (k0_off5_eq k j) (k0_off6_eq k j) _ _ _ _ _ _ _ _
        (hwE Tv fin hfin k j 0 _ (fun _ => rfl) _) (hwE Tv fin hfin k j 1 _ (fun _ => rfl) _)
        (hwE Tv fin hfin k j 2 _ (fun _ => rfl) _) (hwE Tv fin hfin k j 3 _ (fun _ => rfl) _) hf
    · unfold IinE
      isplitl [HT]; · iexact HT
      isplitl [HI]; · iexact HI
      iexists f
      isplitl [HO]; · iexact HO
      ipureintro
      intro i hi
      exact hf i (by omega)
    · iintro %acc HI
      unfold IinE
      icases HI with ⟨HT, HI, %f', HO, %hf'⟩
      sl_exec
      sl_step
      isplitl [HT]; · iexact HT
      isplitl [HI]; · iexact HI
      iexists f'
      isplitl [HO]; · iexact HO
      ipureintro
      intro i hi
      have hT2 : Scf.trips k0_t2_loop.lb k0_t2_loop.ub k0_t2_loop.st = 8 := by decide
      have hi2 : (i 2).val < 128 := (i 2).isLt
      exact hf' i (by rw [hT2]; omega)
  · isplitl [HT HI HO]
    · unfold IinE
      isplitl [HT]; · iexact HT
      isplitl [HI]; · iexact HI
      iexists f0
      isplitl [HO]; · iexact HO
      ipureintro
      intro i hi
      omega
    · iintro %acc HI
      unfold IinE
      icases HI with ⟨HT, HI, %f, HO, %hf⟩
      isplitl [HT]; · iexact HT
      isplitl [HI]; · iexact HI
      have hT1 : Scf.trips k0_t1_loop.lb k0_t1_loop.ub k0_t1_loop.st = 80 := by decide
      have hfG : f = Gblk fin Tv := funext fun i => hf i (.inl (by rw [hT1]; exact (i 0).isLt))
      subst hfG
      iexact HO
end

section
variable (d : Dev nD) (L : grid0.Coords)

omit [FloatOps F] in
theorem readAt_leO {fin : Buf (Elt F) ((V d (cV L) (jV L)).loc cc0_scratch2)} (hfin : ∀ i, (fin i).toNat ≤ 6) (r : LoadRect S80x1x128) (x : r.shape.Idx) :
    ((sI1).view.readAt (Elt F) r fin x).toNat ≤ 6 := by
  simp only [View.readAt_apply, Memref.view_whole, View.read_whole]
  exact hfin _

theorem chk5_of (v : Vec F S1x1x16 .i32) (hv : ∀ x, (v x).toNat ≤ 6) : k0_chk5 (k0_pay7 v) := by
  intro a x
  obtain rfl : a = 0 := Subsingleton.elim _ _
  exact Cert.Words.lane_lt (hv _) 0
theorem chk6_of (v : Vec F S1x1x16 .i32) (hv : ∀ x, (v x).toNat ≤ 6) : k0_chk6 (k0_pay8 v) := by
  intro a x
  obtain rfl : a = 0 := Subsingleton.elim _ _
  exact Cert.Words.lane_lt (hv _) 1
theorem chk7_of (v : Vec F S1x1x16 .i32) (hv : ∀ x, (v x).toNat ≤ 6) : k0_chk7 (k0_pay9 v) := by
  intro a x
  obtain rfl : a = 0 := Subsingleton.elim _ _
  exact Cert.Words.lane_lt (hv _) 2
theorem chk8_of (v : Vec F S1x1x16 .i32) (hv : ∀ x, (v x).toNat ≤ 6) : k0_chk8 (k0_pay10 v) := by
  intro a x
  obtain rfl : a = 0 := Subsingleton.elim _ _
  exact Cert.Words.lane_lt (hv _) 3

/-- The loops' invariant: the table and the index scratch as they are, the output scratch agreeing with the block's
    function on the rows before k and, in row k, on the lanes before 16·j. -/
def IinO (Tv : Buf (Elt F) ((V d (cV L) (jV L)).loc cc0_scratch0)) (fin : Buf (Elt F) ((V d (cV L) (jV L)).loc cc0_scratch2))
    (k : Nat) (j : Nat) (_ : BitVec 32) : sProp 𝕄 :=
  iprop(((sT).view.loc (V d (cV L) (jV L)) ↦{fullShare} Tv) ∗ ((sI1).view.loc (V d (cV L) (jV L)) ↦{fullShare} fin)
    ∗ ∃ f : Buf (Elt F) ((V d (cV L) (jV L)).loc cc0_scratch4), ((sO1).view.loc (V d (cV L) (jV L)) ↦{fullShare} f)
      ∗ ⌜∀ i : S80x4x128.Idx, ((i 0).val < k ∨ ((i 0).val = k ∧ (i 2).val < 16 * j)) → f i = Gblk fin Tv i⌝)

theorem hwO (Tv : S28.Idx → Elt F .f32) (fin : S80x1x128.Idx → BitVec 32) (hfin : ∀ i, (fin i).toNat ≤ 6)
    (k : Fin k0_t3_loop.trips) (j : Fin k0_t4_loop.trips) (c : Fin 4) (pay : IVec S16 32)
    (hpay : ∀ y : S16.Idx, pay y = IntOp.addi (IntOp.shli .vector
      (View.readAt (Elt F) (sI1).view (Rect.unit (s := S80x1x128) (k0_off8 k j) S1x1x16.size (k0_off8_inb k j)).toLoadRect fin
        (Shape.reshapeEquiv shapeCasts_S1x1x16_S16 y)) 2#32) (BitVec.ofNat 32 c.val))
    (h : ∀ a x, ((![pay] : Fin 1 → IVec S16 32) a x).toNat < S28.size a) :
    ∀ (l : Fin 16) (i : S80x4x128.Idx), (i 0).val = k.val → (i 1).val = c.val → (i 2).val = 16 * j.val + l.val →
      shapeCast S1x1x16 (loadIdx (View.readAt (Elt F) (sT).view (LoadRect.whole S28) Tv) ![pay] h) shapeCasts_S16_S1x1x16 (laneIx l) = Gblk fin Tv i := by
  intro l i h0 h1 h2
  obtain ⟨p, cc, l', rfl⟩ : ∃ (p : Fin 80) (cc : Fin 4) (l' : Fin 128), i = ValueIdx.ix3 p cc l' := ⟨i 0, i 1, i 2, ValueIdx.eq_ix3 i⟩
  change p.val = k.val at h0
  change cc.val = c.val at h1
  change l'.val = 16 * j.val + l.val at h2
  rw [Gblk_apply]
  unfold shapeCast loadIdx
  rw [View.readAt_apply]
  show Tv _ = Tv _
  refine congrArg Tv ?_
  refine (ValueIdx.eq_ix1 (n := 28) _).trans ?_
  unfold Cert.KSpec.tabIx
  refine congrArg (ValueIdx.ix1 (n := 28)) (Fin.ext ?_)
  show 0 + 1 * (pay (Shape.reshapeEquiv shapeCasts_S16_S1x1x16 (laneIx l))).toNat = ((fin (ValueIdx.ix3 p 0 l')).toNat * 4 + cc.val) % 28
  rw [hpay, Shape.reshapeEquiv_reshapeEquiv, Shape.reshapeEquiv_self, View.readAt_apply]
  have e : (Rect.unit (s := S80x1x128) (k0_off8 k j) S1x1x16.size (k0_off8_inb k j)).toLoadRect.idx (laneIx l)
      = ValueIdx.ix3 (n0 := 80) (n1 := 1) (n2 := 128) p 0 l' := by
    funext a
    apply Fin.ext
    rw [LoadRect.idx_apply]
    have ho := k0_off8_eq k j
    match a with
    | 0 => show k0_off8 k j 0 + 1 * 0 = p.val; rw [ho]; simp; omega
    | 1 => show k0_off8 k j 1 + 1 * 0 = 0; rw [ho]; simp
    | 2 => show k0_off8 k j 2 + 1 * l.val = l'.val; rw [ho]; simp; omega
  rw [e]
  show 0 + 1 * (IntOp.addi (IntOp.shli .vector (fin (ValueIdx.ix3 (n0 := 80) (n1 := 1) (n2 := 128) p 0 l')) 2#32) (BitVec.ofNat 32 c.val)).toNat = _
  rw [Cert.Words.lane_toNat (hfin _) c]
  have := hfin (ValueIdx.ix3 (n0 := 80) (n1 := 1) (n2 := 128) p 0 l')
  have hc := c.isLt
  omega

set_option maxRecDepth 65536 in
theorem compute_odd
    (Tv : Buf (Elt F) ((V d (cV L) (jV L)).loc cc0_scratch0)) (fin : Buf (Elt F) ((V d (cV L) (jV L)).loc cc0_scratch2))
    (hfin : ∀ i, (fin i).toNat ≤ 6)
    (f0 : Buf (Elt F) ((V d (cV L) (jV L)).loc cc0_scratch4)) (v2 : BitVec 32) :
    iprop(((sT).view.loc (V d (cV L) (jV L)) ↦{fullShare} Tv) ∗ ((sI1).view.loc (V d (cV L) (jV L)) ↦{fullShare} fin)
        ∗ ((sO1).view.loc (V d (cV L) (jV L)) ↦{fullShare} f0) : sProp 𝕄)
      ⊢ wp frame (wpE (defs₀ (F := F)) 𝒱₀ (V d (cV L) (jV L)) none) Set.univ
          (Scf.Loop.for k0_t3_loop k0_t3_ok 0#32 (k0_t3_body L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2))
          fun _ => iprop(((sT).view.loc (V d (cV L) (jV L)) ↦{fullShare} Tv) ∗ ((sI1).view.loc (V d (cV L) (jV L)) ↦{fullShare} fin)
            ∗ ((sO1).view.loc (V d (cV L) (jV L)) ↦{fullShare} Gblk fin Tv)) := by
  unfold k0_t3_body k0_t4_body
  rw [k0_part2_eq_skeleton]; unfold k0_part2_skel
  unfold SparseCore.vectorLoadIdx
  iintro ⟨HT, HI, HO⟩
  sl_for (fun k acc => IinO d L Tv fin k 0 acc) $$ [HT HI HO]
  case region =>
    intro k _
    unfold IinO
    iintro ⟨HT, HI, %f, HO, %hf⟩
    sl_exec
    sl_for (fun j acc => IinO d L Tv fin k.val j acc) $$ [HT HI HO]
    case region =>
      intro j _
      unfold IinO
      iintro ⟨HT, HI, %f, HO, %hf⟩
      have hc5 : k0_chk5 (k0_pay7 (View.readAt (Elt F) (sI1).view (Rect.unit (s := S80x1x128) (k0_off8 k j) S1x1x16.size (k0_off8_inb k j)).toLoadRect fin)) :=
        chk5_of _ (fun x => readAt_leO d L hfin (Rect.unit (s := S80x1x128) (k0_off8 k j) S1x1x16.size (k0_off8_inb k j)).toLoadRect x)
      have hc6 : k0_chk6 (k0_pay8 (View.readAt (Elt F) (sI1).view (Rect.unit (s := S80x1x128) (k0_off8 k j) S1x1x16.size (k0_off8_inb k j)).toLoadRect fin)) :=
        chk6_of _ (fun x => readAt_leO d L hfin (Rect.unit (s := S80x1x128) (k0_off8 k j) S1x1x16.size (k0_off8_inb k j)).toLoadRect x)
      have hc7 : k0_chk7 (k0_pay9 (View.readAt (Elt F) (sI1).view (Rect.unit (s := S80x1x128) (k0_off8 k j) S1x1x16.size (k0_off8_inb k j)).toLoadRect fin)) :=
        chk7_of _ (fun x => readAt_leO d L hfin (Rect.unit (s := S80x1x128) (k0_off8 k j) S1x1x16.size (k0_off8_inb k j)).toLoadRect x)
      have hc8 : k0_chk8 (k0_pay10 (View.readAt (Elt F) (sI1).view (Rect.unit (s := S80x1x128) (k0_off8 k j) S1x1x16.size (k0_off8_inb k j)).toLoadRect fin)) :=
        chk8_of _ (fun x => readAt_leO d L hfin (Rect.unit (s := S80x1x128) (k0_off8 k j) S1x1x16.size (k0_off8_inb k j)).toLoadRect x)
      sl_exec
      sl_step
      isplitl [HT]; · iexact HT
      isplitl [HI]; · iexact HI
      iexists _
      isplitl [HO]; · iexact HO
      ipureintro
      exact strips4_step k.val j.val (t4_lt j) f (Gblk fin Tv) (k0_off9 k j) (k0_off10 k j) (k0_off11 k j) (k0_off12 k j)
        (k0_off9_eq k j) (k0_off10_eq k j) (k0_off11_eq k j) (k0_off12_eq k j) _ _ _ _ _ _ _ _
        (hwO Tv fin hfin k j 0 _ (fun _ => rfl) _) (hwO Tv fin hfin k j 1 _ (fun _ => rfl) _)
        (hwO Tv fin hfin k j 2 _ (fun _ => rfl) _) (hwO Tv fin hfin k j 3 _ (fun _ => rfl) _) hf
    · unfold IinO
      isplitl [HT]; · iexact HT
      isplitl [HI]; · iexact HI
      iexists f
      isplitl [HO]; · iexact HO
      ipureintro
      intro i hi
      exact hf i (by omega)
    · iintro %acc HI
      unfold IinO
      icases HI with ⟨HT, HI, %f', HO, %hf'⟩
      sl_exec
      sl_step
      isplitl [HT]; · iexact HT
      isplitl [HI]; · iexact HI
      iexists f'
      isplitl [HO]; · iexact HO
      ipureintro
      intro i hi
      have hT2 : Scf.trips k0_t4_loop.lb k0_t4_loop.ub k0_t4_loop.st = 8 := by decide
      have hi2 : (i 2).val < 128 := (i 2).isLt
      exact hf' i (by rw [hT2]; omega)
  · isplitl [HT HI HO]
    · unfold IinO
      isplitl [HT]; · iexact HT
      isplitl [HI]; · iexact HI
      iexists f0
      isplitl [HO]; · iexact HO
      ipureintro
      intro i hi
      omega
    · iintro %acc HI
      unfold IinO
      icases HI with ⟨HT, HI, %f, HO, %hf⟩
      isplitl [HT]; · iexact HT
      isplitl [HI]; · iexact HI
      have hT1 : Scf.trips k0_t3_loop.lb k0_t3_loop.ub k0_t3_loop.st = 80 := by decide
      have hfG : f = Gblk fin Tv := funext fun i => hf i (.inl (by rw [hT1]; exact (i 0).isLt))
      subst hfG
      iexact HO
end

end Cert.Proof.KI
end
-- ==== Proof.LoopsKI.lean ====
/-
  The kernel's ten blocks run one and the same pair of loops on two alternating pairs of buffers: the
  even blocks' loops are the first block's, the odd blocks' loops the second block's, word for word.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.KernelIdeal
import proofs.«206284_g43061342110465_cont_8to1_b_1111_8_alg».proof.Proof.Gen.KernelIdeal.Skeleton
import proofs.«206284_g43061342110465_cont_8to1_b_1111_8_alg».proof.Proof.ComputeKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

section
variable (L : grid0.Coords) (v2 : BitVec 32)

set_option maxRecDepth 65536 in
theorem loop5_eq : Scf.Loop.for k0_t5_loop k0_t5_ok 0#32 (k0_t5_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl

set_option maxRecDepth 65536 in
theorem loop9_eq : Scf.Loop.for k0_t9_loop k0_t9_ok 0#32 (k0_t9_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl

set_option maxRecDepth 65536 in
theorem loop13_eq : Scf.Loop.for k0_t13_loop k0_t13_ok 0#32 (k0_t13_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl

set_option maxRecDepth 65536 in
theorem loop17_eq : Scf.Loop.for k0_t17_loop k0_t17_ok 0#32 (k0_t17_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl
set_option maxRecDepth 65536 in
theorem loop7_eq : Scf.Loop.for k0_t7_loop k0_t7_ok 0#32 (k0_t7_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl

set_option maxRecDepth 65536 in
theorem loop11_eq : Scf.Loop.for k0_t11_loop k0_t11_ok 0#32 (k0_t11_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl

set_option maxRecDepth 65536 in
theorem loop15_eq : Scf.Loop.for k0_t15_loop k0_t15_ok 0#32 (k0_t15_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl
set_option maxRecDepth 65536 in
theorem loop19_eq : Scf.Loop.for k0_t19_loop k0_t19_ok 0#32 (k0_t19_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl
end

end Cert.Proof.KI
end
-- ==== Proof.TileKI.lean ====
/-
  One vector subcore's task. The flat table is fetched whole into the tile's table scratch; then ten blocks
  of 80 panels go through two index scratches and two output scratches in turn: while block g is computed,
  block g + 1's index words are being fetched and block g − 1's output is being written back, each transfer
  on a semaphore of its own and waited for before its buffer is touched again. At the end each of the tile's
  ten output blocks holds, at (p, c, l), the table word at 4·x[p, 0, l] + c of the whole arrays, the
  arrays it only read are as they were, and every semaphore is back at zero.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.KernelIdeal
import proofs.«206284_g43061342110465_cont_8to1_b_1111_8_alg».proof.Proof.Gen.KernelIdeal.Skeleton
import proofs.«206284_g43061342110465_cont_8to1_b_1111_8_alg».proof.Proof.ComputeKI
import proofs.«206284_g43061342110465_cont_8to1_b_1111_8_alg».proof.Proof.LoopsKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev cell5 (d : Dev nD) (c : Fin τ.nSC) (i : Fin τ.nSub) : GSem nD τ sig := (V d c i, .dma cc0_scratch5.sem)
abbrev cell6 (d : Dev nD) (c : Fin τ.nSC) (i : Fin τ.nSub) : GSem nD τ sig := (V d c i, .dma cc0_scratch6.sem)
abbrev cell7 (d : Dev nD) (c : Fin τ.nSC) (i : Fin τ.nSub) : GSem nD τ sig := (V d c i, .dma cc0_scratch7.sem)
abbrev cell8 (d : Dev nD) (c : Fin τ.nSC) (i : Fin τ.nSub) : GSem nD τ sig := (V d c i, .dma cc0_scratch8.sem)
abbrev cell9 (d : Dev nD) (c : Fin τ.nSC) (i : Fin τ.nSub) : GSem nD τ sig := (V d c i, .dma cc0_scratch9.sem)

section Tile
variable (d : Dev nD) (L : grid0.Coords)

omit [FloatOps F] in
theorem ownSems0_V :
    (ownSems0 (V d (cV L) (jV L)) : sProp 𝕄)
      = iprop(semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0
          ∗ bigSep ((((((ownCells (V d (cV L) (jV L))).erase (cell5 d (cV L) (jV L))).erase (cell6 d (cV L) (jV L))).erase (cell7 d (cV L) (jV L))).erase (cell8 d (cV L) (jV L))).erase (cell9 d (cV L) (jV L))) fun g => semVal g 0) := by
  unfold SparseCore.Cfg.ownSems0
  rw [SparseCore.bigSep_erase' ((mem_ownCells (g := cell5 d (cV L) (jV L))).mpr ⟨rfl, by show (SemLoc.dma cc0_scratch5.sem : SemLoc sig).isScoped .scVector = true; decide⟩),
    SparseCore.bigSep_erase' (Finset.mem_erase.mpr ⟨fun e => absurd (Prod.mk.inj e).2 (by decide), (mem_ownCells (g := cell6 d (cV L) (jV L))).mpr ⟨rfl, by show (SemLoc.dma cc0_scratch6.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := cell7 d (cV L) (jV L))).mpr ⟨rfl, by show (SemLoc.dma cc0_scratch7.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cell8 d (cV L) (jV L))).mpr ⟨rfl, by show (SemLoc.dma cc0_scratch8.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cell9 d (cV L) (jV L))).mpr ⟨rfl, by show (SemLoc.dma cc0_scratch9.sem : SemLoc sig).isScoped .scVector = true; decide⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

end Tile

abbrev xLoc (d : Dev nD) : Loc nD τ sig := (SparseCore.T d).loc main_v2
abbrev tLoc (d : Dev nD) : Loc nD τ sig := (SparseCore.T d).loc main_v3
abbrev oLoc (d : Dev nD) : Loc nD τ sig := (SparseCore.T d).loc main_v4

/-- Block g of a tile's 800 output panels, as the kernel slices it. -/
abbrev oBlk (L : grid0.Coords) (g : Fin 10) : Memref sig .scVector .hbm S80x4x128 .f32 :=
  (oV).slice (Rect.unit (s := S25600x4x128) (k0_off7 L (BitVec.ofNat 32 (80 * g.val))) S80x4x128.size (k0_off7_inb L g)) (fun _ => rfl)
/-- Block g of a tile's 800 index panels (row 0 of each panel), as the kernel slices it. -/
abbrev xBlk (L : grid0.Coords) (g : Fin 10) : Memref sig .scVector .hbm S80x1x128 .i32 :=
  (xV).slice (Rect.unit (s := S25600x8x128) (k0_off1 L (BitVec.ofNat 32 (80 * g.val))) S80x1x128.size (k0_off1_inb L g)) (fun _ => rfl)

/-- The elements of block g of a tile's output panels, as a set of the output array's indices. -/
abbrev blkSet (L : grid0.Coords) (g : Fin 10) : Finset S25600x4x128.Idx := (oBlk L g).view.set

section Tile
variable (d : Dev nD) (L : grid0.Coords)

/-- What a tile is handed: read shares of the index array and of the flat table, and its ten output blocks. -/
def goRes (qx qt : PosShare TreeShare) (Xv : Buf (Elt F) (xLoc d)) (Tv0 : Buf (Elt F) (tLoc d)) (Ov : Buf (Elt F) (oLoc d)) : sProp 𝕄 :=
  iprop((xLoc d ↦{qx} Xv) ∗ (tLoc d ↦{qt} Tv0) ∗ bigSep (Finset.univ : Finset (Fin 10)) fun g => oLoc d ↦[blkSet L g]{fullShare} Ov)
/-- What it hands back: the same shares, and its ten output blocks holding the lookup. -/
def tdRes (qx qt : PosShare TreeShare) (Xv : Buf (Elt F) (xLoc d)) (Tv0 : Buf (Elt F) (tLoc d)) : sProp 𝕄 :=
  iprop((xLoc d ↦{qx} Xv) ∗ (tLoc d ↦{qt} Tv0) ∗ bigSep (Finset.univ : Finset (Fin 10)) fun g => oLoc d ↦[blkSet L g]{fullShare} Cert.KSpec.Gk Xv Tv0)

omit [FloatOps F] in
theorem pts_x (q : PosShare TreeShare) (f : Buf (Elt F) (xLoc d)) :
    ((xV).view.loc (V d (cV L) (jV L)) ↦{q} f : sProp 𝕄) = xLoc d ↦{q} f := by
  simp only [Memref.view_whole, View.set_whole]
omit [FloatOps F] in
theorem pts_t (q : PosShare TreeShare) (f : Buf (Elt F) (tLoc d)) :
    ((tV).view.loc (V d (cV L) (jV L)) ↦{q} f : sProp 𝕄) = tLoc d ↦{q} f := by
  simp only [Memref.view_whole, View.set_whole]
omit [FloatOps F] in
theorem pts_o (g : Fin 10) (f : Buf (Elt F) (oLoc d)) :
    ((oBlk L g).view.loc (V d (cV L) (jV L)) ↦[(oBlk L g).view.set]{fullShare} f : sProp 𝕄) = oLoc d ↦[blkSet L g]{fullShare} f := rfl
omit [FloatOps F] in
theorem pts_s (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

omit [FloatOps F] in
theorem waits_ok {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

omit [FloatOps F] in
theorem two_toks (Φ : Fin 2 → sProp 𝕄) : bigSep (Finset.univ : Finset (Fin 2)) Φ = iprop(Φ 0 ∗ Φ 1) := by
  rw [show (Finset.univ : Finset (Fin 2)) = {0, 1} from by decide, SparseCore.bigSep_insert' (by decide), bigSep_singleton]

omit [FloatOps F] in
theorem out_ten (Φ : Fin 10 → sProp 𝕄) :
    bigSep (Finset.univ : Finset (Fin 10)) Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem wp_at_loop {α β : Type} {P : sProp 𝕄} {p : Prog (TpuEff nD τ sig (Elt F) Λ₀ (V d (cV L) (jV L)).2) α}
    {k : α → Prog (TpuEff nD τ sig (Elt F) Λ₀ (V d (cV L) (jV L)).2) β} {Φ : α → sProp 𝕄} {Q : β → sProp 𝕄}
    (h : P ⊢ wp frame (wpE (defs₀ (F := F)) 𝒱₀ (V d (cV L) (jV L)) none) Set.univ p Φ) :
    P ⊢ iprop((∀ a, Φ a -∗ wp frame (wpE (defs₀ (F := F)) 𝒱₀ (V d (cV L) (jV L)) none) Set.univ (k a) Q)
      -∗ wp frame (wpE (defs₀ (F := F)) 𝒱₀ (V d (cV L) (jV L)) none) Set.univ (p >>= k) Q) := by
  rw [wp_bind]
  exact h.trans (wp_wand _ _ _)

omit [FloatOps F] in
theorem write_le0 (f0 w : S80x1x128.Idx → BitVec 32) (hw : ∀ i, (w i).toNat ≤ 6) :
    ∀ i, (View.write (Elt F) (sI0).view f0 w Finset.univ i).toNat ≤ 6 := by
  intro i
  have e : View.write (Elt F) (sI0).view f0 w Finset.univ = w := View.write_whole_univ _ _ _
  rw [e]; exact hw i
omit [FloatOps F] in
theorem write_le1 (f0 w : S80x1x128.Idx → BitVec 32) (hw : ∀ i, (w i).toNat ≤ 6) :
    ∀ i, (View.write (Elt F) (sI1).view f0 w Finset.univ i).toNat ≤ 6 := by
  intro i
  have e : View.write (Elt F) (sI1).view f0 w Finset.univ = w := View.write_whole_univ _ _ _
  rw [e]; exact hw i
omit [FloatOps F] in
theorem read_le {Xv : Buf (Elt F) (xLoc d)} (hX : ∀ i, (Xv i).toNat ≤ 6) (g : Fin 10) (x : S80x1x128.Idx) :
    ((xBlk L g).view.read (Elt F) Xv x).toNat ≤ 6 := by
  rw [View.read_apply, cast_eq]; exact hX _

omit [FloatOps F] in
theorem pts_name {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H
  iexists f
  isplitr
  · ipureintro; rfl
  · iexact H

theorem blk_value (g : Fin 10) (Xv : Buf (Elt F) (xLoc d)) (Tv0 : Buf (Elt F) (tLoc d)) (Ov : Buf (Elt F) (oLoc d)) :
    ∀ i ∈ (oBlk L g).view.set,
      ((oBlk L g).view.writes (Elt F) Ov [⟨Rect.whole S80x4x128, Gblk ((xBlk L g).view.read (Elt F) Xv) Tv0⟩]) i
        = Cert.KSpec.Gk Xv Tv0 i := by
  intro i hi
  obtain ⟨y, -, rfl⟩ := Finset.mem_map.mp hi
  rw [View.writes_singleton]
  have e1 : (((oBlk L g).view.slice (Rect.whole S80x4x128)).emb y) = (oBlk L g).view.emb y := by
    show (oBlk L g).view.emb ((Rect.whole S80x4x128).emb y) = _
    rw [Rect.emb_whole_apply]
  rw [← e1, View.write_emb_of_mem _ _ (Finset.mem_univ y), cast_eq, e1]
  obtain ⟨p, c, l, rfl⟩ : ∃ (p : Fin 80) (c : Fin 4) (l : Fin 128), y = ValueIdx.ix3 p c l := ⟨y 0, y 1, y 2, ValueIdx.eq_ix3 y⟩
  rw [Gblk_apply, View.read_apply, cast_eq]
  have h7 := k0_off7_eq L g
  have h1 := k0_off1_eq L g
  have hP : 1600 * (L 1).val + 800 * (L 0).val + 80 * g.val + p.val < 25600 := by
    have h0 : (L 0).val < 2 := (L 0).isLt
    have h1' : (L 1).val < 16 := (L 1).isLt
    have := g.isLt; have := p.isLt; omega
  have eo : (oBlk L g).view.emb (ValueIdx.ix3 p c l)
      = ValueIdx.ix3 (n0 := 25600) (n1 := 4) (n2 := 128) ⟨1600 * (L 1).val + 800 * (L 0).val + 80 * g.val + p.val, hP⟩ c l := by
    funext a
    apply Fin.ext
    match a with
    | 0 => show k0_off7 L (BitVec.ofNat 32 (80 * g.val)) 0 + 1 * p.val = _; rw [h7]; simp; rfl
    | 1 => show k0_off7 L (BitVec.ofNat 32 (80 * g.val)) 1 + 1 * c.val = _; rw [h7]; simp; rfl
    | 2 => show k0_off7 L (BitVec.ofNat 32 (80 * g.val)) 2 + 1 * l.val = _; rw [h7]; simp; rfl
  have ex : (xBlk L g).view.emb (ValueIdx.ix3 p 0 l)
      = ValueIdx.ix3 (n0 := 25600) (n1 := 8) (n2 := 128) ⟨1600 * (L 1).val + 800 * (L 0).val + 80 * g.val + p.val, hP⟩ 0 l := by
    funext a
    apply Fin.ext
    match a with
    | 0 => show k0_off1 L (BitVec.ofNat 32 (80 * g.val)) 0 + 1 * p.val = _; rw [h1]; simp; rfl
    | 1 => show k0_off1 L (BitVec.ofNat 32 (80 * g.val)) 1 + 1 * 0 = _; rw [h1]; simp; rfl
    | 2 => show k0_off1 L (BitVec.ofNat 32 (80 * g.val)) 2 + 1 * l.val = _; rw [h1]; simp; rfl
  rw [eo, ex, Cert.KSpec.Gk_apply]

set_option maxHeartbeats 40000000 in
set_option maxRecDepth 65536 in
theorem tile_body (hF : (K (F := F)).Facts) (O : CellTallies nD τ sig (HIx 1)) (W : Waits sig (HIx 1)) (hO : ∀ g, O g none = 0)
    (qx qt : PosShare TreeShare)
    (Xv : Buf (Elt F) (xLoc d)) (hX : ∀ i, (Xv i).toNat ≤ 6) (Tv0 : Buf (Elt F) (tLoc d)) (Ov : Buf (Elt F) (oLoc d)) :
    iprop(levAts (K (F := F)).L (K (F := F)).lev ∗ emp ∗ goRes d L qx qt Xv Tv0 Ov
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_emb L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9)
          fun _ => iprop(tdRes d L qx qt Xv Tv0 ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_emb_eq_skeleton]; unfold cc0_emb_skel
  rw [k0_part11_eq_skeleton, k0_part12_eq_skeleton, k0_part13_eq_skeleton, k0_part14_eq_skeleton, k0_part15_eq_skeleton, k0_part16_eq_skeleton]
  unfold k0_part11_skel k0_part12_skel k0_part13_skel k0_part14_skel k0_part15_skel k0_part16_skel
  rw [(K (F := F)).scopedBufs_V hF d (cV L) (jV L), SparseCore.Cfg.scopedSems0_V (Val := Elt F) d (cV L) (jV L), ownSems0_V, ownBufs_V]
  unfold goRes tdRes
  rw [out_ten, out_ten]
  iintro ⟨#Hlv, -, ⟨Hx, Ht, Ho0, Ho1, Ho2, Ho3, Ho4, Ho5, Ho6, Ho7, Ho8, Ho9⟩, ⟨⟨%fT, HT⟩, ⟨%fI0, HI0⟩, ⟨%fI1, HI1⟩, ⟨%fO0, HO0⟩, ⟨%fO1, HO1⟩, Hbufs⟩, ⟨Hs5, Hs6, Hs7, Hs8, Hs9, Hsems⟩, HO⟩
  ihave Hmw := ((K (F := F)).mayWaits_none (thr := (V d (cV L) (jV L))) hO) $$ Hlv
  -- the index array's share as two read tokens (two fetches are in flight at once) and a remainder
  ihave Hx' := (Transfers.pointsTo_toks_split qx 2) $$ Hx
  icases Hx' with ⟨Hxd, Hxt⟩
  ihave Hxt := (Entails.of_eq (two_toks (F := F) _)) $$ Hxt
  icases Hxt with ⟨Hx0, Hx1⟩
  ihave Hx0 := (Entails.of_eq (pts_x (F := F) d L _ _).symm) $$ Hx0
  ihave Hx1 := (Entails.of_eq (pts_x (F := F) d L _ _).symm) $$ Hx1
  ihave Ht := (Entails.of_eq (pts_t (F := F) d L _ _).symm) $$ Ht
  ihave Ho0 := (Entails.of_eq (pts_o (F := F) d L 0 _).symm) $$ Ho0
  ihave Ho1 := (Entails.of_eq (pts_o (F := F) d L 1 _).symm) $$ Ho1
  ihave Ho2 := (Entails.of_eq (pts_o (F := F) d L 2 _).symm) $$ Ho2
  ihave Ho3 := (Entails.of_eq (pts_o (F := F) d L 3 _).symm) $$ Ho3
  ihave Ho4 := (Entails.of_eq (pts_o (F := F) d L 4 _).symm) $$ Ho4
  ihave Ho5 := (Entails.of_eq (pts_o (F := F) d L 5 _).symm) $$ Ho5
  ihave Ho6 := (Entails.of_eq (pts_o (F := F) d L 6 _).symm) $$ Ho6
  ihave Ho7 := (Entails.of_eq (pts_o (F := F) d L 7 _).symm) $$ Ho7
  ihave Ho8 := (Entails.of_eq (pts_o (F := F) d L 8 _).symm) $$ Ho8
  ihave Ho9 := (Entails.of_eq (pts_o (F := F) d L 9 _).symm) $$ Ho9
  ihave HT := (Entails.of_eq (pts_s (F := F) d L cc0_scratch0 _).symm) $$ HT
  ihave HI0 := (Entails.of_eq (pts_s (F := F) d L cc0_scratch1 _).symm) $$ HI0
  ihave HI1 := (Entails.of_eq (pts_s (F := F) d L cc0_scratch2 _).symm) $$ HI1
  ihave HO0 := (Entails.of_eq (pts_s (F := F) d L cc0_scratch3 _).symm) $$ HO0
  ihave HO1 := (Entails.of_eq (pts_s (F := F) d L cc0_scratch4 _).symm) $$ HO1
  sl_exec
  ihave HT' := (pts_name _) $$ HT
  icases HT' with ⟨%Tv, %hTv, HT⟩
  -- block 0
  iterate 3 (try rw [bind_assoc])
  ihave HI' := (pts_name _) $$ HI0
  icases HI' with ⟨%fin0, %hfin0, HI0⟩
  ihave HO' := (pts_name _) $$ HO0
  icases HO' with ⟨%fo0, -, HO0⟩
  have hle0 : ∀ i, (fin0 i).toNat ≤ 6 := by
    intro i
    rw [hfin0]
    exact write_le0 (F := F) _ _ (fun x => read_le d L hX 0 x) i
  iapply (wp_at_loop d L (compute_even d L Tv fin0 hle0 fo0)) $$ [HT HI0 HO0]
  · isplitl [HT]; · iexact HT
    isplitl [HI0]; · iexact HI0
    iexact HO0
  iintro %r0 ⟨HT, HI0, HO0⟩
  sl_exec
  -- block 1
  iterate 3 (try rw [bind_assoc])
  ihave HI' := (pts_name _) $$ HI1
  icases HI' with ⟨%fin1, %hfin1, HI1⟩
  ihave HO' := (pts_name _) $$ HO1
  icases HO' with ⟨%fo1, -, HO1⟩
  have hle1 : ∀ i, (fin1 i).toNat ≤ 6 := by
    intro i
    rw [hfin1]
    exact write_le1 (F := F) _ _ (fun x => read_le d L hX 1 x) i
  iapply (wp_at_loop d L (compute_odd d L Tv fin1 hle1 fo1 _)) $$ [HT HI1 HO1]
  · isplitl [HT]; · iexact HT
    isplitl [HI1]; · iexact HI1
    iexact HO1
  iintro %r1 ⟨HT, HI1, HO1⟩
  sl_exec
  -- block 2
  iterate 3 (try rw [bind_assoc])
  rw [loop5_eq L _]
  ihave HI' := (pts_name _) $$ HI0
  icases HI' with ⟨%fin2, %hfin2, HI0⟩
  ihave HO' := (pts_name _) $$ HO0
  icases HO' with ⟨%fo2, -, HO0⟩
  have hle2 : ∀ i, (fin2 i).toNat ≤ 6 := by
    intro i
    rw [hfin2]
    exact write_le0 (F := F) _ _ (fun x => read_le d L hX 2 x) i
  iapply (wp_at_loop d L (compute_even d L Tv fin2 hle2 fo2)) $$ [HT HI0 HO0]
  · isplitl [HT]; · iexact HT
    isplitl [HI0]; · iexact HI0
    iexact HO0
  iintro %r2 ⟨HT, HI0, HO0⟩
  sl_exec
  -- block 3
  iterate 3 (try rw [bind_assoc])
  rw [loop7_eq L _]
  ihave HI' := (pts_name _) $$ HI1
  icases HI' with ⟨%fin3, %hfin3, HI1⟩
  ihave HO' := (pts_name _) $$ HO1
  icases HO' with ⟨%fo3, -, HO1⟩
  have hle3 : ∀ i, (fin3 i).toNat ≤ 6 := by
    intro i
    rw [hfin3]
    exact write_le1 (F := F) _ _ (fun x => read_le d L hX 3 x) i
  iapply (wp_at_loop d L (compute_odd d L Tv fin3 hle3 fo3 _)) $$ [HT HI1 HO1]
  · isplitl [HT]; · iexact HT
    isplitl [HI1]; · iexact HI1
    iexact HO1
  iintro %r3 ⟨HT, HI1, HO1⟩
  sl_exec
  -- block 4
  iterate 3 (try rw [bind_assoc])
  rw [loop9_eq L _]
  ihave HI' := (pts_name _) $$ HI0
  icases HI' with ⟨%fin4, %hfin4, HI0⟩
  ihave HO' := (pts_name _) $$ HO0
  icases HO' with ⟨%fo4, -, HO0⟩
  have hle4 : ∀ i, (fin4 i).toNat ≤ 6 := by
    intro i
    rw [hfin4]
    exact write_le0 (F := F) _ _ (fun x => read_le d L hX 4 x) i
  iapply (wp_at_loop d L (compute_even d L Tv fin4 hle4 fo4)) $$ [HT HI0 HO0]
  · isplitl [HT]; · iexact HT
    isplitl [HI0]; · iexact HI0
    iexact HO0
  iintro %r4 ⟨HT, HI0, HO0⟩
  sl_exec
  -- block 5
  iterate 3 (try rw [bind_assoc])
  rw [loop11_eq L _]
  ihave HI' := (pts_name _) $$ HI1
  icases HI' with ⟨%fin5, %hfin5, HI1⟩
  ihave HO' := (pts_name _) $$ HO1
  icases HO' with ⟨%fo5, -, HO1⟩
  have hle5 : ∀ i, (fin5 i).toNat ≤ 6 := by
    intro i
    rw [hfin5]
    exact write_le1 (F := F) _ _ (fun x => read_le d L hX 5 x) i
  iapply (wp_at_loop d L (compute_odd d L Tv fin5 hle5 fo5 _)) $$ [HT HI1 HO1]
  · isplitl [HT]; · iexact HT
    isplitl [HI1]; · iexact HI1
    iexact HO1
  iintro %r5 ⟨HT, HI1, HO1⟩
  sl_exec
  -- block 6
  iterate 3 (try rw [bind_assoc])
  rw [loop13_eq L _]
  ihave HI' := (pts_name _) $$ HI0
  icases HI' with ⟨%fin6, %hfin6, HI0⟩
  ihave HO' := (pts_name _) $$ HO0
  icases HO' with ⟨%fo6, -, HO0⟩
  have hle6 : ∀ i, (fin6 i).toNat ≤ 6 := by
    intro i
    rw [hfin6]
    exact write_le0 (F := F) _ _ (fun x => read_le d L hX 6 x) i
  iapply (wp_at_loop d L (compute_even d L Tv fin6 hle6 fo6)) $$ [HT HI0 HO0]
  · isplitl [HT]; · iexact HT
    isplitl [HI0]; · iexact HI0
    iexact HO0
  iintro %r6 ⟨HT, HI0, HO0⟩
  sl_exec
  -- block 7
  iterate 3 (try rw [bind_assoc])
  rw [loop15_eq L _]
  ihave HI' := (pts_name _) $$ HI1
  icases HI' with ⟨%fin7, %hfin7, HI1⟩
  ihave HO' := (pts_name _) $$ HO1
  icases HO' with ⟨%fo7, -, HO1⟩
  have hle7 : ∀ i, (fin7 i).toNat ≤ 6 := by
    intro i
    rw [hfin7]
    exact write_le1 (F := F) _ _ (fun x => read_le d L hX 7 x) i
  iapply (wp_at_loop d L (compute_odd d L Tv fin7 hle7 fo7 _)) $$ [HT HI1 HO1]
  · isplitl [HT]; · iexact HT
    isplitl [HI1]; · iexact HI1
    iexact HO1
  iintro %r7 ⟨HT, HI1, HO1⟩
  sl_exec
  -- block 8
  iterate 3 (try rw [bind_assoc])
  rw [loop17_eq L _]
  ihave HI' := (pts_name _) $$ HI0
  icases HI' with ⟨%fin8, %hfin8, HI0⟩
  ihave HO' := (pts_name _) $$ HO0
  icases HO' with ⟨%fo8, -, HO0⟩
  have hle8 : ∀ i, (fin8 i).toNat ≤ 6 := by
    intro i
    rw [hfin8]
    exact write_le0 (F := F) _ _ (fun x => read_le d L hX 8 x) i
  iapply (wp_at_loop d L (compute_even d L Tv fin8 hle8 fo8)) $$ [HT HI0 HO0]
  · isplitl [HT]; · iexact HT
    isplitl [HI0]; · iexact HI0
    iexact HO0
  iintro %r8 ⟨HT, HI0, HO0⟩
  sl_exec
  -- block 9
  iterate 3 (try rw [bind_assoc])
  rw [loop19_eq L 0#32]
  ihave HI' := (pts_name _) $$ HI1
  icases HI' with ⟨%fin9, %hfin9, HI1⟩
  ihave HO' := (pts_name _) $$ HO1
  icases HO' with ⟨%fo9, -, HO1⟩
  have hle9 : ∀ i, (fin9 i).toNat ≤ 6 := by
    intro i
    rw [hfin9]
    exact write_le1 (F := F) _ _ (fun x => read_le d L hX 9 x) i
  iapply (wp_at_loop d L (compute_odd d L Tv fin9 hle9 fo9 _)) $$ [HT HI1 HO1]
  · isplitl [HT]; · iexact HT
    isplitl [HI1]; · iexact HI1
    iexact HO1
  iintro %r9 ⟨HT, HI1, HO1⟩
  sl_exec
  -- the values: the table scratch is the table, each block's index scratch its window of the index array
  have hTvE : Tv = Tv0 := hTv.trans (View.write_whole_univ _ _ _)
  have hfinE0 : fin0 = (xBlk L 0).view.read (Elt F) Xv := hfin0.trans (View.write_whole_univ _ _ _)
  have hfinE1 : fin1 = (xBlk L 1).view.read (Elt F) Xv := hfin1.trans (View.write_whole_univ _ _ _)
  have hfinE2 : fin2 = (xBlk L 2).view.read (Elt F) Xv := hfin2.trans (View.write_whole_univ _ _ _)
  have hfinE3 : fin3 = (xBlk L 3).view.read (Elt F) Xv := hfin3.trans (View.write_whole_univ _ _ _)
  have hfinE4 : fin4 = (xBlk L 4).view.read (Elt F) Xv := hfin4.trans (View.write_whole_univ _ _ _)
  have hfinE5 : fin5 = (xBlk L 5).view.read (Elt F) Xv := hfin5.trans (View.write_whole_univ _ _ _)
  have hfinE6 : fin6 = (xBlk L 6).view.read (Elt F) Xv := hfin6.trans (View.write_whole_univ _ _ _)
  have hfinE7 : fin7 = (xBlk L 7).view.read (Elt F) Xv := hfin7.trans (View.write_whole_univ _ _ _)
  have hfinE8 : fin8 = (xBlk L 8).view.read (Elt F) Xv := hfin8.trans (View.write_whole_univ _ _ _)
  have hfinE9 : fin9 = (xBlk L 9).view.read (Elt F) Xv := hfin9.trans (View.write_whole_univ _ _ _)
  subst hTvE
  subst hfinE0
  subst hfinE1
  subst hfinE2
  subst hfinE3
  subst hfinE4
  subst hfinE5
  subst hfinE6
  subst hfinE7
  subst hfinE8
  subst hfinE9
  sl_step
  -- the shares and the ten blocks
  isplitl [Hxd Hx0 Hx1 Ht Ho0 Ho1 Ho2 Ho3 Ho4 Ho5 Ho6 Ho7 Ho8 Ho9]
  · isplitl [Hxd Hx0 Hx1]
    · iapply (Transfers.pointsTo_toks_join qx 2)
      isplitl [Hxd]; · iexact Hxd
      iapply (Entails.of_eq (two_toks (F := F) _).symm)
      isplitl [Hx0]
      · iapply (Entails.of_eq (pts_x (F := F) d L _ _)); iexact Hx0
      · iapply (Entails.of_eq (pts_x (F := F) d L _ _)); iexact Hx1
    isplitl [Ht]
    · iapply (Entails.of_eq (pts_t (F := F) d L _ _)); iexact Ht
    isplitl [Ho0]
    · iapply (Entails.of_eq ((pointsTo_congr (blk_value d L 0 Xv Tv _)).trans (pts_o (F := F) d L 0 _))); iexact Ho0
    isplitl [Ho1]
    · iapply (Entails.of_eq ((pointsTo_congr (blk_value d L 1 Xv Tv _)).trans (pts_o (F := F) d L 1 _))); iexact Ho1
    isplitl [Ho2]
    · iapply (Entails.of_eq ((pointsTo_congr (blk_value d L 2 Xv Tv _)).trans (pts_o (F := F) d L 2 _))); iexact Ho2
    isplitl [Ho3]
    · iapply (Entails.of_eq ((pointsTo_congr (blk_value d L 3 Xv Tv _)).trans (pts_o (F := F) d L 3 _))); iexact Ho3
    isplitl [Ho4]
    · iapply (Entails.of_eq ((pointsTo_congr (blk_value d L 4 Xv Tv _)).trans (pts_o (F := F) d L 4 _))); iexact Ho4
    isplitl [Ho5]
    · iapply (Entails.of_eq ((pointsTo_congr (blk_value d L 5 Xv Tv _)).trans (pts_o (F := F) d L 5 _))); iexact Ho5
    isplitl [Ho6]
    · iapply (Entails.of_eq ((pointsTo_congr (blk_value d L 6 Xv Tv _)).trans (pts_o (F := F) d L 6 _))); iexact Ho6
    isplitl [Ho7]
    · iapply (Entails.of_eq ((pointsTo_congr (blk_value d L 7 Xv Tv _)).trans (pts_o (F := F) d L 7 _))); iexact Ho7
    isplitl [Ho8]
    · iapply (Entails.of_eq ((pointsTo_congr (blk_value d L 8 Xv Tv _)).trans (pts_o (F := F) d L 8 _))); iexact Ho8
    · iapply (Entails.of_eq ((pointsTo_congr (blk_value d L 9 Xv Tv _)).trans (pts_o (F := F) d L 9 _))); iexact Ho9
  isplitl [HT HI0 HI1 HO0 HO1 Hbufs]
  · isplitl [HT]; · iexists _; iapply (Entails.of_eq (pts_s (F := F) d L cc0_scratch0 _)); iexact HT
    isplitl [HI0]; · iexists _; iapply (Entails.of_eq (pts_s (F := F) d L cc0_scratch1 _)); iexact HI0
    isplitl [HI1]; · iexists _; iapply (Entails.of_eq (pts_s (F := F) d L cc0_scratch2 _)); iexact HI1
    isplitl [HO0]; · iexists _; iapply (Entails.of_eq (pts_s (F := F) d L cc0_scratch3 _)); iexact HO0
    isplitl [HO1]; · iexists _; iapply (Entails.of_eq (pts_s (F := F) d L cc0_scratch4 _)); iexact HO1
    iexact Hbufs
  isplitl [Hs5 Hs6 Hs7 Hs8 Hs9 Hsems]
  · isplitl [Hs5]; · iexact Hs5
    isplitl [Hs6]; · iexact Hs6
    isplitl [Hs7]; · iexact Hs7
    isplitl [Hs8]; · iexact Hs8
    isplitl [Hs9]; · iexact Hs9
    iexact Hsems
  iexists _
  isplitr
  swap
  · iexact HO
  · ipureintro
    repeat (first | exact fun p hp => .inl hp | refine waits_ok _ ?_)
end Tile

end Cert.Proof.KI
end
-- ==== Proof.Spec.lean ====
/-
  The specification both programs meet: an embedding lookup. Entry (b, t, c) of the result is entry
  (x[b, t, 0], c) of the table, where x[b, t, 0] is read as a natural number. The word is folded into the
  table's seven rows so that the function is total; on the inputs the precondition admits (0 ≤ x ≤ 6) the
  folding is the identity.
-/
import Idealize.ShloMosaic.PureOps
import Idealize.ShloMosaic.Lib.ValueIdx

namespace Cert.Spec

open Idealize.ShloMosaic

abbrev SIn : Shape := ⟨3, ![16384, 200, 8]⟩
abbrev STab : Shape := ⟨2, ![7, 4]⟩
abbrev SOut : Shape := ⟨3, ![16384, 200, 4]⟩

/-- The table row an index word names: its value as a natural number, folded into the table's seven rows. -/
def rowOf (w : BitVec 32) : Fin 7 := ⟨w.toNat % 7, Nat.mod_lt _ (by decide)⟩

theorem rowOf_val_of_le {w : BitVec 32} (h : w.toNat ≤ 6) : (rowOf w).val = w.toNat :=
  Nat.mod_eq_of_lt (by omega)

/-- The lookup: entry (b, t, c) of the result is entry (x[b, t, 0], c) of the table. -/
def G {α : Type} (x : SIn.Idx → BitVec 32) (tab : STab.Idx → α) : SOut.Idx → α :=
  fun j => tab (ValueIdx.ix2 (n0 := 7) (n1 := 4) (rowOf (x (ValueIdx.ix3 (n0 := 16384) (n1 := 200) (n2 := 8) (j 0) (j 1) 0))) (j 2))

theorem G_apply {α : Type} (x : SIn.Idx → BitVec 32) (tab : STab.Idx → α) (b : Fin 16384) (t : Fin 200) (c : Fin 4) :
    G x tab (ValueIdx.ix3 b t c) = tab (ValueIdx.ix2 (rowOf (x (ValueIdx.ix3 b t 0))) c) := rfl

end Cert.Spec
-- ==== Proof.HostValue.lean ====
/-
  The layout changes on either side of the lookup kernel, as one function of the arrays.

  Before the kernel the index array x of shape [16384, 200, 8] is viewed as [128, 128, 200, 8], its axes are
  permuted to [200, 128, 8, 128] and it is viewed as [25600, 8, 128]: with b = n·128 + l and p = t·128 + n,
  entry (p, r, l) of the result is x[b, t, r]. The table of shape [7, 4] is viewed as 28 words: word 4·r + c
  is tab[r, c]. After the kernel its output o of shape [25600, 4, 128] is viewed as [200, 128, 4, 128], its axes
  are permuted to [128, 128, 200, 4] and it is viewed as [16384, 200, 4]: entry (b, t, c) of the result is
  o[p, c, l] for the same p, n, l. Composed with the kernel's function (entry (p, c, l) is the flat table's
  word at 4·x'[p, 0, l] + c) this is the lookup: entry (b, t, c) is tab[x[b, t, 0], c]. For words between 0 and 6
  neither folding (into 28 words, into 7 rows) changes anything.

  Every step is read at one index: a view under another shape keeps the row-major position, a permutation of
  axes moves coordinates.
-/
import Idealize.ShloMosaic.Lib.ValueLayout
import proofs.«206284_g43061342110465_cont_8to1_b_1111_8_alg».proof.Proof.Spec
import proofs.«206284_g43061342110465_cont_8to1_b_1111_8_alg».proof.Proof.KSpec

namespace Cert.HostValue

open Idealize.ShloMosaic Idealize.ShloMosaic.ValueIdx

abbrev S128x128x200x8 : Shape := ⟨4, ![128, 128, 200, 8]⟩
abbrev S200x128x8x128 : Shape := ⟨4, ![200, 128, 8, 128]⟩
abbrev S200x128x4x128 : Shape := ⟨4, ![200, 128, 4, 128]⟩
abbrev S128x128x200x4 : Shape := ⟨4, ![128, 128, 200, 4]⟩

variable {α : Type}

/-- The index array as the kernel is given it: with p = t·128 + n and b = n·128 + l, entry (p, r, l) is
    x[b, t, r]. -/
theorem pre_apply (x : Cert.Spec.SIn.Idx → α)
    (h0 : Cert.Spec.SIn.ShapeCasts S128x128x200x8) (h1 : S128x128x200x8.Transposes [2, 0, 3, 1] S200x128x8x128)
    (h2 : S200x128x8x128.ShapeCasts Cert.KSpec.SX)
    (t : Fin 200) (n : Fin 128) (r : Fin 8) (l : Fin 128) (p : Fin 25600) (b : Fin 16384)
    (hp : p.val = t.val * 128 + n.val) (hb : b.val = n.val * 128 + l.val) :
    shapeCast Cert.KSpec.SX (transpose S200x128x8x128 [2, 0, 3, 1] (shapeCast S128x128x200x8 x h0) h1) h2 (ix3 p r l)
      = x (ix3 b t r) := by
  refine (shapeCast_apply _ h2 (ix3 p r l) (ix4 t n r l) ?_).trans ?_
  · rw [Shape.rowMajor_val_four, Shape.rowMajor_val_three]
    show ((t.val * 128 + n.val) * 8 + r.val) * 128 + l.val = (p.val * 8 + r.val) * 128 + l.val
    rw [hp]
  refine (transpose_apply _ _ h1 (ix4 t n r l) (ix4 n l t r) ?_).trans ?_
  · intro a
    match a with
    | ⟨0, _⟩ => rfl
    | ⟨1, _⟩ => rfl
    | ⟨2, _⟩ => rfl
    | ⟨3, _⟩ => rfl
  exact shapeCast_apply x h0 (ix4 n l t r) (ix3 b t r) (by
    rw [Shape.rowMajor_val_four, Shape.rowMajor_val_three]
    show (b.val * 200 + t.val) * 8 + r.val = ((n.val * 128 + l.val) * 200 + t.val) * 8 + r.val
    rw [hb])

/-- The table as 28 words: word 4·r + c is tab[r, c]. -/
theorem tab_apply (tab : Cert.Spec.STab.Idx → α) (h3 : Cert.Spec.STab.ShapeCasts Cert.KSpec.ST)
    (r : Fin 7) (c : Fin 4) (q : Fin 28) (hq : q.val = r.val * 4 + c.val) :
    shapeCast Cert.KSpec.ST tab h3 (ix1 q) = tab (ix2 r c) :=
  shapeCast_apply tab h3 (ix1 q) (ix2 r c) (by
    rw [Shape.rowMajor_val_two, Shape.rowMajor_val_one]
    show r.val * 4 + c.val = q.val
    rw [hq])

/-- The kernel's output as the caller sees it: with p = t·128 + n and b = n·128 + l, entry (b, t, c) is
    o[p, c, l]. -/
theorem post_apply (o : Cert.KSpec.SO.Idx → α)
    (h5 : Cert.KSpec.SO.ShapeCasts S200x128x4x128) (h6 : S200x128x4x128.Transposes [1, 3, 0, 2] S128x128x200x4)
    (h7 : S128x128x200x4.ShapeCasts Cert.Spec.SOut)
    (t : Fin 200) (n : Fin 128) (c : Fin 4) (l : Fin 128) (p : Fin 25600) (b : Fin 16384)
    (hp : p.val = t.val * 128 + n.val) (hb : b.val = n.val * 128 + l.val) :
    shapeCast Cert.Spec.SOut (transpose S128x128x200x4 [1, 3, 0, 2] (shapeCast S200x128x4x128 o h5) h6) h7 (ix3 b t c)
      = o (ix3 p c l) := by
  refine (shapeCast_apply _ h7 (ix3 b t c) (ix4 n l t c) ?_).trans ?_
  · rw [Shape.rowMajor_val_four, Shape.rowMajor_val_three]
    show ((n.val * 128 + l.val) * 200 + t.val) * 4 + c.val = (b.val * 200 + t.val) * 4 + c.val
    rw [hb]
  refine (transpose_apply _ _ h6 (ix4 n l t c) (ix4 t n c l) ?_).trans ?_
  · intro a
    match a with
    | ⟨0, _⟩ => rfl
    | ⟨1, _⟩ => rfl
    | ⟨2, _⟩ => rfl
    | ⟨3, _⟩ => rfl
  exact shapeCast_apply o h5 (ix4 t n c l) (ix3 p c l) (by
    rw [Shape.rowMajor_val_four, Shape.rowMajor_val_three]
    show (p.val * 4 + c.val) * 128 + l.val = ((t.val * 128 + n.val) * 4 + c.val) * 128 + l.val
    rw [hp])

/-- The layout changes around the kernel's function give the lookup. -/
theorem host_value (x : Cert.Spec.SIn.Idx → BitVec 32) (tab : Cert.Spec.STab.Idx → α) (hx : ∀ i, (x i).toNat ≤ 6)
    (h0 : Cert.Spec.SIn.ShapeCasts S128x128x200x8) (h1 : S128x128x200x8.Transposes [2, 0, 3, 1] S200x128x8x128)
    (h2 : S200x128x8x128.ShapeCasts Cert.KSpec.SX) (h3 : Cert.Spec.STab.ShapeCasts Cert.KSpec.ST)
    (h5 : Cert.KSpec.SO.ShapeCasts S200x128x4x128) (h6 : S200x128x4x128.Transposes [1, 3, 0, 2] S128x128x200x4)
    (h7 : S128x128x200x4.ShapeCasts Cert.Spec.SOut) :
    shapeCast Cert.Spec.SOut (transpose S128x128x200x4 [1, 3, 0, 2] (shapeCast S200x128x4x128
        (Cert.KSpec.Gk (shapeCast Cert.KSpec.SX (transpose S200x128x8x128 [2, 0, 3, 1] (shapeCast S128x128x200x8 x h0) h1) h2)
          (shapeCast Cert.KSpec.ST tab h3)) h5) h6) h7
      = Cert.Spec.G x tab := by
  funext j
  obtain ⟨b, t, c, rfl⟩ : ∃ (b : Fin 16384) (t : Fin 200) (c : Fin 4), j = ix3 b t c := ⟨j 0, j 1, j 2, eq_ix3 j⟩
  have hbl : b.val < 16384 := b.isLt
  have htl : t.val < 200 := t.isLt
  have hcl : c.val < 4 := c.isLt
  have hn : b.val / 128 < 128 := by omega
  have hl : b.val % 128 < 128 := by omega
  have hp : t.val * 128 + b.val / 128 < 25600 := by omega
  have hb : b.val = b.val / 128 * 128 + b.val % 128 := by omega
  refine (post_apply _ h5 h6 h7 t ⟨b.val / 128, hn⟩ c ⟨b.val % 128, hl⟩ ⟨t.val * 128 + b.val / 128, hp⟩ b rfl hb).trans ?_
  rw [Cert.KSpec.Gk_apply, pre_apply x h0 h1 h2 t ⟨b.val / 128, hn⟩ 0 ⟨b.val % 128, hl⟩ ⟨t.val * 128 + b.val / 128, hp⟩ b rfl hb,
    Cert.Spec.G_apply]
  have hw := hx (ix3 b t 0)
  generalize x (ix3 b t 0) = w at hw ⊢
  refine tab_apply tab h3 (Cert.Spec.rowOf w) c _ ?_
  show (w.toNat * 4 + c.val) % 28 = w.toNat % 7 * 4 + c.val
  omega

end Cert.HostValue
-- ==== Proof.LaunchKI.lean ====
/-
  The whole program. On the TensorCore the index array is re-laid as 25600 panels of 8 rows of 128 lanes and the
  table flattened; the SparseCore call hands every one of the 32 vector subcores a read share of both and its ten
  blocks of the output array (320 blocks of 80 panels, which partition it), and takes them back holding the
  lookup; the output array is then re-laid into the result. Every weakly fair execution terminates, the result
  is the lookup specification of the two arguments, and the arguments are unchanged.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.KernelIdeal
import proofs.«206284_g43061342110465_cont_8to1_b_1111_8_alg».proof.Proof.Gen.KernelIdeal.Skeleton
import proofs.«206284_g43061342110465_cont_8to1_b_1111_8_alg».proof.Proof.TileKI
import proofs.«206284_g43061342110465_cont_8to1_b_1111_8_alg».proof.Proof.HostValue
import proofs.«206284_g43061342110465_cont_8to1_b_1111_8_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

abbrev op0 : HloOp τ sig (Elt F) := StableHlo.reshape main_arg0 main_v0 rfl shapeCasts_S16384x200x8_S128x128x200x8
abbrev op1 : HloOp τ sig (Elt F) := StableHlo.unary main_v0 main_v1 ((transpose S200x128x8x128 [2, 0, 3, 1] · transposes_S128x128x200x8_S200x128x8x128_2_0_3_1) : (⟨S128x128x200x8, .i32⟩ : BufTy).Contents (Elt F) → (⟨S200x128x8x128, .i32⟩ : BufTy).Contents (Elt F))
abbrev op2 : HloOp τ sig (Elt F) := StableHlo.reshape main_v1 main_v2 rfl shapeCasts_S200x128x8x128_S25600x8x128
abbrev op3 : HloOp τ sig (Elt F) := StableHlo.reshape main_arg1 main_v3 rfl shapeCasts_S7x4_S28
abbrev op5 : HloOp τ sig (Elt F) := StableHlo.reshape main_v4 main_v5 rfl shapeCasts_S25600x4x128_S200x128x4x128
abbrev op6 : HloOp τ sig (Elt F) := StableHlo.unary main_v5 main_v6 ((transpose S128x128x200x4 [1, 3, 0, 2] · transposes_S200x128x4x128_S128x128x200x4_1_3_0_2) : (⟨S200x128x4x128, .f32⟩ : BufTy).Contents (Elt F) → (⟨S128x128x200x4, .f32⟩ : BufTy).Contents (Elt F))
abbrev op7 : HloOp τ sig (Elt F) := StableHlo.reshape main_v6 main_v7 rfl shapeCasts_S128x128x200x4_S16384x200x4

abbrev pre : List (HloOp τ sig (Elt F)) := [op0, op1, op2, op3]
abbrev post : List (HloOp τ sig (Elt F)) := [op5, op6, op7]

/-- The launch contents; the contents when the call is made; the arrays the kernel is given. -/
def V0 (d : Dev nD) : Valuation τ sig (Elt F) := fun b => m (d, b)
def V4 (d : Dev nD) : Valuation τ sig (Elt F) := StableHlo.after (pre (F := F)) (V0 m d)
abbrev Xv (d : Dev nD) : Buf (Elt F) (xLoc d) := V4 m d v2'
abbrev Tv0 (d : Dev nD) : Buf (Elt F) (tLoc d) := V4 m d v3'
abbrev Ov (d : Dev nD) : Buf (Elt F) (oLoc d) := V4 m d v4'
/-- The contents after the call: the kernel's output array holds the lookup of what it was given. -/
def V5 (d : Dev nD) : Valuation τ sig (Elt F) := Function.update (V4 m d) v4' (Cert.KSpec.Gk (Xv m d) (Tv0 m d))
def V8 (d : Dev nD) : Valuation τ sig (Elt F) := StableHlo.after (post (F := F)) (V5 m d)

def coordsV (c : Fin (grid0.bound 0)) (s : Fin (grid0.bound 1)) : grid0.Coords :=
  fun | 0 => c | 1 => s | ⟨_ + 2, h⟩ => absurd h (Nat.not_lt.2 (Nat.le_add_left _ _))

/-- Tile (c, s)'s read share of an array held whole: token s of token c. -/
abbrev qT (c s : Nat) : PosShare TreeShare := Transfers.shareTokN (Transfers.shareTokN fullShare c) s

/-- The call hands SparseCore c the sixteen tiles' parts and takes them back. -/
def P : (K (F := F)).Pay (nD := nD) (Val := Elt F) (Name := ℕ) (U := UU) where
  st := fun q d c => match q with
    | 0 => bigSep Finset.univ fun i : Fin ((K (F := F)).nSub 0) => goRes d (coordsV ⟨c.val, c.isLt⟩ ⟨i.val, i.isLt⟩) (qT c.val i.val) (qT c.val i.val) (Xv m d) (Tv0 m d) (Ov m d)
  dn := fun q d c => match q with
    | 0 => bigSep Finset.univ fun i : Fin ((K (F := F)).nSub 0) => tdRes d (coordsV ⟨c.val, c.isLt⟩ ⟨i.val, i.isLt⟩) (qT c.val i.val) (qT c.val i.val) (Xv m d) (Tv0 m d)
  go := fun q d c i => match q with
    | 0 => goRes d (coordsV ⟨c.val, c.isLt⟩ ⟨i.val, i.isLt⟩) (qT c.val i.val) (qT c.val i.val) (Xv m d) (Tv0 m d) (Ov m d)
  td := fun q d c i => match q with
    | 0 => tdRes d (coordsV ⟨c.val, c.isLt⟩ ⟨i.val, i.isLt⟩) (qT c.val i.val) (qT c.val i.val) (Xv m d) (Tv0 m d)
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

/-! ## The obligations -/

theorem defs₀_vector (c : Fin τ.nSC) (s : Fin τ.nSub) :
    defs₀ (F := F) (.scVector c s) 0 ()
      = SparseCore.onTile hcore0 hsub0 (fun c s => cc0_emb (coordsV c s) xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hX : ∀ d i, (Xv m d i).toNat ≤ 6) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (qT c.val i.val) (qT c.val i.val) (Xv m d) (hX d) (Tv0 m d) (Ov m d)).trans (wp_mono frame _ _ fun _ => obl_post)

theorem vecSplit : (K (F := F)).VecSplit' (P m) 0 := by
  intro d c
  show (P m).st 0 d c ⊢ |={Set.univ}=> iprop((bigSep Finset.univ fun i : Fin ((K (F := F)).nSub 0) => (P m).go 0 d c i)
    ∗ ((bigSep Finset.univ fun i : Fin ((K (F := F)).nSub 0) => (P m).td 0 d c i) -∗ (P m).dn 0 d c))
  unfold P; dsimp only
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The output array's 320 blocks partition it -/

omit [FloatOps F] in
theorem mem_blkSet (c : Fin (grid0.bound 0)) (s : Fin (grid0.bound 1)) (g : Fin 10) (i : S25600x4x128.Idx) :
    i ∈ blkSet (coordsV c s) g ↔ (i 0).val / 80 = 20 * s.val + 10 * c.val + g.val := by
  show i ∈ ((View.whole (main_v4_scv : Ref sig .scVector)).slice (Rect.unit (s := S25600x4x128) (k0_off7 (coordsV c s) (BitVec.ofNat 32 (80 * g.val))) S80x4x128.size (k0_off7_inb (coordsV c s) g))).set ↔ _
  rw [View.set_slice_whole, Rect.mem_set_unit, k0_off7_eq (coordsV c s) g]
  have h1 : (i 1).val < 4 := (i 1).isLt
  have h2 : (i 2).val < 128 := (i 2).isLt
  have hc0 : (coordsV c s 0).val = c.val := rfl
  have hc1 : (coordsV c s 1).val = s.val := rfl
  constructor
  · intro h
    have h0 := h 0
    simp only [Matrix.cons_val_zero] at h0
    omega
  · intro h a
    match a with
    | 0 =>
      show ![1600 * (coordsV c s 1).val + 800 * (coordsV c s 0).val + 80 * g.val, 0, 0] 0 ≤ (i 0).val ∧ (i 0).val < ![1600 * (coordsV c s 1).val + 800 * (coordsV c s 0).val + 80 * g.val, 0, 0] 0 + 80
      simp only [Matrix.cons_val_zero]
      rw [hc0, hc1]; omega
    | 1 => show 0 ≤ (i 1).val ∧ (i 1).val < 0 + 4; omega
    | 2 => show 0 ≤ (i 2).val ∧ (i 2).val < 0 + 128; omega

abbrev BlkIx : Type := Fin (grid0.bound 0) × Fin (grid0.bound 1) × Fin 10
abbrev blkOf (t : BlkIx) : Finset S25600x4x128.Idx := blkSet (coordsV t.1 t.2.1) t.2.2

omit [FloatOps F] in
theorem blk_disjoint : ∀ t ∈ (Finset.univ : Finset BlkIx), ∀ t' ∈ (Finset.univ : Finset BlkIx), t ≠ t' → Disjoint (blkOf t) (blkOf t') := by
  rintro ⟨c, s, g⟩ - ⟨c', s', g'⟩ - hne
  refine Finset.disjoint_left.mpr fun i h1 h2 => hne ?_
  rw [mem_blkSet] at h1 h2
  have hc : c.val < 2 := c.isLt
  have hc' : c'.val < 2 := c'.isLt
  have hs : s.val < 16 := s.isLt
  have hs' : s'.val < 16 := s'.isLt
  have hg := g.isLt
  have hg' := g'.isLt
  have e : 20 * s.val + 10 * c.val + g.val = 20 * s'.val + 10 * c'.val + g'.val := h1.symm.trans h2
  have e1 : s.val = s'.val := by omega
  have e2 : c.val = c'.val := by omega
  have e3 : g.val = g'.val := by omega
  exact Prod.ext (Fin.ext e2) (Prod.ext (Fin.ext e1) (Fin.ext e3))

omit [FloatOps F] in
theorem blk_cover : (Finset.univ : Finset BlkIx).biUnion blkOf = Finset.univ := by
  ext i
  simp only [Finset.mem_biUnion, Finset.mem_univ, true_and, iff_true]
  have h0 : (i 0).val < 25600 := (i 0).isLt
  refine ⟨(⟨((i 0).val / 80 % 20) / 10, by show _ < 2; omega⟩, ⟨(i 0).val / 80 / 20, by show _ < 16; omega⟩, ⟨(i 0).val / 80 % 10, by omega⟩), ?_⟩
  rw [mem_blkSet]
  show (i 0).val / 80 = 20 * ((i 0).val / 80 / 20) + 10 * (((i 0).val / 80 % 20) / 10) + (i 0).val / 80 % 10
  omega

omit [FloatOps F] in
/-- The output array whole is its 320 blocks. -/
theorem oPts_blocks (d : Dev nD) (f : Buf (Elt F) (oLoc d)) :
    (oLoc d ↦{fullShare} f : sProp 𝕄)
      = bigSep Finset.univ fun c : Fin (grid0.bound 0) => bigSep Finset.univ fun s : Fin (grid0.bound 1) =>
          bigSep Finset.univ fun g : Fin 10 => oLoc d ↦[blkSet (coordsV c s) g]{fullShare} f := by
  have h : (oLoc d ↦[(Finset.univ : Finset BlkIx).biUnion blkOf]{fullShare} f : sProp 𝕄) = _ := pointsTo_biUnion (Finset.univ : Finset BlkIx) (ℓ := oLoc d) (q := fullShare) (f := f) blkOf blk_disjoint
  rw [blk_cover] at h
  refine h.trans ?_
  rw [bigSep_univ_prod (fun t : BlkIx => (oLoc d ↦[blkOf t]{fullShare} f : sProp 𝕄))]
  exact bigSep_congr fun c _ => bigSep_univ_prod (fun t : Fin (grid0.bound 1) × Fin 10 => (oLoc d ↦[blkSet (coordsV c t.1) t.2]{fullShare} f : sProp 𝕄))

/-! ## Read shares for the thirty-two tiles -/

/-- An array's thirty-two tile shares, and what is left of the whole beside them. -/
def toks32 (ℓ : Loc nD τ sig) (f : Buf (Elt F) ℓ) : sProp 𝕄 :=
  bigSep Finset.univ fun c : Fin (grid0.bound 0) => bigSep Finset.univ fun s : Fin (grid0.bound 1) => ℓ ↦{qT c.val s.val} f
def drops (ℓ : Loc nD τ sig) (f : Buf (Elt F) ℓ) : sProp 𝕄 :=
  iprop((ℓ ↦{Transfers.shareDrop fullShare 2} f) ∗ bigSep Finset.univ fun c : Fin (grid0.bound 0) => ℓ ↦{Transfers.shareDrop (Transfers.shareTokN fullShare c.val) 16} f)

omit [FloatOps F] in
theorem toks16_split (ℓ : Loc nD τ sig) (f : Buf (Elt F) ℓ) :
    (bigSep Finset.univ fun c : Fin (grid0.bound 0) => (ℓ ↦{Transfers.shareTokN fullShare c.val} f : sProp 𝕄))
      ⊢ bigSep Finset.univ fun c : Fin (grid0.bound 0) => iprop((ℓ ↦{Transfers.shareDrop (Transfers.shareTokN fullShare c.val) 16} f)
          ∗ bigSep Finset.univ fun s : Fin (grid0.bound 1) => ℓ ↦{qT c.val s.val} f) :=
  bigSep_mono fun c _ => Transfers.pointsTo_toks_split (Transfers.shareTokN fullShare c.val) 16
omit [FloatOps F] in
theorem toks16_join (ℓ : Loc nD τ sig) (f : Buf (Elt F) ℓ) :
    (bigSep Finset.univ fun c : Fin (grid0.bound 0) => iprop((ℓ ↦{Transfers.shareDrop (Transfers.shareTokN fullShare c.val) 16} f)
          ∗ bigSep Finset.univ fun s : Fin (grid0.bound 1) => ℓ ↦{qT c.val s.val} f))
      ⊢ bigSep Finset.univ fun c : Fin (grid0.bound 0) => (ℓ ↦{Transfers.shareTokN fullShare c.val} f : sProp 𝕄) :=
  bigSep_mono fun c _ => Transfers.pointsTo_toks_join (Transfers.shareTokN fullShare c.val) 16

omit [FloatOps F] in
theorem toks_split (ℓ : Loc nD τ sig) (f : Buf (Elt F) ℓ) : (ℓ ↦{fullShare} f : sProp 𝕄) ⊢ iprop(drops ℓ f ∗ toks32 ℓ f) := by
  unfold drops toks32
  iintro H
  ihave H := (Transfers.pointsTo_toks_split fullShare 2) $$ H
  icases H with ⟨Hd, Hc⟩
  ihave Hc := (Entails.of_eq (show (bigSep Finset.univ fun i : Fin 2 => (ℓ ↦{Transfers.shareTok fullShare 2 i} f : sProp 𝕄))
      = bigSep Finset.univ fun c : Fin (grid0.bound 0) => (ℓ ↦{Transfers.shareTokN fullShare c.val} f : sProp 𝕄) from rfl)) $$ Hc
  ihave Hc := (toks16_split ℓ f) $$ Hc
  ihave Hc := (Entails.of_eq (bigSep_sep' _ _ _)) $$ Hc
  icases Hc with ⟨Hdc, Htk⟩
  isplitl [Hd Hdc]
  · isplitl [Hd]; · iexact Hd
    iexact Hdc
  · iexact Htk

omit [FloatOps F] in
theorem toks_join (ℓ : Loc nD τ sig) (f : Buf (Elt F) ℓ) : iprop(drops ℓ f ∗ toks32 ℓ f) ⊢ (ℓ ↦{fullShare} f : sProp 𝕄) := by
  unfold drops toks32
  iintro ⟨⟨Hd, Hdc⟩, Htk⟩
  iapply (Transfers.pointsTo_toks_join fullShare 2)
  isplitl [Hd]; · iexact Hd
  iapply (Entails.of_eq (show (bigSep Finset.univ fun c : Fin (grid0.bound 0) => (ℓ ↦{Transfers.shareTokN fullShare c.val} f : sProp 𝕄))
      = bigSep Finset.univ fun i : Fin 2 => (ℓ ↦{Transfers.shareTok fullShare 2 i} f : sProp 𝕄) from rfl))
  iapply (toks16_join ℓ f)
  iapply (Entails.of_eq (bigSep_sep' _ _ _).symm)
  isplitl [Hdc]; · iexact Hdc
  iexact Htk

/-! ## What the call takes and hands back, regrouped -/

theorem st_all (d : Dev nD) :
    (bigSep Finset.univ fun c : Fin ((K (F := F)).nCore 0) => (P m).st 0 d c)
      = iprop(toks32 (xLoc d) (Xv m d) ∗ toks32 (tLoc d) (Tv0 m d) ∗ (oLoc d ↦{fullShare} Ov m d)) := by
  rw [oPts_blocks]
  unfold toks32
  show (bigSep Finset.univ fun c : Fin (grid0.bound 0) => bigSep Finset.univ fun i : Fin (grid0.bound 1) =>
      goRes d (coordsV c i) (qT c.val i.val) (qT c.val i.val) (Xv m d) (Tv0 m d) (Ov m d)) = _
  unfold goRes
  simp only [bigSep_sep']

theorem dn_all (d : Dev nD) :
    (bigSep Finset.univ fun c : Fin ((K (F := F)).nCore 0) => (P m).dn 0 d c)
      = iprop(toks32 (xLoc d) (Xv m d) ∗ toks32 (tLoc d) (Tv0 m d) ∗ (oLoc d ↦{fullShare} Cert.KSpec.Gk (Xv m d) (Tv0 m d))) := by
  rw [oPts_blocks]
  unfold toks32
  show (bigSep Finset.univ fun c : Fin (grid0.bound 0) => bigSep Finset.univ fun i : Fin (grid0.bound 1) =>
      tdRes d (coordsV c i) (qT c.val i.val) (qT c.val i.val) (Xv m d) (Tv0 m d)) = _
  unfold tdRes
  simp only [bigSep_sep']

/-! ## @main on the TensorCore -/

abbrev S10 : Finset (DevRef τ sig) := {a0', a1', v0', v1', v2', v3', v4', v5', v6', v7'}

omit [FloatOps F] in
theorem held_S10 (d : Dev nD) (W : Valuation τ sig (Elt F)) :
    (held (T d) S10 W : sProp 𝕄) = iprop(((SparseCore.T d).loc main_arg0 ↦{fullShare} W a0') ∗ ((SparseCore.T d).loc main_arg1 ↦{fullShare} W a1') ∗ ((SparseCore.T d).loc main_v0 ↦{fullShare} W v0') ∗ ((SparseCore.T d).loc main_v1 ↦{fullShare} W v1') ∗ ((SparseCore.T d).loc main_v2 ↦{fullShare} W v2') ∗ ((SparseCore.T d).loc main_v3 ↦{fullShare} W v3') ∗ ((SparseCore.T d).loc main_v4 ↦{fullShare} W v4') ∗ ((SparseCore.T d).loc main_v5 ↦{fullShare} W v5') ∗ ((SparseCore.T d).loc main_v6 ↦{fullShare} W v6') ∗ ((SparseCore.T d).loc main_v7 ↦{fullShare} W v7')) := by
  unfold held S10
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7)) := by
  unfold unscopedBufs
  rw [show (Finset.univ.filter fun b : Ref sig .tc => ¬ b.isScoped) = {main_arg0, main_arg1, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S10 (V0 m d) := by
  rw [unscopedBufs_eq, held_S10]; rfl

theorem main_eq (d : Dev nD) : main (F := F) d
    = (StableHlo.seq (pre (F := F)) >>= fun _ => ((K (F := F)).run d 0 >>= fun _ => (StableHlo.seq (post (F := F)) >>= fun _ => pure ⟨⟩))) := rfl

theorem hpreS : ∀ op ∈ pre (F := F), op.bufs ⊆ S10 := by
  intro op h
  simp only [List.mem_cons, List.not_mem_nil, or_false] at h
  rcases h with rfl | rfl | rfl | rfl
  · exact show ({a0', v0'} : Finset (DevRef τ sig)) ⊆ S10 by decide
  · exact show ({v0', v1'} : Finset (DevRef τ sig)) ⊆ S10 by decide
  · exact show ({v1', v2'} : Finset (DevRef τ sig)) ⊆ S10 by decide
  · exact show ({a1', v3'} : Finset (DevRef τ sig)) ⊆ S10 by decide
theorem hpostS : ∀ op ∈ post (F := F), op.bufs ⊆ S10 := by
  intro op h
  simp only [List.mem_cons, List.not_mem_nil, or_false] at h
  rcases h with rfl | rfl | rfl
  · exact show ({v4', v5'} : Finset (DevRef τ sig)) ⊆ S10 by decide
  · exact show ({v5', v6'} : Finset (DevRef τ sig)) ⊆ S10 by decide
  · exact show ({v6', v7'} : Finset (DevRef τ sig)) ⊆ S10 by decide
theorem hpreF : ∀ op ∈ pre (F := F), op.fresh = ∅ := by
  intro op h
  simp only [List.mem_cons, List.not_mem_nil, or_false] at h
  rcases h with rfl | rfl | rfl | rfl <;> rfl
theorem hpostF : ∀ op ∈ post (F := F), op.fresh = ∅ := by
  intro op h
  simp only [List.mem_cons, List.not_mem_nil, or_false] at h
  rcases h with rfl | rfl | rfl <;> rfl

/-- What @main leaves: every array of the TensorCore at its contents after the last operation. -/
abbrev FIN (d : Dev nD) : sProp 𝕄 := held (T d) S10 (V8 m d)

theorem V5_of_ne (d : Dev nD) {b : DevRef τ sig} (h : b ≠ v4') : V5 m d b = V4 m d b := Function.update_of_ne h _ _
theorem V5_v4 (d : Dev nD) : V5 m d v4' = Cert.KSpec.Gk (Xv m d) (Tv0 m d) := Function.update_self _ _ _

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S10 _ (pre (F := F)) hpreS hpreF (V0 m d)) $$ [Hb Hheld]
  · isplitl [Hb]; · iexact Hb
    iexact Hheld
  iintro ⟨Hb, Hheld⟩
  ihave Hh := (Entails.of_eq (held_S10 (F := F) d _)) $$ Hheld
  icases Hh with ⟨Ha0, Ha1, Hv0, Hv1, Hv2, Hv3, Hv4, Hv5, Hv6, Hv7⟩
  ihave Hx := (toks_split (xLoc d) _) $$ Hv2
  icases Hx with ⟨Hxd, Hxt⟩
  ihave Ht := (toks_split (tLoc d) _) $$ Hv3
  icases Ht with ⟨Htd, Htt⟩
  rw [wp_bind]
  iapply ((K (F := F)).wp_run (D (F := F)) 𝒱 (EH := EH) (P := P m) κ d 0) $$ [Hst Hxt Htt Hv4 Hxd Htd Hb Ha0 Ha1 Hv0 Hv1 Hv5 Hv6 Hv7]
  isplitr; · iexact Hctx
  isplitl [Hst]; · iexact Hst
  isplitl [Hxt Htt Hv4]
  · rw [st_all]
    isplitl [Hxt]; · iexact Hxt
    isplitl [Htt]; · iexact Htt
    iexact Hv4
  iintro ⟨Hst, Hdn⟩
  ihave Hdn := (Entails.of_eq (dn_all m d)) $$ Hdn
  icases Hdn with ⟨Hxt, Htt, Hv4⟩
  ihave Hv2 := (toks_join (xLoc d) _) $$ [Hxd Hxt]
  · isplitl [Hxd]; · iexact Hxd
    iexact Hxt
  ihave Hv3 := (toks_join (tLoc d) _) $$ [Htd Htt]
  · isplitl [Htd]; · iexact Htd
    iexact Htt
  iapply (StableHlo.wp_seq 𝒱 none Set.univ d S10 _ (post (F := F)) hpostS hpostF (V5 m d)) $$ [Hb Ha0 Ha1 Hv0 Hv1 Hv2 Hv3 Hv4 Hv5 Hv6 Hv7]
  · isplitl [Hb]; · iexact Hb
    rw [held_S10, V5_v4, V5_of_ne m d (b := a0') (by decide), V5_of_ne m d (b := a1') (by decide), V5_of_ne m d (b := v0') (by decide),
      V5_of_ne m d (b := v1') (by decide), V5_of_ne m d (b := v2') (by decide), V5_of_ne m d (b := v3') (by decide),
      V5_of_ne m d (b := v5') (by decide), V5_of_ne m d (b := v6') (by decide), V5_of_ne m d (b := v7') (by decide)]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  iintro ⟨Hb, Hheld⟩
  rw [wp_pure]; imodintro
  isplitl [Hst]; · iexact Hst
  iexact Hheld

/-! ## The final memory -/

def fq (d : Dev nD) (s' : Phys nD τ sig (Elt F)) : Prop :=
  s'.mem.mem ((SparseCore.T d).loc main_v7) = V8 m d v7' ∧ s'.mem.mem ((SparseCore.T d).loc main_arg0) = V8 m d a0'
    ∧ s'.mem.mem ((SparseCore.T d).loc main_arg1) = V8 m d a1'

theorem hfin (d : Dev nD) (s' : Phys nD τ sig (Elt F)) : iprop(FIN m d ∗ SI s') ⊢ (⌜fq m d s'⌝ : sProp 𝕄) := by
  rw [show FIN m d = _ from held_S10 (F := F) d (V8 m d)]
  iintro ⟨⟨Ha0, Ha1, -, -, -, -, -, -, -, Hv7⟩, HSI⟩
  ihave H := (persistent_entails_right (SI_pointsTo_agree (st := s') (ℓ := (SparseCore.T d).loc main_v7) (I := Finset.univ) (q := fullShare) (f := V8 m d v7'))) $$ [HSI Hv7]
  · isplitl [HSI] <;> iassumption
  icases H with ⟨%h1, HSI, -⟩
  ihave H := (persistent_entails_right (SI_pointsTo_agree (st := s') (ℓ := (SparseCore.T d).loc main_arg0) (I := Finset.univ) (q := fullShare) (f := V8 m d a0'))) $$ [HSI Ha0]
  · isplitl [HSI] <;> iassumption
  icases H with ⟨%h2, HSI, -⟩
  ihave H := (SI_pointsTo_agree (st := s') (ℓ := (SparseCore.T d).loc main_arg1) (I := Finset.univ) (q := fullShare) (f := V8 m d a1')) $$ [HSI Ha1]
  · isplitl [HSI] <;> iassumption
  icases H with %h3
  ipureintro
  exact ⟨funext fun i => h1 i (Finset.mem_univ i), funext fun i => h2 i (Finset.mem_univ i), funext fun i => h3 i (Finset.mem_univ i)⟩

/-! ## The values: the arrays the kernel is given, and the result -/

theorem Xv_eq (d : Dev nD) : Xv m d = shapeCast S25600x8x128 (transpose S200x128x8x128 [2, 0, 3, 1]
    (shapeCast S128x128x200x8 (m ((SparseCore.T d).loc main_arg0)) shapeCasts_S16384x200x8_S128x128x200x8) transposes_S128x128x200x8_S200x128x8x128_2_0_3_1)
    shapeCasts_S200x128x8x128_S25600x8x128 := by
  show StableHlo.after (pre (F := F)) (V0 m d) (Proc.devRef .tc main_v2) = _
  after_results
  rfl
theorem Tv0_eq (d : Dev nD) : Tv0 m d = shapeCast S28 (m ((SparseCore.T d).loc main_arg1)) shapeCasts_S7x4_S28 := by
  show StableHlo.after (pre (F := F)) (V0 m d) (Proc.devRef .tc main_v3) = _
  after_results
  rfl
theorem V4_a0 (d : Dev nD) : V4 m d a0' = m ((SparseCore.T d).loc main_arg0) := by
  show StableHlo.after (pre (F := F)) (V0 m d) (Proc.devRef .tc main_arg0) = _
  after_results
  rfl
theorem V4_a1 (d : Dev nD) : V4 m d a1' = m ((SparseCore.T d).loc main_arg1) := by
  show StableHlo.after (pre (F := F)) (V0 m d) (Proc.devRef .tc main_arg1) = _
  after_results
  rfl
theorem V8_a0 (d : Dev nD) : V8 m d a0' = m ((SparseCore.T d).loc main_arg0) := by
  show StableHlo.after (post (F := F)) (V5 m d) (Proc.devRef .tc main_arg0) = _
  after_results
  exact (V5_of_ne m d (b := a0') (by decide)).trans (V4_a0 m d)
theorem V8_a1 (d : Dev nD) : V8 m d a1' = m ((SparseCore.T d).loc main_arg1) := by
  show StableHlo.after (post (F := F)) (V5 m d) (Proc.devRef .tc main_arg1) = _
  after_results
  exact (V5_of_ne m d (b := a1') (by decide)).trans (V4_a1 m d)
theorem V8_v7 (d : Dev nD) : V8 m d v7' = shapeCast S16384x200x4 (transpose S128x128x200x4 [1, 3, 0, 2]
    (shapeCast S200x128x4x128 (Cert.KSpec.Gk (Xv m d) (Tv0 m d)) shapeCasts_S25600x4x128_S200x128x4x128) transposes_S200x128x4x128_S128x128x200x4_1_3_0_2)
    shapeCasts_S128x128x200x4_S16384x200x4 := by
  show StableHlo.after (post (F := F)) (V5 m d) (Proc.devRef .tc main_v7) = _
  after_results
  rw [show V5 m d (Proc.devRef .tc main_v4) = _ from V5_v4 m d]
  rfl

/-- Every index word the kernel is given is one of the argument's. -/
theorem hX_of (hpre : ∀ d i, (m ((SparseCore.T d).loc main_arg0) i).toNat ≤ 6) : ∀ d i, (Xv m d i).toNat ≤ 6 := by
  intro d i
  rw [Xv_eq]
  exact hpre d _

/-- The result is the lookup specification of the arguments. -/
theorem V8_spec (hpre : ∀ d i, (m ((SparseCore.T d).loc main_arg0) i).toNat ≤ 6) (d : Dev nD) :
    V8 m d v7' = Cert.Spec.G (m ((SparseCore.T d).loc main_arg0)) (m ((SparseCore.T d).loc main_arg1)) := by
  rw [V8_v7, Xv_eq, Tv0_eq]
  exact Cert.HostValue.host_value (m ((SparseCore.T d).loc main_arg0)) (m ((SparseCore.T d).loc main_arg1)) (hpre d) _ _ _ _ _ _ _

/-! ## The program's run -/

def QC : PUnit × MemSt nD τ sig (Elt F) → Prop := fun r => ∀ c : Dev nD,
  r.2.mem ((SparseCore.T c).loc main_v7) = Cert.Spec.G (m ((SparseCore.T c).loc main_arg0)) (m ((SparseCore.T c).loc main_arg1))
    ∧ r.2.mem ((SparseCore.T c).loc main_arg0) = m ((SparseCore.T c).loc main_arg0)
    ∧ r.2.mem ((SparseCore.T c).loc main_arg1) = m ((SparseCore.T c).loc main_arg1)

theorem run_main [∀ e, Nonempty (Elt F e)] (hpre : ∀ d i, (m ((SparseCore.T d).loc main_arg0) i).toNat ≤ 6) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (hX_of m hpre))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (V8_spec m hpre c), (h c).2.1.trans (V8_a0 m c), (h c).2.2.trans (V8_a1 m c)⟩)

end Cert.Proof.KI
end
-- ==== Proof.StripKB.lean ====
/-
  One trip of a block's inner loop stores four strips of sixteen lanes, one per table column, into the block's
  output scratch at row k, lanes 16·j … 16·j + 15. Read back index by index: an entry inside a strip holds
  that strip's payload, every other entry is unchanged; so the part of the scratch that already agrees
  with a whole-block function G grows by those lanes when each payload is G there.
-/
import Idealize.ShloMosaic.Lib.ValueIdx
import proofs.«206284_g43061342110465_cont_8to1_b_1111_8_alg».proof.Proof.Gen.Kernel
import proofs.«206284_g43061342110465_cont_8to1_b_1111_8_alg».proof.Proof.LibWholeWrites

namespace Cert.Proof.KB

open Cert.Kernel Cert.Kernel.Gen
open Idealize.ShloMosaic

variable {F : FTy → Type}

theorem mem_strip (off : Fin 3 → Nat) (inb : ∀ a, off a + S1x1x16.size a ≤ S80x4x128.size a) (i : S80x4x128.Idx) :
    i ∈ (Rect.unit (s := S80x4x128) off S1x1x16.size inb).set ↔
      (off 0 ≤ (i 0).val ∧ (i 0).val < off 0 + 1) ∧ (off 1 ≤ (i 1).val ∧ (i 1).val < off 1 + 1)
        ∧ (off 2 ≤ (i 2).val ∧ (i 2).val < off 2 + 16) := by
  rw [Rect.mem_set_unit]
  constructor
  · intro h; exact ⟨h 0, h 1, h 2⟩
  · rintro ⟨h0, h1, h2⟩ a
    match a with
    | 0 => exact h0
    | 1 => exact h1
    | 2 => exact h2

/-- The local index of lane l of a strip. -/
def laneIx (l : Fin 16) : S1x1x16.Idx := ValueIdx.ix3 (n0 := 1) (n1 := 1) (n2 := 16) 0 0 l

theorem emb_strip (off : Fin 3 → Nat) (inb : ∀ a, off a + S1x1x16.size a ≤ S80x4x128.size a) (i : S80x4x128.Idx) (l : Fin 16)
    (h0 : (i 0).val = off 0) (h1 : (i 1).val = off 1) (h2 : (i 2).val = off 2 + l.val) :
    (Rect.unit (s := S80x4x128) off S1x1x16.size inb).emb (laneIx l) = i := by
  funext a
  apply Fin.ext
  rw [Rect.emb_apply]
  match a with
  | 0 => show off 0 + 1 * 0 = (i 0).val; omega
  | 1 => show off 1 + 1 * 0 = (i 1).val; omega
  | 2 => show off 2 + 1 * l.val = (i 2).val; omega

section
variable (g : S80x4x128.Idx → Elt F .f32) (off : Fin 3 → Nat) (inb : ∀ a, off a + S1x1x16.size a ≤ S80x4x128.size a)
  (w : S1x1x16.Idx → Elt F .f32) (i : S80x4x128.Idx)

theorem strip3_hit (l : Fin 16) (h0 : (i 0).val = off 0) (h1 : (i 1).val = off 1) (h2 : (i 2).val = off 2 + l.val) :
    ((View.whole (cc0_scratch3 : Ref sig .scVector)).slice (Rect.unit (s := S80x4x128) off S1x1x16.size inb)).write (Elt F) g w Finset.univ i = w (laneIx l) := by
  rw [← emb_strip off inb i l h0 h1 h2]
  exact Cert.LibWholeWrites.whole_write_hit (cc0_scratch3 : Ref sig .scVector) (Rect.unit (s := S80x4x128) off S1x1x16.size inb) g w (laneIx l)

theorem strip3_miss (h : ¬ ((off 0 ≤ (i 0).val ∧ (i 0).val < off 0 + 1) ∧ (off 1 ≤ (i 1).val ∧ (i 1).val < off 1 + 1)
      ∧ (off 2 ≤ (i 2).val ∧ (i 2).val < off 2 + 16))) :
    ((View.whole (cc0_scratch3 : Ref sig .scVector)).slice (Rect.unit (s := S80x4x128) off S1x1x16.size inb)).write (Elt F) g w Finset.univ i = g i :=
  Cert.LibWholeWrites.whole_write_miss (cc0_scratch3 : Ref sig .scVector) (Rect.unit (s := S80x4x128) off S1x1x16.size inb) g w i
    (fun hm => h ((mem_strip off inb i).mp hm))
end

/-- Four strips at row k, lanes 16·j …, columns 0 … 3 (stored in that order): the entries that agree with G grow by those lanes. -/
theorem strips3_step (k j : Nat) (hj : j < 8) (f G : S80x4x128.Idx → Elt F .f32)
    (o0 o1 o2 o3 : Fin 3 → Nat) (e0 : o0 = ![k, 0, 16 * j]) (e1 : o1 = ![k, 1, 16 * j]) (e2 : o2 = ![k, 2, 16 * j]) (e3 : o3 = ![k, 3, 16 * j])
    (i0 : ∀ a, o0 a + S1x1x16.size a ≤ S80x4x128.size a) (i1 : ∀ a, o1 a + S1x1x16.size a ≤ S80x4x128.size a)
    (i2 : ∀ a, o2 a + S1x1x16.size a ≤ S80x4x128.size a) (i3 : ∀ a, o3 a + S1x1x16.size a ≤ S80x4x128.size a)
    (w0 w1 w2 w3 : S1x1x16.Idx → Elt F .f32)
    (hw0 : ∀ (l : Fin 16) (i : S80x4x128.Idx), (i 0).val = k → (i 1).val = 0 → (i 2).val = 16 * j + l.val → w0 (laneIx l) = G i)
    (hw1 : ∀ (l : Fin 16) (i : S80x4x128.Idx), (i 0).val = k → (i 1).val = 1 → (i 2).val = 16 * j + l.val → w1 (laneIx l) = G i)
    (hw2 : ∀ (l : Fin 16) (i : S80x4x128.Idx), (i 0).val = k → (i 1).val = 2 → (i 2).val = 16 * j + l.val → w2 (laneIx l) = G i)
    (hw3 : ∀ (l : Fin 16) (i : S80x4x128.Idx), (i 0).val = k → (i 1).val = 3 → (i 2).val = 16 * j + l.val → w3 (laneIx l) = G i)
    (hf : ∀ i : S80x4x128.Idx, ((i 0).val < k ∨ ((i 0).val = k ∧ (i 2).val < 16 * j)) → f i = G i) :
    ∀ i : S80x4x128.Idx, ((i 0).val < k ∨ ((i 0).val = k ∧ (i 2).val < 16 * (j + 1))) →
      (View.whole (cc0_scratch3 : Ref sig .scVector)).writes (Elt F) f
        [⟨Rect.unit (s := S80x4x128) o3 S1x1x16.size i3, w3⟩, ⟨Rect.unit (s := S80x4x128) o2 S1x1x16.size i2, w2⟩,
          ⟨Rect.unit (s := S80x4x128) o1 S1x1x16.size i1, w1⟩, ⟨Rect.unit (s := S80x4x128) o0 S1x1x16.size i0, w0⟩] i = G i := by
  subst e0 e1 e2 e3
  intro i hi
  simp only [View.writes_cons, View.writes_nil]
  have hc : (i 1).val < 4 := (i 1).isLt
  by_cases hs : (i 0).val = k ∧ 16 * j ≤ (i 2).val
  · obtain ⟨hk, hlo⟩ := hs
    have hhi : (i 2).val < 16 * j + 16 := by rcases hi with h | h <;> omega
    have hl : (i 2).val - 16 * j < 16 := by omega
    have h2 : (i 2).val = 16 * j + (⟨(i 2).val - 16 * j, hl⟩ : Fin 16).val := by show _ = 16 * j + ((i 2).val - 16 * j); omega
    have hcase : (i 1).val = 0 ∨ (i 1).val = 1 ∨ (i 1).val = 2 ∨ (i 1).val = 3 := by omega
    rcases hcase with hc0 | hc1 | hc2 | hc3
    · rw [strip3_miss _ _ _ _ i (by simp; omega), strip3_miss _ _ _ _ i (by simp; omega), strip3_miss _ _ _ _ i (by simp; omega),
        strip3_hit _ _ _ _ i ⟨(i 2).val - 16 * j, hl⟩ (by simpa using hk) (by simpa using hc0) (by simpa using h2)]
      exact hw0 _ i hk hc0 h2
    · rw [strip3_miss _ _ _ _ i (by simp; omega), strip3_miss _ _ _ _ i (by simp; omega),
        strip3_hit _ _ _ _ i ⟨(i 2).val - 16 * j, hl⟩ (by simpa using hk) (by simpa using hc1) (by simpa using h2)]
      exact hw1 _ i hk hc1 h2
    · rw [strip3_miss _ _ _ _ i (by simp; omega),
        strip3_hit _ _ _ _ i ⟨(i 2).val - 16 * j, hl⟩ (by simpa using hk) (by simpa using hc2) (by simpa using h2)]
      exact hw2 _ i hk hc2 h2
    · rw [strip3_hit _ _ _ _ i ⟨(i 2).val - 16 * j, hl⟩ (by simpa using hk) (by simpa using hc3) (by simpa using h2)]
      exact hw3 _ i hk hc3 h2
  · have hout : (i 0).val < k ∨ ((i 0).val = k ∧ (i 2).val < 16 * j) := by
      rcases hi with h | h
      · exact .inl h
      · exact .inr ⟨h.1, by by_contra hn; exact hs ⟨h.1, by omega⟩⟩
    have hm : ∀ c : Nat, ¬ ((![k, c, 16 * j] 0 ≤ (i 0).val ∧ (i 0).val < ![k, c, 16 * j] 0 + 1) ∧ (![k, c, 16 * j] 1 ≤ (i 1).val ∧ (i 1).val < ![k, c, 16 * j] 1 + 1)
        ∧ (![k, c, 16 * j] 2 ≤ (i 2).val ∧ (i 2).val < ![k, c, 16 * j] 2 + 16)) := by
      intro c; simp; intro h1 h2 _ _ h5; exact absurd ⟨by omega, h5⟩ hs
    rw [strip3_miss _ _ _ _ i (hm 3), strip3_miss _ _ _ _ i (hm 2), strip3_miss _ _ _ _ i (hm 1), strip3_miss _ _ _ _ i (hm 0)]
    exact hf i hout

section
variable (g : S80x4x128.Idx → Elt F .f32) (off : Fin 3 → Nat) (inb : ∀ a, off a + S1x1x16.size a ≤ S80x4x128.size a)
  (w : S1x1x16.Idx → Elt F .f32) (i : S80x4x128.Idx)

theorem strip4_hit (l : Fin 16) (h0 : (i 0).val = off 0) (h1 : (i 1).val = off 1) (h2 : (i 2).val = off 2 + l.val) :
    ((View.whole (cc0_scratch4 : Ref sig .scVector)).slice (Rect.unit (s := S80x4x128) off S1x1x16.size inb)).write (Elt F) g w Finset.univ i = w (laneIx l) := by
  rw [← emb_strip off inb i l h0 h1 h2]
  exact Cert.LibWholeWrites.whole_write_hit (cc0_scratch4 : Ref sig .scVector) (Rect.unit (s := S80x4x128) off S1x1x16.size inb) g w (laneIx l)

theorem strip4_miss (h : ¬ ((off 0 ≤ (i 0).val ∧ (i 0).val < off 0 + 1) ∧ (off 1 ≤ (i 1).val ∧ (i 1).val < off 1 + 1)
      ∧ (off 2 ≤ (i 2).val ∧ (i 2).val < off 2 + 16))) :
    ((View.whole (cc0_scratch4 : Ref sig .scVector)).slice (Rect.unit (s := S80x4x128) off S1x1x16.size inb)).write (Elt F) g w Finset.univ i = g i :=
  Cert.LibWholeWrites.whole_write_miss (cc0_scratch4 : Ref sig .scVector) (Rect.unit (s := S80x4x128) off S1x1x16.size inb) g w i
    (fun hm => h ((mem_strip off inb i).mp hm))
end

/-- Four strips at row k, lanes 16·j …, columns 0 … 3 (stored in that order): the entries that agree with G grow by those lanes. -/
theorem strips4_step (k j : Nat) (hj : j < 8) (f G : S80x4x128.Idx → Elt F .f32)
    (o0 o1 o2 o3 : Fin 3 → Nat) (e0 : o0 = ![k, 0, 16 * j]) (e1 : o1 = ![k, 1, 16 * j]) (e2 : o2 = ![k, 2, 16 * j]) (e3 : o3 = ![k, 3, 16 * j])
    (i0 : ∀ a, o0 a + S1x1x16.size a ≤ S80x4x128.size a) (i1 : ∀ a, o1 a + S1x1x16.size a ≤ S80x4x128.size a)
    (i2 : ∀ a, o2 a + S1x1x16.size a ≤ S80x4x128.size a) (i3 : ∀ a, o3 a + S1x1x16.size a ≤ S80x4x128.size a)
    (w0 w1 w2 w3 : S1x1x16.Idx → Elt F .f32)
    (hw0 : ∀ (l : Fin 16) (i : S80x4x128.Idx), (i 0).val = k → (i 1).val = 0 → (i 2).val = 16 * j + l.val → w0 (laneIx l) = G i)
    (hw1 : ∀ (l : Fin 16) (i : S80x4x128.Idx), (i 0).val = k → (i 1).val = 1 → (i 2).val = 16 * j + l.val → w1 (laneIx l) = G i)
    (hw2 : ∀ (l : Fin 16) (i : S80x4x128.Idx), (i 0).val = k → (i 1).val = 2 → (i 2).val = 16 * j + l.val → w2 (laneIx l) = G i)
    (hw3 : ∀ (l : Fin 16) (i : S80x4x128.Idx), (i 0).val = k → (i 1).val = 3 → (i 2).val = 16 * j + l.val → w3 (laneIx l) = G i)
    (hf : ∀ i : S80x4x128.Idx, ((i 0).val < k ∨ ((i 0).val = k ∧ (i 2).val < 16 * j)) → f i = G i) :
    ∀ i : S80x4x128.Idx, ((i 0).val < k ∨ ((i 0).val = k ∧ (i 2).val < 16 * (j + 1))) →
      (View.whole (cc0_scratch4 : Ref sig .scVector)).writes (Elt F) f
        [⟨Rect.unit (s := S80x4x128) o3 S1x1x16.size i3, w3⟩, ⟨Rect.unit (s := S80x4x128) o2 S1x1x16.size i2, w2⟩,
          ⟨Rect.unit (s := S80x4x128) o1 S1x1x16.size i1, w1⟩, ⟨Rect.unit (s := S80x4x128) o0 S1x1x16.size i0, w0⟩] i = G i := by
  subst e0 e1 e2 e3
  intro i hi
  simp only [View.writes_cons, View.writes_nil]
  have hc : (i 1).val < 4 := (i 1).isLt
  by_cases hs : (i 0).val = k ∧ 16 * j ≤ (i 2).val
  · obtain ⟨hk, hlo⟩ := hs
    have hhi : (i 2).val < 16 * j + 16 := by rcases hi with h | h <;> omega
    have hl : (i 2).val - 16 * j < 16 := by omega
    have h2 : (i 2).val = 16 * j + (⟨(i 2).val - 16 * j, hl⟩ : Fin 16).val := by show _ = 16 * j + ((i 2).val - 16 * j); omega
    have hcase : (i 1).val = 0 ∨ (i 1).val = 1 ∨ (i 1).val = 2 ∨ (i 1).val = 3 := by omega
    rcases hcase with hc0 | hc1 | hc2 | hc3
    · rw [strip4_miss _ _ _ _ i (by simp; omega), strip4_miss _ _ _ _ i (by simp; omega), strip4_miss _ _ _ _ i (by simp; omega),
        strip4_hit _ _ _ _ i ⟨(i 2).val - 16 * j, hl⟩ (by simpa using hk) (by simpa using hc0) (by simpa using h2)]
      exact hw0 _ i hk hc0 h2
    · rw [strip4_miss _ _ _ _ i (by simp; omega), strip4_miss _ _ _ _ i (by simp; omega),
        strip4_hit _ _ _ _ i ⟨(i 2).val - 16 * j, hl⟩ (by simpa using hk) (by simpa using hc1) (by simpa using h2)]
      exact hw1 _ i hk hc1 h2
    · rw [strip4_miss _ _ _ _ i (by simp; omega),
        strip4_hit _ _ _ _ i ⟨(i 2).val - 16 * j, hl⟩ (by simpa using hk) (by simpa using hc2) (by simpa using h2)]
      exact hw2 _ i hk hc2 h2
    · rw [strip4_hit _ _ _ _ i ⟨(i 2).val - 16 * j, hl⟩ (by simpa using hk) (by simpa using hc3) (by simpa using h2)]
      exact hw3 _ i hk hc3 h2
  · have hout : (i 0).val < k ∨ ((i 0).val = k ∧ (i 2).val < 16 * j) := by
      rcases hi with h | h
      · exact .inl h
      · exact .inr ⟨h.1, by by_contra hn; exact hs ⟨h.1, by omega⟩⟩
    have hm : ∀ c : Nat, ¬ ((![k, c, 16 * j] 0 ≤ (i 0).val ∧ (i 0).val < ![k, c, 16 * j] 0 + 1) ∧ (![k, c, 16 * j] 1 ≤ (i 1).val ∧ (i 1).val < ![k, c, 16 * j] 1 + 1)
        ∧ (![k, c, 16 * j] 2 ≤ (i 2).val ∧ (i 2).val < ![k, c, 16 * j] 2 + 16)) := by
      intro c; simp; intro h1 h2 _ _ h5; exact absurd ⟨by omega, h5⟩ hs
    rw [strip4_miss _ _ _ _ i (hm 3), strip4_miss _ _ _ _ i (hm 2), strip4_miss _ _ _ _ i (hm 1), strip4_miss _ _ _ _ i (hm 0)]
    exact hf i hout

end Cert.Proof.KB
-- ==== Proof.ComputeKB.lean ====
/-
  One block's computation: for each of its 80 panels and each group of 16 lanes, the index words are
  loaded, shifted to word addresses of the flat table, and the four columns are gathered out of the table
  scratch and stored. After the two loops the output scratch holds, at (p, c, l), the table word at
  4·x[p, 0, l] + c, where x is the index scratch. Stated once for each of the two buffer pairs the
  kernel alternates between.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.Kernel
import proofs.«206284_g43061342110465_cont_8to1_b_1111_8_alg».proof.Proof.Gen.Kernel.Skeleton
import proofs.«206284_g43061342110465_cont_8to1_b_1111_8_alg».proof.Proof.KSpec
import proofs.«206284_g43061342110465_cont_8to1_b_1111_8_alg».proof.Proof.Words
import proofs.«206284_g43061342110465_cont_8to1_b_1111_8_alg».proof.Proof.StripKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

abbrev xV : Memref sig .scVector .hbm S25600x8x128 .i32 := Memref.whole main_v2_scv
abbrev tV : Memref sig .scVector .hbm S28 .f32 := Memref.whole main_v3_scv
abbrev oV : Memref sig .scVector .hbm S25600x4x128 .f32 := Memref.whole main_v4_scv
abbrev sT : Memref sig .scVector .vmem S28 .f32 := Memref.whole cc0_scratch0
abbrev sI0 : Memref sig .scVector .vmem S80x1x128 .i32 := Memref.whole cc0_scratch1
abbrev sI1 : Memref sig .scVector .vmem S80x1x128 .i32 := Memref.whole cc0_scratch2
abbrev sO0 : Memref sig .scVector .vmem S80x4x128 .f32 := Memref.whole cc0_scratch3
abbrev sO1 : Memref sig .scVector .vmem S80x4x128 .f32 := Memref.whole cc0_scratch4

abbrev cV (L : grid0.Coords) : Fin τ.nSC := (L 0).castLE hcore0
abbrev jV (L : grid0.Coords) : Fin τ.nSub := (L 1).castLE hsub0

/-- A block's output as one function of its index scratch and of the table scratch: entry (p, c, l) is the
    flat table's word at 4·x[p, 0, l] + c. -/
def Gblk (fin : S80x1x128.Idx → BitVec 32) (Tv : S28.Idx → Elt F .f32) : S80x4x128.Idx → Elt F .f32 :=
  fun i => Tv (Cert.KSpec.tabIx (fin (ValueIdx.ix3 (n0 := 80) (n1 := 1) (n2 := 128) (i 0) 0 (i 2))) (i 1))

theorem t1_lt (k : Fin k0_t1_loop.trips) : k.val < 80 := lt_of_lt_of_le k.isLt k0_t1_abs.2.1
theorem t2_lt (j : Fin k0_t2_loop.trips) : j.val < 8 := lt_of_lt_of_le j.isLt k0_t2_abs.2.1

theorem Gblk_apply (fin : S80x1x128.Idx → BitVec 32) (Tv : S28.Idx → Elt F .f32) (p : Fin 80) (c : Fin 4) (l : Fin 128) :
    Gblk fin Tv (ValueIdx.ix3 p c l) = Tv (Cert.KSpec.tabIx (fin (ValueIdx.ix3 p 0 l)) c) := rfl
theorem t4_lt (j : Fin k0_t4_loop.trips) : j.val < 8 := lt_of_lt_of_le j.isLt k0_t4_abs.2.1

section
variable (d : Dev nD) (L : grid0.Coords)

omit [FloatOps F] in
theorem readAt_le {fin : Buf (Elt F) ((V d (cV L) (jV L)).loc cc0_scratch1)} (hfin : ∀ i, (fin i).toNat ≤ 6) (r : LoadRect S80x1x128) (x : r.shape.Idx) :
    ((sI0).view.readAt (Elt F) r fin x).toNat ≤ 6 := by
  simp only [View.readAt_apply, Memref.view_whole, View.read_whole]
  exact hfin _

theorem chk1_of (v : Vec F S1x1x16 .i32) (hv : ∀ x, (v x).toNat ≤ 6) : k0_chk1 (k0_pay2 v) := by
  intro a x
  obtain rfl : a = 0 := Subsingleton.elim _ _
  exact Cert.Words.lane_lt (hv _) 0
theorem chk2_of (v : Vec F S1x1x16 .i32) (hv : ∀ x, (v x).toNat ≤ 6) : k0_chk2 (k0_pay3 v) := by
  intro a x
  obtain rfl : a = 0 := Subsingleton.elim _ _
  exact Cert.Words.lane_lt (hv _) 1
theorem chk3_of (v : Vec F S1x1x16 .i32) (hv : ∀ x, (v x).toNat ≤ 6) : k0_chk3 (k0_pay4 v) := by
  intro a x
  obtain rfl : a = 0 := Subsingleton.elim _ _
  exact Cert.Words.lane_lt (hv _) 2
theorem chk4_of (v : Vec F S1x1x16 .i32) (hv : ∀ x, (v x).toNat ≤ 6) : k0_chk4 (k0_pay5 v) := by
  intro a x
  obtain rfl : a = 0 := Subsingleton.elim _ _
  exact Cert.Words.lane_lt (hv _) 3

/-- The loops' invariant: the table and the index scratch as they are, the output scratch agreeing with the block's
    function on the rows before k and, in row k, on the lanes before 16·j. -/
def IinE (Tv : Buf (Elt F) ((V d (cV L) (jV L)).loc cc0_scratch0)) (fin : Buf (Elt F) ((V d (cV L) (jV L)).loc cc0_scratch1))
    (k : Nat) (j : Nat) (_ : BitVec 32) : sProp 𝕄 :=
  iprop(((sT).view.loc (V d (cV L) (jV L)) ↦{fullShare} Tv) ∗ ((sI0).view.loc (V d (cV L) (jV L)) ↦{fullShare} fin)
    ∗ ∃ f : Buf (Elt F) ((V d (cV L) (jV L)).loc cc0_scratch3), ((sO0).view.loc (V d (cV L) (jV L)) ↦{fullShare} f)
      ∗ ⌜∀ i : S80x4x128.Idx, ((i 0).val < k ∨ ((i 0).val = k ∧ (i 2).val < 16 * j)) → f i = Gblk fin Tv i⌝)

theorem hwE (Tv : S28.Idx → Elt F .f32) (fin : S80x1x128.Idx → BitVec 32) (hfin : ∀ i, (fin i).toNat ≤ 6)
    (k : Fin k0_t1_loop.trips) (j : Fin k0_t2_loop.trips) (c : Fin 4) (pay : IVec S16 32)
    (hpay : ∀ y : S16.Idx, pay y = IntOp.addi (IntOp.shli .vector
      (View.readAt (Elt F) (sI0).view (Rect.unit (s := S80x1x128) (k0_off2 k j) S1x1x16.size (k0_off2_inb k j)).toLoadRect fin
        (Shape.reshapeEquiv shapeCasts_S1x1x16_S16 y)) 2#32) (BitVec.ofNat 32 c.val))
    (h : ∀ a x, ((![pay] : Fin 1 → IVec S16 32) a x).toNat < S28.size a) :
    ∀ (l : Fin 16) (i : S80x4x128.Idx), (i 0).val = k.val → (i 1).val = c.val → (i 2).val = 16 * j.val + l.val →
      shapeCast S1x1x16 (loadIdx (View.readAt (Elt F) (sT).view (LoadRect.whole S28) Tv) ![pay] h) shapeCasts_S16_S1x1x16 (laneIx l) = Gblk fin Tv i := by
  intro l i h0 h1 h2
  obtain ⟨p, cc, l', rfl⟩ : ∃ (p : Fin 80) (cc : Fin 4) (l' : Fin 128), i = ValueIdx.ix3 p cc l' := ⟨i 0, i 1, i 2, ValueIdx.eq_ix3 i⟩
  change p.val = k.val at h0
  change cc.val = c.val at h1
  change l'.val = 16 * j.val + l.val at h2
  rw [Gblk_apply]
  unfold shapeCast loadIdx
  rw [View.readAt_apply]
  show Tv _ = Tv _
  refine congrArg Tv ?_
  refine (ValueIdx.eq_ix1 (n := 28) _).trans ?_
  unfold Cert.KSpec.tabIx
  refine congrArg (ValueIdx.ix1 (n := 28)) (Fin.ext ?_)
  show 0 + 1 * (pay (Shape.reshapeEquiv shapeCasts_S16_S1x1x16 (laneIx l))).toNat = ((fin (ValueIdx.ix3 p 0 l')).toNat * 4 + cc.val) % 28
  rw [hpay, Shape.reshapeEquiv_reshapeEquiv, Shape.reshapeEquiv_self, View.readAt_apply]
  have e : (Rect.unit (s := S80x1x128) (k0_off2 k j) S1x1x16.size (k0_off2_inb k j)).toLoadRect.idx (laneIx l)
      = ValueIdx.ix3 (n0 := 80) (n1 := 1) (n2 := 128) p 0 l' := by
    funext a
    apply Fin.ext
    rw [LoadRect.idx_apply]
    have ho := k0_off2_eq k j
    match a with
    | 0 => show k0_off2 k j 0 + 1 * 0 = p.val; rw [ho]; simp; omega
    | 1 => show k0_off2 k j 1 + 1 * 0 = 0; rw [ho]; simp
    | 2 => show k0_off2 k j 2 + 1 * l.val = l'.val; rw [ho]; simp; omega
  rw [e]
  show 0 + 1 * (IntOp.addi (IntOp.shli .vector (fin (ValueIdx.ix3 (n0 := 80) (n1 := 1) (n2 := 128) p 0 l')) 2#32) (BitVec.ofNat 32 c.val)).toNat = _
  rw [Cert.Words.lane_toNat (hfin _) c]
  have := hfin (ValueIdx.ix3 (n0 := 80) (n1 := 1) (n2 := 128) p 0 l')
  have hc := c.isLt
  omega

set_option maxRecDepth 65536 in
theorem compute_even
    (Tv : Buf (Elt F) ((V d (cV L) (jV L)).loc cc0_scratch0)) (fin : Buf (Elt F) ((V d (cV L) (jV L)).loc cc0_scratch1))
    (hfin : ∀ i, (fin i).toNat ≤ 6)
    (f0 : Buf (Elt F) ((V d (cV L) (jV L)).loc cc0_scratch3)) :
    iprop(((sT).view.loc (V d (cV L) (jV L)) ↦{fullShare} Tv) ∗ ((sI0).view.loc (V d (cV L) (jV L)) ↦{fullShare} fin)
        ∗ ((sO0).view.loc (V d (cV L) (jV L)) ↦{fullShare} f0) : sProp 𝕄)
      ⊢ wp frame (wpE (defs₀ (F := F)) 𝒱₀ (V d (cV L) (jV L)) none) Set.univ
          (Scf.Loop.for k0_t1_loop k0_t1_ok 0#32 (k0_t1_body L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9))
          fun _ => iprop(((sT).view.loc (V d (cV L) (jV L)) ↦{fullShare} Tv) ∗ ((sI0).view.loc (V d (cV L) (jV L)) ↦{fullShare} fin)
            ∗ ((sO0).view.loc (V d (cV L) (jV L)) ↦{fullShare} Gblk fin Tv)) := by
  unfold k0_t1_body k0_t2_body
  rw [k0_part1_eq_skeleton]; unfold k0_part1_skel
  unfold SparseCore.vectorLoadIdx
  iintro ⟨HT, HI, HO⟩
  sl_for (fun k acc => IinE d L Tv fin k 0 acc) $$ [HT HI HO]
  case region =>
    intro k _
    unfold IinE
    iintro ⟨HT, HI, %f, HO, %hf⟩
    sl_exec
    sl_for (fun j acc => IinE d L Tv fin k.val j acc) $$ [HT HI HO]
    case region =>
      intro j _
      unfold IinE
      iintro ⟨HT, HI, %f, HO, %hf⟩
      have hc1 : k0_chk1 (k0_pay2 (View.readAt (Elt F) (sI0).view (Rect.unit (s := S80x1x128) (k0_off2 k j) S1x1x16.size (k0_off2_inb k j)).toLoadRect fin)) :=
        chk1_of _ (fun x => readAt_le d L hfin (Rect.unit (s := S80x1x128) (k0_off2 k j) S1x1x16.size (k0_off2_inb k j)).toLoadRect x)
      have hc2 : k0_chk2 (k0_pay3 (View.readAt (Elt F) (sI0).view (Rect.unit (s := S80x1x128) (k0_off2 k j) S1x1x16.size (k0_off2_inb k j)).toLoadRect fin)) :=
        chk2_of _ (fun x => readAt_le d L hfin (Rect.unit (s := S80x1x128) (k0_off2 k j) S1x1x16.size (k0_off2_inb k j)).toLoadRect x)
      have hc3 : k0_chk3 (k0_pay4 (View.readAt (Elt F) (sI0).view (Rect.unit (s := S80x1x128) (k0_off2 k j) S1x1x16.size (k0_off2_inb k j)).toLoadRect fin)) :=
        chk3_of _ (fun x => readAt_le d L hfin (Rect.unit (s := S80x1x128) (k0_off2 k j) S1x1x16.size (k0_off2_inb k j)).toLoadRect x)
      have hc4 : k0_chk4 (k0_pay5 (View.readAt (Elt F) (sI0).view (Rect.unit (s := S80x1x128) (k0_off2 k j) S1x1x16.size (k0_off2_inb k j)).toLoadRect fin)) :=
        chk4_of _ (fun x => readAt_le d L hfin (Rect.unit (s := S80x1x128) (k0_off2 k j) S1x1x16.size (k0_off2_inb k j)).toLoadRect x)
      sl_exec
      sl_step
      isplitl [HT]; · iexact HT
      isplitl [HI]; · iexact HI
      iexists _
      isplitl [HO]; · iexact HO
      ipureintro
      exact strips3_step k.val j.val (t2_lt j) f (Gblk fin Tv) (k0_off3 k j) (k0_off4 k j) (k0_off5 k j) (k0_off6 k j)
        (k0_off3_eq k j) (k0_off4_eq k j) (k0_off5_eq k j) (k0_off6_eq k j) _ _ _ _ _ _ _ _
        (hwE Tv fin hfin k j 0 _ (fun _ => rfl) _) (hwE Tv fin hfin k j 1 _ (fun _ => rfl) _)
        (hwE Tv fin hfin k j 2 _ (fun _ => rfl) _) (hwE Tv fin hfin k j 3 _ (fun _ => rfl) _) hf
    · unfold IinE
      isplitl [HT]; · iexact HT
      isplitl [HI]; · iexact HI
      iexists f
      isplitl [HO]; · iexact HO
      ipureintro
      intro i hi
      exact hf i (by omega)
    · iintro %acc HI
      unfold IinE
      icases HI with ⟨HT, HI, %f', HO, %hf'⟩
      sl_exec
      sl_step
      isplitl [HT]; · iexact HT
      isplitl [HI]; · iexact HI
      iexists f'
      isplitl [HO]; · iexact HO
      ipureintro
      intro i hi
      have hT2 : Scf.trips k0_t2_loop.lb k0_t2_loop.ub k0_t2_loop.st = 8 := by decide
      have hi2 : (i 2).val < 128 := (i 2).isLt
      exact hf' i (by rw [hT2]; omega)
  · isplitl [HT HI HO]
    · unfold IinE
      isplitl [HT]; · iexact HT
      isplitl [HI]; · iexact HI
      iexists f0
      isplitl [HO]; · iexact HO
      ipureintro
      intro i hi
      omega
    · iintro %acc HI
      unfold IinE
      icases HI with ⟨HT, HI, %f, HO, %hf⟩
      isplitl [HT]; · iexact HT
      isplitl [HI]; · iexact HI
      have hT1 : Scf.trips k0_t1_loop.lb k0_t1_loop.ub k0_t1_loop.st = 80 := by decide
      have hfG : f = Gblk fin Tv := funext fun i => hf i (.inl (by rw [hT1]; exact (i 0).isLt))
      subst hfG
      iexact HO
end

section
variable (d : Dev nD) (L : grid0.Coords)

omit [FloatOps F] in
theorem readAt_leO {fin : Buf (Elt F) ((V d (cV L) (jV L)).loc cc0_scratch2)} (hfin : ∀ i, (fin i).toNat ≤ 6) (r : LoadRect S80x1x128) (x : r.shape.Idx) :
    ((sI1).view.readAt (Elt F) r fin x).toNat ≤ 6 := by
  simp only [View.readAt_apply, Memref.view_whole, View.read_whole]
  exact hfin _

theorem chk5_of (v : Vec F S1x1x16 .i32) (hv : ∀ x, (v x).toNat ≤ 6) : k0_chk5 (k0_pay7 v) := by
  intro a x
  obtain rfl : a = 0 := Subsingleton.elim _ _
  exact Cert.Words.lane_lt (hv _) 0
theorem chk6_of (v : Vec F S1x1x16 .i32) (hv : ∀ x, (v x).toNat ≤ 6) : k0_chk6 (k0_pay8 v) := by
  intro a x
  obtain rfl : a = 0 := Subsingleton.elim _ _
  exact Cert.Words.lane_lt (hv _) 1
theorem chk7_of (v : Vec F S1x1x16 .i32) (hv : ∀ x, (v x).toNat ≤ 6) : k0_chk7 (k0_pay9 v) := by
  intro a x
  obtain rfl : a = 0 := Subsingleton.elim _ _
  exact Cert.Words.lane_lt (hv _) 2
theorem chk8_of (v : Vec F S1x1x16 .i32) (hv : ∀ x, (v x).toNat ≤ 6) : k0_chk8 (k0_pay10 v) := by
  intro a x
  obtain rfl : a = 0 := Subsingleton.elim _ _
  exact Cert.Words.lane_lt (hv _) 3

/-- The loops' invariant: the table and the index scratch as they are, the output scratch agreeing with the block's
    function on the rows before k and, in row k, on the lanes before 16·j. -/
def IinO (Tv : Buf (Elt F) ((V d (cV L) (jV L)).loc cc0_scratch0)) (fin : Buf (Elt F) ((V d (cV L) (jV L)).loc cc0_scratch2))
    (k : Nat) (j : Nat) (_ : BitVec 32) : sProp 𝕄 :=
  iprop(((sT).view.loc (V d (cV L) (jV L)) ↦{fullShare} Tv) ∗ ((sI1).view.loc (V d (cV L) (jV L)) ↦{fullShare} fin)
    ∗ ∃ f : Buf (Elt F) ((V d (cV L) (jV L)).loc cc0_scratch4), ((sO1).view.loc (V d (cV L) (jV L)) ↦{fullShare} f)
      ∗ ⌜∀ i : S80x4x128.Idx, ((i 0).val < k ∨ ((i 0).val = k ∧ (i 2).val < 16 * j)) → f i = Gblk fin Tv i⌝)

theorem hwO (Tv : S28.Idx → Elt F .f32) (fin : S80x1x128.Idx → BitVec 32) (hfin : ∀ i, (fin i).toNat ≤ 6)
    (k : Fin k0_t3_loop.trips) (j : Fin k0_t4_loop.trips) (c : Fin 4) (pay : IVec S16 32)
    (hpay : ∀ y : S16.Idx, pay y = IntOp.addi (IntOp.shli .vector
      (View.readAt (Elt F) (sI1).view (Rect.unit (s := S80x1x128) (k0_off8 k j) S1x1x16.size (k0_off8_inb k j)).toLoadRect fin
        (Shape.reshapeEquiv shapeCasts_S1x1x16_S16 y)) 2#32) (BitVec.ofNat 32 c.val))
    (h : ∀ a x, ((![pay] : Fin 1 → IVec S16 32) a x).toNat < S28.size a) :
    ∀ (l : Fin 16) (i : S80x4x128.Idx), (i 0).val = k.val → (i 1).val = c.val → (i 2).val = 16 * j.val + l.val →
      shapeCast S1x1x16 (loadIdx (View.readAt (Elt F) (sT).view (LoadRect.whole S28) Tv) ![pay] h) shapeCasts_S16_S1x1x16 (laneIx l) = Gblk fin Tv i := by
  intro l i h0 h1 h2
  obtain ⟨p, cc, l', rfl⟩ : ∃ (p : Fin 80) (cc : Fin 4) (l' : Fin 128), i = ValueIdx.ix3 p cc l' := ⟨i 0, i 1, i 2, ValueIdx.eq_ix3 i⟩
  change p.val = k.val at h0
  change cc.val = c.val at h1
  change l'.val = 16 * j.val + l.val at h2
  rw [Gblk_apply]
  unfold shapeCast loadIdx
  rw [View.readAt_apply]
  show Tv _ = Tv _
  refine congrArg Tv ?_
  refine (ValueIdx.eq_ix1 (n := 28) _).trans ?_
  unfold Cert.KSpec.tabIx
  refine congrArg (ValueIdx.ix1 (n := 28)) (Fin.ext ?_)
  show 0 + 1 * (pay (Shape.reshapeEquiv shapeCasts_S16_S1x1x16 (laneIx l))).toNat = ((fin (ValueIdx.ix3 p 0 l')).toNat * 4 + cc.val) % 28
  rw [hpay, Shape.reshapeEquiv_reshapeEquiv, Shape.reshapeEquiv_self, View.readAt_apply]
  have e : (Rect.unit (s := S80x1x128) (k0_off8 k j) S1x1x16.size (k0_off8_inb k j)).toLoadRect.idx (laneIx l)
      = ValueIdx.ix3 (n0 := 80) (n1 := 1) (n2 := 128) p 0 l' := by
    funext a
    apply Fin.ext
    rw [LoadRect.idx_apply]
    have ho := k0_off8_eq k j
    match a with
    | 0 => show k0_off8 k j 0 + 1 * 0 = p.val; rw [ho]; simp; omega
    | 1 => show k0_off8 k j 1 + 1 * 0 = 0; rw [ho]; simp
    | 2 => show k0_off8 k j 2 + 1 * l.val = l'.val; rw [ho]; simp; omega
  rw [e]
  show 0 + 1 * (IntOp.addi (IntOp.shli .vector (fin (ValueIdx.ix3 (n0 := 80) (n1 := 1) (n2 := 128) p 0 l')) 2#32) (BitVec.ofNat 32 c.val)).toNat = _
  rw [Cert.Words.lane_toNat (hfin _) c]
  have := hfin (ValueIdx.ix3 (n0 := 80) (n1 := 1) (n2 := 128) p 0 l')
  have hc := c.isLt
  omega

set_option maxRecDepth 65536 in
theorem compute_odd
    (Tv : Buf (Elt F) ((V d (cV L) (jV L)).loc cc0_scratch0)) (fin : Buf (Elt F) ((V d (cV L) (jV L)).loc cc0_scratch2))
    (hfin : ∀ i, (fin i).toNat ≤ 6)
    (f0 : Buf (Elt F) ((V d (cV L) (jV L)).loc cc0_scratch4)) (v2 : BitVec 32) :
    iprop(((sT).view.loc (V d (cV L) (jV L)) ↦{fullShare} Tv) ∗ ((sI1).view.loc (V d (cV L) (jV L)) ↦{fullShare} fin)
        ∗ ((sO1).view.loc (V d (cV L) (jV L)) ↦{fullShare} f0) : sProp 𝕄)
      ⊢ wp frame (wpE (defs₀ (F := F)) 𝒱₀ (V d (cV L) (jV L)) none) Set.univ
          (Scf.Loop.for k0_t3_loop k0_t3_ok 0#32 (k0_t3_body L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2))
          fun _ => iprop(((sT).view.loc (V d (cV L) (jV L)) ↦{fullShare} Tv) ∗ ((sI1).view.loc (V d (cV L) (jV L)) ↦{fullShare} fin)
            ∗ ((sO1).view.loc (V d (cV L) (jV L)) ↦{fullShare} Gblk fin Tv)) := by
  unfold k0_t3_body k0_t4_body
  rw [k0_part2_eq_skeleton]; unfold k0_part2_skel
  unfold SparseCore.vectorLoadIdx
  iintro ⟨HT, HI, HO⟩
  sl_for (fun k acc => IinO d L Tv fin k 0 acc) $$ [HT HI HO]
  case region =>
    intro k _
    unfold IinO
    iintro ⟨HT, HI, %f, HO, %hf⟩
    sl_exec
    sl_for (fun j acc => IinO d L Tv fin k.val j acc) $$ [HT HI HO]
    case region =>
      intro j _
      unfold IinO
      iintro ⟨HT, HI, %f, HO, %hf⟩
      have hc5 : k0_chk5 (k0_pay7 (View.readAt (Elt F) (sI1).view (Rect.unit (s := S80x1x128) (k0_off8 k j) S1x1x16.size (k0_off8_inb k j)).toLoadRect fin)) :=
        chk5_of _ (fun x => readAt_leO d L hfin (Rect.unit (s := S80x1x128) (k0_off8 k j) S1x1x16.size (k0_off8_inb k j)).toLoadRect x)
      have hc6 : k0_chk6 (k0_pay8 (View.readAt (Elt F) (sI1).view (Rect.unit (s := S80x1x128) (k0_off8 k j) S1x1x16.size (k0_off8_inb k j)).toLoadRect fin)) :=
        chk6_of _ (fun x => readAt_leO d L hfin (Rect.unit (s := S80x1x128) (k0_off8 k j) S1x1x16.size (k0_off8_inb k j)).toLoadRect x)
      have hc7 : k0_chk7 (k0_pay9 (View.readAt (Elt F) (sI1).view (Rect.unit (s := S80x1x128) (k0_off8 k j) S1x1x16.size (k0_off8_inb k j)).toLoadRect fin)) :=
        chk7_of _ (fun x => readAt_leO d L hfin (Rect.unit (s := S80x1x128) (k0_off8 k j) S1x1x16.size (k0_off8_inb k j)).toLoadRect x)
      have hc8 : k0_chk8 (k0_pay10 (View.readAt (Elt F) (sI1).view (Rect.unit (s := S80x1x128) (k0_off8 k j) S1x1x16.size (k0_off8_inb k j)).toLoadRect fin)) :=
        chk8_of _ (fun x => readAt_leO d L hfin (Rect.unit (s := S80x1x128) (k0_off8 k j) S1x1x16.size (k0_off8_inb k j)).toLoadRect x)
      sl_exec
      sl_step
      isplitl [HT]; · iexact HT
      isplitl [HI]; · iexact HI
      iexists _
      isplitl [HO]; · iexact HO
      ipureintro
      exact strips4_step k.val j.val (t4_lt j) f (Gblk fin Tv) (k0_off9 k j) (k0_off10 k j) (k0_off11 k j) (k0_off12 k j)
        (k0_off9_eq k j) (k0_off10_eq k j) (k0_off11_eq k j) (k0_off12_eq k j) _ _ _ _ _ _ _ _
        (hwO Tv fin hfin k j 0 _ (fun _ => rfl) _) (hwO Tv fin hfin k j 1 _ (fun _ => rfl) _)
        (hwO Tv fin hfin k j 2 _ (fun _ => rfl) _) (hwO Tv fin hfin k j 3 _ (fun _ => rfl) _) hf
    · unfold IinO
      isplitl [HT]; · iexact HT
      isplitl [HI]; · iexact HI
      iexists f
      isplitl [HO]; · iexact HO
      ipureintro
      intro i hi
      exact hf i (by omega)
    · iintro %acc HI
      unfold IinO
      icases HI with ⟨HT, HI, %f', HO, %hf'⟩
      sl_exec
      sl_step
      isplitl [HT]; · iexact HT
      isplitl [HI]; · iexact HI
      iexists f'
      isplitl [HO]; · iexact HO
      ipureintro
      intro i hi
      have hT2 : Scf.trips k0_t4_loop.lb k0_t4_loop.ub k0_t4_loop.st = 8 := by decide
      have hi2 : (i 2).val < 128 := (i 2).isLt
      exact hf' i (by rw [hT2]; omega)
  · isplitl [HT HI HO]
    · unfold IinO
      isplitl [HT]; · iexact HT
      isplitl [HI]; · iexact HI
      iexists f0
      isplitl [HO]; · iexact HO
      ipureintro
      intro i hi
      omega
    · iintro %acc HI
      unfold IinO
      icases HI with ⟨HT, HI, %f, HO, %hf⟩
      isplitl [HT]; · iexact HT
      isplitl [HI]; · iexact HI
      have hT1 : Scf.trips k0_t3_loop.lb k0_t3_loop.ub k0_t3_loop.st = 80 := by decide
      have hfG : f = Gblk fin Tv := funext fun i => hf i (.inl (by rw [hT1]; exact (i 0).isLt))
      subst hfG
      iexact HO
end

end Cert.Proof.KB
end
-- ==== Proof.LoopsKB.lean ====
/-
  The kernel's ten blocks run one and the same pair of loops on two alternating pairs of buffers: the
  even blocks' loops are the first block's, the odd blocks' loops the second block's, word for word.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.Kernel
import proofs.«206284_g43061342110465_cont_8to1_b_1111_8_alg».proof.Proof.Gen.Kernel.Skeleton
import proofs.«206284_g43061342110465_cont_8to1_b_1111_8_alg».proof.Proof.ComputeKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable [FloatOps F]

section
variable (L : grid0.Coords) (v2 : BitVec 32)

set_option maxRecDepth 65536 in
theorem loop5_eq : Scf.Loop.for k0_t5_loop k0_t5_ok 0#32 (k0_t5_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl

set_option maxRecDepth 65536 in
theorem loop9_eq : Scf.Loop.for k0_t9_loop k0_t9_ok 0#32 (k0_t9_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl

set_option maxRecDepth 65536 in
theorem loop13_eq : Scf.Loop.for k0_t13_loop k0_t13_ok 0#32 (k0_t13_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl

set_option maxRecDepth 65536 in
theorem loop17_eq : Scf.Loop.for k0_t17_loop k0_t17_ok 0#32 (k0_t17_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t1_loop k0_t1_ok 0#32 (k0_t1_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) := rfl
set_option maxRecDepth 65536 in
theorem loop7_eq : Scf.Loop.for k0_t7_loop k0_t7_ok 0#32 (k0_t7_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl

set_option maxRecDepth 65536 in
theorem loop11_eq : Scf.Loop.for k0_t11_loop k0_t11_ok 0#32 (k0_t11_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl

set_option maxRecDepth 65536 in
theorem loop15_eq : Scf.Loop.for k0_t15_loop k0_t15_ok 0#32 (k0_t15_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl
set_option maxRecDepth 65536 in
theorem loop19_eq : Scf.Loop.for k0_t19_loop k0_t19_ok 0#32 (k0_t19_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9)
    = Scf.Loop.for k0_t3_loop k0_t3_ok 0#32 (k0_t3_body (F := F) L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9 v2) := rfl
end

end Cert.Proof.KB
end
-- ==== Proof.TileKB.lean ====
/-
  One vector subcore's task. The flat table is fetched whole into the tile's table scratch; then ten blocks
  of 80 panels go through two index scratches and two output scratches in turn: while block g is computed,
  block g + 1's index words are being fetched and block g − 1's output is being written back, each transfer
  on a semaphore of its own and waited for before its buffer is touched again. At the end each of the tile's
  ten output blocks holds, at (p, c, l), the table word at 4·x[p, 0, l] + c of the whole arrays, the
  arrays it only read are as they were, and every semaphore is back at zero.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.Kernel
import proofs.«206284_g43061342110465_cont_8to1_b_1111_8_alg».proof.Proof.Gen.Kernel.Skeleton
import proofs.«206284_g43061342110465_cont_8to1_b_1111_8_alg».proof.Proof.ComputeKB
import proofs.«206284_g43061342110465_cont_8to1_b_1111_8_alg».proof.Proof.LoopsKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev cell5 (d : Dev nD) (c : Fin τ.nSC) (i : Fin τ.nSub) : GSem nD τ sig := (V d c i, .dma cc0_scratch5.sem)
abbrev cell6 (d : Dev nD) (c : Fin τ.nSC) (i : Fin τ.nSub) : GSem nD τ sig := (V d c i, .dma cc0_scratch6.sem)
abbrev cell7 (d : Dev nD) (c : Fin τ.nSC) (i : Fin τ.nSub) : GSem nD τ sig := (V d c i, .dma cc0_scratch7.sem)
abbrev cell8 (d : Dev nD) (c : Fin τ.nSC) (i : Fin τ.nSub) : GSem nD τ sig := (V d c i, .dma cc0_scratch8.sem)
abbrev cell9 (d : Dev nD) (c : Fin τ.nSC) (i : Fin τ.nSub) : GSem nD τ sig := (V d c i, .dma cc0_scratch9.sem)

section Tile
variable (d : Dev nD) (L : grid0.Coords)

omit [FloatOps F] in
theorem ownSems0_V :
    (ownSems0 (V d (cV L) (jV L)) : sProp 𝕄)
      = iprop(semVal (cell5 d (cV L) (jV L)) 0 ∗ semVal (cell6 d (cV L) (jV L)) 0 ∗ semVal (cell7 d (cV L) (jV L)) 0 ∗ semVal (cell8 d (cV L) (jV L)) 0 ∗ semVal (cell9 d (cV L) (jV L)) 0
          ∗ bigSep ((((((ownCells (V d (cV L) (jV L))).erase (cell5 d (cV L) (jV L))).erase (cell6 d (cV L) (jV L))).erase (cell7 d (cV L) (jV L))).erase (cell8 d (cV L) (jV L))).erase (cell9 d (cV L) (jV L))) fun g => semVal g 0) := by
  unfold SparseCore.Cfg.ownSems0
  rw [SparseCore.bigSep_erase' ((mem_ownCells (g := cell5 d (cV L) (jV L))).mpr ⟨rfl, by show (SemLoc.dma cc0_scratch5.sem : SemLoc sig).isScoped .scVector = true; decide⟩),
    SparseCore.bigSep_erase' (Finset.mem_erase.mpr ⟨fun e => absurd (Prod.mk.inj e).2 (by decide), (mem_ownCells (g := cell6 d (cV L) (jV L))).mpr ⟨rfl, by show (SemLoc.dma cc0_scratch6.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := cell7 d (cV L) (jV L))).mpr ⟨rfl, by show (SemLoc.dma cc0_scratch7.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cell8 d (cV L) (jV L))).mpr ⟨rfl, by show (SemLoc.dma cc0_scratch8.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := cell9 d (cV L) (jV L))).mpr ⟨rfl, by show (SemLoc.dma cc0_scratch9.sem : SemLoc sig).isScoped .scVector = true; decide⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

end Tile

abbrev xLoc (d : Dev nD) : Loc nD τ sig := (SparseCore.T d).loc main_v2
abbrev tLoc (d : Dev nD) : Loc nD τ sig := (SparseCore.T d).loc main_v3
abbrev oLoc (d : Dev nD) : Loc nD τ sig := (SparseCore.T d).loc main_v4

/-- Block g of a tile's 800 output panels, as the kernel slices it. -/
abbrev oBlk (L : grid0.Coords) (g : Fin 10) : Memref sig .scVector .hbm S80x4x128 .f32 :=
  (oV).slice (Rect.unit (s := S25600x4x128) (k0_off7 L (BitVec.ofNat 32 (80 * g.val))) S80x4x128.size (k0_off7_inb L g)) (fun _ => rfl)
/-- Block g of a tile's 800 index panels (row 0 of each panel), as the kernel slices it. -/
abbrev xBlk (L : grid0.Coords) (g : Fin 10) : Memref sig .scVector .hbm S80x1x128 .i32 :=
  (xV).slice (Rect.unit (s := S25600x8x128) (k0_off1 L (BitVec.ofNat 32 (80 * g.val))) S80x1x128.size (k0_off1_inb L g)) (fun _ => rfl)

/-- The elements of block g of a tile's output panels, as a set of the output array's indices. -/
abbrev blkSet (L : grid0.Coords) (g : Fin 10) : Finset S25600x4x128.Idx := (oBlk L g).view.set

section Tile
variable (d : Dev nD) (L : grid0.Coords)

/-- What a tile is handed: read shares of the index array and of the flat table, and its ten output blocks. -/
def goRes (qx qt : PosShare TreeShare) (Xv : Buf (Elt F) (xLoc d)) (Tv0 : Buf (Elt F) (tLoc d)) (Ov : Buf (Elt F) (oLoc d)) : sProp 𝕄 :=
  iprop((xLoc d ↦{qx} Xv) ∗ (tLoc d ↦{qt} Tv0) ∗ bigSep (Finset.univ : Finset (Fin 10)) fun g => oLoc d ↦[blkSet L g]{fullShare} Ov)
/-- What it hands back: the same shares, and its ten output blocks holding the lookup. -/
def tdRes (qx qt : PosShare TreeShare) (Xv : Buf (Elt F) (xLoc d)) (Tv0 : Buf (Elt F) (tLoc d)) : sProp 𝕄 :=
  iprop((xLoc d ↦{qx} Xv) ∗ (tLoc d ↦{qt} Tv0) ∗ bigSep (Finset.univ : Finset (Fin 10)) fun g => oLoc d ↦[blkSet L g]{fullShare} Cert.KSpec.Gk Xv Tv0)

omit [FloatOps F] in
theorem pts_x (q : PosShare TreeShare) (f : Buf (Elt F) (xLoc d)) :
    ((xV).view.loc (V d (cV L) (jV L)) ↦{q} f : sProp 𝕄) = xLoc d ↦{q} f := by
  simp only [Memref.view_whole, View.set_whole]
omit [FloatOps F] in
theorem pts_t (q : PosShare TreeShare) (f : Buf (Elt F) (tLoc d)) :
    ((tV).view.loc (V d (cV L) (jV L)) ↦{q} f : sProp 𝕄) = tLoc d ↦{q} f := by
  simp only [Memref.view_whole, View.set_whole]
omit [FloatOps F] in
theorem pts_o (g : Fin 10) (f : Buf (Elt F) (oLoc d)) :
    ((oBlk L g).view.loc (V d (cV L) (jV L)) ↦[(oBlk L g).view.set]{fullShare} f : sProp 𝕄) = oLoc d ↦[blkSet L g]{fullShare} f := rfl
omit [FloatOps F] in
theorem pts_s (b : Ref sig .scVector) (f : Buf (Elt F) ((V d (cV L) (jV L)).loc b)) :
    ((Memref.whole b).view.loc (V d (cV L) (jV L)) ↦{fullShare} f : sProp 𝕄) = (V d (cV L) (jV L)).loc b ↦{fullShare} f := rfl

omit [FloatOps F] in
theorem waits_ok {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

omit [FloatOps F] in
theorem two_toks (Φ : Fin 2 → sProp 𝕄) : bigSep (Finset.univ : Finset (Fin 2)) Φ = iprop(Φ 0 ∗ Φ 1) := by
  rw [show (Finset.univ : Finset (Fin 2)) = {0, 1} from by decide, SparseCore.bigSep_insert' (by decide), bigSep_singleton]

omit [FloatOps F] in
theorem out_ten (Φ : Fin 10 → sProp 𝕄) :
    bigSep (Finset.univ : Finset (Fin 10)) Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem wp_at_loop {α β : Type} {P : sProp 𝕄} {p : Prog (TpuEff nD τ sig (Elt F) Λ₀ (V d (cV L) (jV L)).2) α}
    {k : α → Prog (TpuEff nD τ sig (Elt F) Λ₀ (V d (cV L) (jV L)).2) β} {Φ : α → sProp 𝕄} {Q : β → sProp 𝕄}
    (h : P ⊢ wp frame (wpE (defs₀ (F := F)) 𝒱₀ (V d (cV L) (jV L)) none) Set.univ p Φ) :
    P ⊢ iprop((∀ a, Φ a -∗ wp frame (wpE (defs₀ (F := F)) 𝒱₀ (V d (cV L) (jV L)) none) Set.univ (k a) Q)
      -∗ wp frame (wpE (defs₀ (F := F)) 𝒱₀ (V d (cV L) (jV L)) none) Set.univ (p >>= k) Q) := by
  rw [wp_bind]
  exact h.trans (wp_wand _ _ _)

omit [FloatOps F] in
theorem write_le0 (f0 w : S80x1x128.Idx → BitVec 32) (hw : ∀ i, (w i).toNat ≤ 6) :
    ∀ i, (View.write (Elt F) (sI0).view f0 w Finset.univ i).toNat ≤ 6 := by
  intro i
  have e : View.write (Elt F) (sI0).view f0 w Finset.univ = w := View.write_whole_univ _ _ _
  rw [e]; exact hw i
omit [FloatOps F] in
theorem write_le1 (f0 w : S80x1x128.Idx → BitVec 32) (hw : ∀ i, (w i).toNat ≤ 6) :
    ∀ i, (View.write (Elt F) (sI1).view f0 w Finset.univ i).toNat ≤ 6 := by
  intro i
  have e : View.write (Elt F) (sI1).view f0 w Finset.univ = w := View.write_whole_univ _ _ _
  rw [e]; exact hw i
omit [FloatOps F] in
theorem read_le {Xv : Buf (Elt F) (xLoc d)} (hX : ∀ i, (Xv i).toNat ≤ 6) (g : Fin 10) (x : S80x1x128.Idx) :
    ((xBlk L g).view.read (Elt F) Xv x).toNat ≤ 6 := by
  rw [View.read_apply, cast_eq]; exact hX _

omit [FloatOps F] in
theorem pts_name {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H
  iexists f
  isplitr
  · ipureintro; rfl
  · iexact H

theorem blk_value (g : Fin 10) (Xv : Buf (Elt F) (xLoc d)) (Tv0 : Buf (Elt F) (tLoc d)) (Ov : Buf (Elt F) (oLoc d)) :
    ∀ i ∈ (oBlk L g).view.set,
      ((oBlk L g).view.writes (Elt F) Ov [⟨Rect.whole S80x4x128, Gblk ((xBlk L g).view.read (Elt F) Xv) Tv0⟩]) i
        = Cert.KSpec.Gk Xv Tv0 i := by
  intro i hi
  obtain ⟨y, -, rfl⟩ := Finset.mem_map.mp hi
  rw [View.writes_singleton]
  have e1 : (((oBlk L g).view.slice (Rect.whole S80x4x128)).emb y) = (oBlk L g).view.emb y := by
    show (oBlk L g).view.emb ((Rect.whole S80x4x128).emb y) = _
    rw [Rect.emb_whole_apply]
  rw [← e1, View.write_emb_of_mem _ _ (Finset.mem_univ y), cast_eq, e1]
  obtain ⟨p, c, l, rfl⟩ : ∃ (p : Fin 80) (c : Fin 4) (l : Fin 128), y = ValueIdx.ix3 p c l := ⟨y 0, y 1, y 2, ValueIdx.eq_ix3 y⟩
  rw [Gblk_apply, View.read_apply, cast_eq]
  have h7 := k0_off7_eq L g
  have h1 := k0_off1_eq L g
  have hP : 1600 * (L 1).val + 800 * (L 0).val + 80 * g.val + p.val < 25600 := by
    have h0 : (L 0).val < 2 := (L 0).isLt
    have h1' : (L 1).val < 16 := (L 1).isLt
    have := g.isLt; have := p.isLt; omega
  have eo : (oBlk L g).view.emb (ValueIdx.ix3 p c l)
      = ValueIdx.ix3 (n0 := 25600) (n1 := 4) (n2 := 128) ⟨1600 * (L 1).val + 800 * (L 0).val + 80 * g.val + p.val, hP⟩ c l := by
    funext a
    apply Fin.ext
    match a with
    | 0 => show k0_off7 L (BitVec.ofNat 32 (80 * g.val)) 0 + 1 * p.val = _; rw [h7]; simp; rfl
    | 1 => show k0_off7 L (BitVec.ofNat 32 (80 * g.val)) 1 + 1 * c.val = _; rw [h7]; simp; rfl
    | 2 => show k0_off7 L (BitVec.ofNat 32 (80 * g.val)) 2 + 1 * l.val = _; rw [h7]; simp; rfl
  have ex : (xBlk L g).view.emb (ValueIdx.ix3 p 0 l)
      = ValueIdx.ix3 (n0 := 25600) (n1 := 8) (n2 := 128) ⟨1600 * (L 1).val + 800 * (L 0).val + 80 * g.val + p.val, hP⟩ 0 l := by
    funext a
    apply Fin.ext
    match a with
    | 0 => show k0_off1 L (BitVec.ofNat 32 (80 * g.val)) 0 + 1 * p.val = _; rw [h1]; simp; rfl
    | 1 => show k0_off1 L (BitVec.ofNat 32 (80 * g.val)) 1 + 1 * 0 = _; rw [h1]; simp; rfl
    | 2 => show k0_off1 L (BitVec.ofNat 32 (80 * g.val)) 2 + 1 * l.val = _; rw [h1]; simp; rfl
  rw [eo, ex, Cert.KSpec.Gk_apply]

set_option maxHeartbeats 40000000 in
set_option maxRecDepth 65536 in
theorem tile_body (hF : (K (F := F)).Facts) (O : CellTallies nD τ sig (HIx 1)) (W : Waits sig (HIx 1)) (hO : ∀ g, O g none = 0)
    (qx qt : PosShare TreeShare)
    (Xv : Buf (Elt F) (xLoc d)) (hX : ∀ i, (Xv i).toNat ≤ 6) (Tv0 : Buf (Elt F) (tLoc d)) (Ov : Buf (Elt F) (oLoc d)) :
    iprop(levAts (K (F := F)).L (K (F := F)).lev ∗ emp ∗ goRes d L qx qt Xv Tv0 Ov
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_emb L xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9)
          fun _ => iprop(tdRes d L qx qt Xv Tv0 ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_emb_eq_skeleton]; unfold cc0_emb_skel
  rw [k0_part11_eq_skeleton, k0_part12_eq_skeleton, k0_part13_eq_skeleton, k0_part14_eq_skeleton, k0_part15_eq_skeleton, k0_part16_eq_skeleton]
  unfold k0_part11_skel k0_part12_skel k0_part13_skel k0_part14_skel k0_part15_skel k0_part16_skel
  rw [(K (F := F)).scopedBufs_V hF d (cV L) (jV L), SparseCore.Cfg.scopedSems0_V (Val := Elt F) d (cV L) (jV L), ownSems0_V, ownBufs_V]
  unfold goRes tdRes
  rw [out_ten, out_ten]
  iintro ⟨#Hlv, -, ⟨Hx, Ht, Ho0, Ho1, Ho2, Ho3, Ho4, Ho5, Ho6, Ho7, Ho8, Ho9⟩, ⟨⟨%fT, HT⟩, ⟨%fI0, HI0⟩, ⟨%fI1, HI1⟩, ⟨%fO0, HO0⟩, ⟨%fO1, HO1⟩, Hbufs⟩, ⟨Hs5, Hs6, Hs7, Hs8, Hs9, Hsems⟩, HO⟩
  ihave Hmw := ((K (F := F)).mayWaits_none (thr := (V d (cV L) (jV L))) hO) $$ Hlv
  -- the index array's share as two read tokens (two fetches are in flight at once) and a remainder
  ihave Hx' := (Transfers.pointsTo_toks_split qx 2) $$ Hx
  icases Hx' with ⟨Hxd, Hxt⟩
  ihave Hxt := (Entails.of_eq (two_toks (F := F) _)) $$ Hxt
  icases Hxt with ⟨Hx0, Hx1⟩
  ihave Hx0 := (Entails.of_eq (pts_x (F := F) d L _ _).symm) $$ Hx0
  ihave Hx1 := (Entails.of_eq (pts_x (F := F) d L _ _).symm) $$ Hx1
  ihave Ht := (Entails.of_eq (pts_t (F := F) d L _ _).symm) $$ Ht
  ihave Ho0 := (Entails.of_eq (pts_o (F := F) d L 0 _).symm) $$ Ho0
  ihave Ho1 := (Entails.of_eq (pts_o (F := F) d L 1 _).symm) $$ Ho1
  ihave Ho2 := (Entails.of_eq (pts_o (F := F) d L 2 _).symm) $$ Ho2
  ihave Ho3 := (Entails.of_eq (pts_o (F := F) d L 3 _).symm) $$ Ho3
  ihave Ho4 := (Entails.of_eq (pts_o (F := F) d L 4 _).symm) $$ Ho4
  ihave Ho5 := (Entails.of_eq (pts_o (F := F) d L 5 _).symm) $$ Ho5
  ihave Ho6 := (Entails.of_eq (pts_o (F := F) d L 6 _).symm) $$ Ho6
  ihave Ho7 := (Entails.of_eq (pts_o (F := F) d L 7 _).symm) $$ Ho7
  ihave Ho8 := (Entails.of_eq (pts_o (F := F) d L 8 _).symm) $$ Ho8
  ihave Ho9 := (Entails.of_eq (pts_o (F := F) d L 9 _).symm) $$ Ho9
  ihave HT := (Entails.of_eq (pts_s (F := F) d L cc0_scratch0 _).symm) $$ HT
  ihave HI0 := (Entails.of_eq (pts_s (F := F) d L cc0_scratch1 _).symm) $$ HI0
  ihave HI1 := (Entails.of_eq (pts_s (F := F) d L cc0_scratch2 _).symm) $$ HI1
  ihave HO0 := (Entails.of_eq (pts_s (F := F) d L cc0_scratch3 _).symm) $$ HO0
  ihave HO1 := (Entails.of_eq (pts_s (F := F) d L cc0_scratch4 _).symm) $$ HO1
  sl_exec
  ihave HT' := (pts_name _) $$ HT
  icases HT' with ⟨%Tv, %hTv, HT⟩
  -- block 0
  iterate 3 (try rw [bind_assoc])
  ihave HI' := (pts_name _) $$ HI0
  icases HI' with ⟨%fin0, %hfin0, HI0⟩
  ihave HO' := (pts_name _) $$ HO0
  icases HO' with ⟨%fo0, -, HO0⟩
  have hle0 : ∀ i, (fin0 i).toNat ≤ 6 := by
    intro i
    rw [hfin0]
    exact write_le0 (F := F) _ _ (fun x => read_le d L hX 0 x) i
  iapply (wp_at_loop d L (compute_even d L Tv fin0 hle0 fo0)) $$ [HT HI0 HO0]
  · isplitl [HT]; · iexact HT
    isplitl [HI0]; · iexact HI0
    iexact HO0
  iintro %r0 ⟨HT, HI0, HO0⟩
  sl_exec
  -- block 1
  iterate 3 (try rw [bind_assoc])
  ihave HI' := (pts_name _) $$ HI1
  icases HI' with ⟨%fin1, %hfin1, HI1⟩
  ihave HO' := (pts_name _) $$ HO1
  icases HO' with ⟨%fo1, -, HO1⟩
  have hle1 : ∀ i, (fin1 i).toNat ≤ 6 := by
    intro i
    rw [hfin1]
    exact write_le1 (F := F) _ _ (fun x => read_le d L hX 1 x) i
  iapply (wp_at_loop d L (compute_odd d L Tv fin1 hle1 fo1 _)) $$ [HT HI1 HO1]
  · isplitl [HT]; · iexact HT
    isplitl [HI1]; · iexact HI1
    iexact HO1
  iintro %r1 ⟨HT, HI1, HO1⟩
  sl_exec
  -- block 2
  iterate 3 (try rw [bind_assoc])
  rw [loop5_eq L _]
  ihave HI' := (pts_name _) $$ HI0
  icases HI' with ⟨%fin2, %hfin2, HI0⟩
  ihave HO' := (pts_name _) $$ HO0
  icases HO' with ⟨%fo2, -, HO0⟩
  have hle2 : ∀ i, (fin2 i).toNat ≤ 6 := by
    intro i
    rw [hfin2]
    exact write_le0 (F := F) _ _ (fun x => read_le d L hX 2 x) i
  iapply (wp_at_loop d L (compute_even d L Tv fin2 hle2 fo2)) $$ [HT HI0 HO0]
  · isplitl [HT]; · iexact HT
    isplitl [HI0]; · iexact HI0
    iexact HO0
  iintro %r2 ⟨HT, HI0, HO0⟩
  sl_exec
  -- block 3
  iterate 3 (try rw [bind_assoc])
  rw [loop7_eq L _]
  ihave HI' := (pts_name _) $$ HI1
  icases HI' with ⟨%fin3, %hfin3, HI1⟩
  ihave HO' := (pts_name _) $$ HO1
  icases HO' with ⟨%fo3, -, HO1⟩
  have hle3 : ∀ i, (fin3 i).toNat ≤ 6 := by
    intro i
    rw [hfin3]
    exact write_le1 (F := F) _ _ (fun x => read_le d L hX 3 x) i
  iapply (wp_at_loop d L (compute_odd d L Tv fin3 hle3 fo3 _)) $$ [HT HI1 HO1]
  · isplitl [HT]; · iexact HT
    isplitl [HI1]; · iexact HI1
    iexact HO1
  iintro %r3 ⟨HT, HI1, HO1⟩
  sl_exec
  -- block 4
  iterate 3 (try rw [bind_assoc])
  rw [loop9_eq L _]
  ihave HI' := (pts_name _) $$ HI0
  icases HI' with ⟨%fin4, %hfin4, HI0⟩
  ihave HO' := (pts_name _) $$ HO0
  icases HO' with ⟨%fo4, -, HO0⟩
  have hle4 : ∀ i, (fin4 i).toNat ≤ 6 := by
    intro i
    rw [hfin4]
    exact write_le0 (F := F) _ _ (fun x => read_le d L hX 4 x) i
  iapply (wp_at_loop d L (compute_even d L Tv fin4 hle4 fo4)) $$ [HT HI0 HO0]
  · isplitl [HT]; · iexact HT
    isplitl [HI0]; · iexact HI0
    iexact HO0
  iintro %r4 ⟨HT, HI0, HO0⟩
  sl_exec
  -- block 5
  iterate 3 (try rw [bind_assoc])
  rw [loop11_eq L _]
  ihave HI' := (pts_name _) $$ HI1
  icases HI' with ⟨%fin5, %hfin5, HI1⟩
  ihave HO' := (pts_name _) $$ HO1
  icases HO' with ⟨%fo5, -, HO1⟩
  have hle5 : ∀ i, (fin5 i).toNat ≤ 6 := by
    intro i
    rw [hfin5]
    exact write_le1 (F := F) _ _ (fun x => read_le d L hX 5 x) i
  iapply (wp_at_loop d L (compute_odd d L Tv fin5 hle5 fo5 _)) $$ [HT HI1 HO1]
  · isplitl [HT]; · iexact HT
    isplitl [HI1]; · iexact HI1
    iexact HO1
  iintro %r5 ⟨HT, HI1, HO1⟩
  sl_exec
  -- block 6
  iterate 3 (try rw [bind_assoc])
  rw [loop13_eq L _]
  ihave HI' := (pts_name _) $$ HI0
  icases HI' with ⟨%fin6, %hfin6, HI0⟩
  ihave HO' := (pts_name _) $$ HO0
  icases HO' with ⟨%fo6, -, HO0⟩
  have hle6 : ∀ i, (fin6 i).toNat ≤ 6 := by
    intro i
    rw [hfin6]
    exact write_le0 (F := F) _ _ (fun x => read_le d L hX 6 x) i
  iapply (wp_at_loop d L (compute_even d L Tv fin6 hle6 fo6)) $$ [HT HI0 HO0]
  · isplitl [HT]; · iexact HT
    isplitl [HI0]; · iexact HI0
    iexact HO0
  iintro %r6 ⟨HT, HI0, HO0⟩
  sl_exec
  -- block 7
  iterate 3 (try rw [bind_assoc])
  rw [loop15_eq L _]
  ihave HI' := (pts_name _) $$ HI1
  icases HI' with ⟨%fin7, %hfin7, HI1⟩
  ihave HO' := (pts_name _) $$ HO1
  icases HO' with ⟨%fo7, -, HO1⟩
  have hle7 : ∀ i, (fin7 i).toNat ≤ 6 := by
    intro i
    rw [hfin7]
    exact write_le1 (F := F) _ _ (fun x => read_le d L hX 7 x) i
  iapply (wp_at_loop d L (compute_odd d L Tv fin7 hle7 fo7 _)) $$ [HT HI1 HO1]
  · isplitl [HT]; · iexact HT
    isplitl [HI1]; · iexact HI1
    iexact HO1
  iintro %r7 ⟨HT, HI1, HO1⟩
  sl_exec
  -- block 8
  iterate 3 (try rw [bind_assoc])
  rw [loop17_eq L _]
  ihave HI' := (pts_name _) $$ HI0
  icases HI' with ⟨%fin8, %hfin8, HI0⟩
  ihave HO' := (pts_name _) $$ HO0
  icases HO' with ⟨%fo8, -, HO0⟩
  have hle8 : ∀ i, (fin8 i).toNat ≤ 6 := by
    intro i
    rw [hfin8]
    exact write_le0 (F := F) _ _ (fun x => read_le d L hX 8 x) i
  iapply (wp_at_loop d L (compute_even d L Tv fin8 hle8 fo8)) $$ [HT HI0 HO0]
  · isplitl [HT]; · iexact HT
    isplitl [HI0]; · iexact HI0
    iexact HO0
  iintro %r8 ⟨HT, HI0, HO0⟩
  sl_exec
  -- block 9
  iterate 3 (try rw [bind_assoc])
  rw [loop19_eq L 0#32]
  ihave HI' := (pts_name _) $$ HI1
  icases HI' with ⟨%fin9, %hfin9, HI1⟩
  ihave HO' := (pts_name _) $$ HO1
  icases HO' with ⟨%fo9, -, HO1⟩
  have hle9 : ∀ i, (fin9 i).toNat ≤ 6 := by
    intro i
    rw [hfin9]
    exact write_le1 (F := F) _ _ (fun x => read_le d L hX 9 x) i
  iapply (wp_at_loop d L (compute_odd d L Tv fin9 hle9 fo9 _)) $$ [HT HI1 HO1]
  · isplitl [HT]; · iexact HT
    isplitl [HI1]; · iexact HI1
    iexact HO1
  iintro %r9 ⟨HT, HI1, HO1⟩
  sl_exec
  -- the values: the table scratch is the table, each block's index scratch its window of the index array
  have hTvE : Tv = Tv0 := hTv.trans (View.write_whole_univ _ _ _)
  have hfinE0 : fin0 = (xBlk L 0).view.read (Elt F) Xv := hfin0.trans (View.write_whole_univ _ _ _)
  have hfinE1 : fin1 = (xBlk L 1).view.read (Elt F) Xv := hfin1.trans (View.write_whole_univ _ _ _)
  have hfinE2 : fin2 = (xBlk L 2).view.read (Elt F) Xv := hfin2.trans (View.write_whole_univ _ _ _)
  have hfinE3 : fin3 = (xBlk L 3).view.read (Elt F) Xv := hfin3.trans (View.write_whole_univ _ _ _)
  have hfinE4 : fin4 = (xBlk L 4).view.read (Elt F) Xv := hfin4.trans (View.write_whole_univ _ _ _)
  have hfinE5 : fin5 = (xBlk L 5).view.read (Elt F) Xv := hfin5.trans (View.write_whole_univ _ _ _)
  have hfinE6 : fin6 = (xBlk L 6).view.read (Elt F) Xv := hfin6.trans (View.write_whole_univ _ _ _)
  have hfinE7 : fin7 = (xBlk L 7).view.read (Elt F) Xv := hfin7.trans (View.write_whole_univ _ _ _)
  have hfinE8 : fin8 = (xBlk L 8).view.read (Elt F) Xv := hfin8.trans (View.write_whole_univ _ _ _)
  have hfinE9 : fin9 = (xBlk L 9).view.read (Elt F) Xv := hfin9.trans (View.write_whole_univ _ _ _)
  subst hTvE
  subst hfinE0
  subst hfinE1
  subst hfinE2
  subst hfinE3
  subst hfinE4
  subst hfinE5
  subst hfinE6
  subst hfinE7
  subst hfinE8
  subst hfinE9
  sl_step
  -- the shares and the ten blocks
  isplitl [Hxd Hx0 Hx1 Ht Ho0 Ho1 Ho2 Ho3 Ho4 Ho5 Ho6 Ho7 Ho8 Ho9]
  · isplitl [Hxd Hx0 Hx1]
    · iapply (Transfers.pointsTo_toks_join qx 2)
      isplitl [Hxd]; · iexact Hxd
      iapply (Entails.of_eq (two_toks (F := F) _).symm)
      isplitl [Hx0]
      · iapply (Entails.of_eq (pts_x (F := F) d L _ _)); iexact Hx0
      · iapply (Entails.of_eq (pts_x (F := F) d L _ _)); iexact Hx1
    isplitl [Ht]
    · iapply (Entails.of_eq (pts_t (F := F) d L _ _)); iexact Ht
    isplitl [Ho0]
    · iapply (Entails.of_eq ((pointsTo_congr (blk_value d L 0 Xv Tv _)).trans (pts_o (F := F) d L 0 _))); iexact Ho0
    isplitl [Ho1]
    · iapply (Entails.of_eq ((pointsTo_congr (blk_value d L 1 Xv Tv _)).trans (pts_o (F := F) d L 1 _))); iexact Ho1
    isplitl [Ho2]
    · iapply (Entails.of_eq ((pointsTo_congr (blk_value d L 2 Xv Tv _)).trans (pts_o (F := F) d L 2 _))); iexact Ho2
    isplitl [Ho3]
    · iapply (Entails.of_eq ((pointsTo_congr (blk_value d L 3 Xv Tv _)).trans (pts_o (F := F) d L 3 _))); iexact Ho3
    isplitl [Ho4]
    · iapply (Entails.of_eq ((pointsTo_congr (blk_value d L 4 Xv Tv _)).trans (pts_o (F := F) d L 4 _))); iexact Ho4
    isplitl [Ho5]
    · iapply (Entails.of_eq ((pointsTo_congr (blk_value d L 5 Xv Tv _)).trans (pts_o (F := F) d L 5 _))); iexact Ho5
    isplitl [Ho6]
    · iapply (Entails.of_eq ((pointsTo_congr (blk_value d L 6 Xv Tv _)).trans (pts_o (F := F) d L 6 _))); iexact Ho6
    isplitl [Ho7]
    · iapply (Entails.of_eq ((pointsTo_congr (blk_value d L 7 Xv Tv _)).trans (pts_o (F := F) d L 7 _))); iexact Ho7
    isplitl [Ho8]
    · iapply (Entails.of_eq ((pointsTo_congr (blk_value d L 8 Xv Tv _)).trans (pts_o (F := F) d L 8 _))); iexact Ho8
    · iapply (Entails.of_eq ((pointsTo_congr (blk_value d L 9 Xv Tv _)).trans (pts_o (F := F) d L 9 _))); iexact Ho9
  isplitl [HT HI0 HI1 HO0 HO1 Hbufs]
  · isplitl [HT]; · iexists _; iapply (Entails.of_eq (pts_s (F := F) d L cc0_scratch0 _)); iexact HT
    isplitl [HI0]; · iexists _; iapply (Entails.of_eq (pts_s (F := F) d L cc0_scratch1 _)); iexact HI0
    isplitl [HI1]; · iexists _; iapply (Entails.of_eq (pts_s (F := F) d L cc0_scratch2 _)); iexact HI1
    isplitl [HO0]; · iexists _; iapply (Entails.of_eq (pts_s (F := F) d L cc0_scratch3 _)); iexact HO0
    isplitl [HO1]; · iexists _; iapply (Entails.of_eq (pts_s (F := F) d L cc0_scratch4 _)); iexact HO1
    iexact Hbufs
  isplitl [Hs5 Hs6 Hs7 Hs8 Hs9 Hsems]
  · isplitl [Hs5]; · iexact Hs5
    isplitl [Hs6]; · iexact Hs6
    isplitl [Hs7]; · iexact Hs7
    isplitl [Hs8]; · iexact Hs8
    isplitl [Hs9]; · iexact Hs9
    iexact Hsems
  iexists _
  isplitr
  swap
  · iexact HO
  · ipureintro
    repeat (first | exact fun p hp => .inl hp | refine waits_ok _ ?_)
end Tile

end Cert.Proof.KB
end
-- ==== Proof.LaunchKB.lean ====
/-
  The whole program. On the TensorCore the index array is re-laid as 25600 panels of 8 rows of 128 lanes and the
  table flattened; the SparseCore call hands every one of the 32 vector subcores a read share of both and its ten
  blocks of the output array (320 blocks of 80 panels, which partition it), and takes them back holding the
  lookup; the output array is then re-laid into the result. Every weakly fair execution terminates, the result
  is the lookup specification of the two arguments, and the arguments are unchanged.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206284_g43061342110465_cont_8to1_b_1111_8_alg».proof.Proof.Gen.Kernel
import proofs.«206284_g43061342110465_cont_8to1_b_1111_8_alg».proof.Proof.Gen.Kernel.Skeleton
import proofs.«206284_g43061342110465_cont_8to1_b_1111_8_alg».proof.Proof.TileKB
import proofs.«206284_g43061342110465_cont_8to1_b_1111_8_alg».proof.Proof.HostValue
import proofs.«206284_g43061342110465_cont_8to1_b_1111_8_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

abbrev op0 : HloOp τ sig (Elt F) := StableHlo.reshape main_arg0 main_v0 rfl shapeCasts_S16384x200x8_S128x128x200x8
abbrev op1 : HloOp τ sig (Elt F) := StableHlo.unary main_v0 main_v1 ((transpose S200x128x8x128 [2, 0, 3, 1] · transposes_S128x128x200x8_S200x128x8x128_2_0_3_1) : (⟨S128x128x200x8, .i32⟩ : BufTy).Contents (Elt F) → (⟨S200x128x8x128, .i32⟩ : BufTy).Contents (Elt F))
abbrev op2 : HloOp τ sig (Elt F) := StableHlo.reshape main_v1 main_v2 rfl shapeCasts_S200x128x8x128_S25600x8x128
abbrev op3 : HloOp τ sig (Elt F) := StableHlo.reshape main_arg1 main_v3 rfl shapeCasts_S7x4_S28
abbrev op5 : HloOp τ sig (Elt F) := StableHlo.reshape main_v4 main_v5 rfl shapeCasts_S25600x4x128_S200x128x4x128
abbrev op6 : HloOp τ sig (Elt F) := StableHlo.unary main_v5 main_v6 ((transpose S128x128x200x4 [1, 3, 0, 2] · transposes_S200x128x4x128_S128x128x200x4_1_3_0_2) : (⟨S200x128x4x128, .f32⟩ : BufTy).Contents (Elt F) → (⟨S128x128x200x4, .f32⟩ : BufTy).Contents (Elt F))
abbrev op7 : HloOp τ sig (Elt F) := StableHlo.reshape main_v6 main_v7 rfl shapeCasts_S128x128x200x4_S16384x200x4

abbrev pre : List (HloOp τ sig (Elt F)) := [op0, op1, op2, op3]
abbrev post : List (HloOp τ sig (Elt F)) := [op5, op6, op7]

/-- The launch contents; the contents when the call is made; the arrays the kernel is given. -/
def V0 (d : Dev nD) : Valuation τ sig (Elt F) := fun b => m (d, b)
def V4 (d : Dev nD) : Valuation τ sig (Elt F) := StableHlo.after (pre (F := F)) (V0 m d)
abbrev Xv (d : Dev nD) : Buf (Elt F) (xLoc d) := V4 m d v2'
abbrev Tv0 (d : Dev nD) : Buf (Elt F) (tLoc d) := V4 m d v3'
abbrev Ov (d : Dev nD) : Buf (Elt F) (oLoc d) := V4 m d v4'
/-- The contents after the call: the kernel's output array holds the lookup of what it was given. -/
def V5 (d : Dev nD) : Valuation τ sig (Elt F) := Function.update (V4 m d) v4' (Cert.KSpec.Gk (Xv m d) (Tv0 m d))
def V8 (d : Dev nD) : Valuation τ sig (Elt F) := StableHlo.after (post (F := F)) (V5 m d)

def coordsV (c : Fin (grid0.bound 0)) (s : Fin (grid0.bound 1)) : grid0.Coords :=
  fun | 0 => c | 1 => s | ⟨_ + 2, h⟩ => absurd h (Nat.not_lt.2 (Nat.le_add_left _ _))

/-- Tile (c, s)'s read share of an array held whole: token s of token c. -/
abbrev qT (c s : Nat) : PosShare TreeShare := Transfers.shareTokN (Transfers.shareTokN fullShare c) s

/-- The call hands SparseCore c the sixteen tiles' parts and takes them back. -/
def P : (K (F := F)).Pay (nD := nD) (Val := Elt F) (Name := ℕ) (U := UU) where
  st := fun q d c => match q with
    | 0 => bigSep Finset.univ fun i : Fin ((K (F := F)).nSub 0) => goRes d (coordsV ⟨c.val, c.isLt⟩ ⟨i.val, i.isLt⟩) (qT c.val i.val) (qT c.val i.val) (Xv m d) (Tv0 m d) (Ov m d)
  dn := fun q d c => match q with
    | 0 => bigSep Finset.univ fun i : Fin ((K (F := F)).nSub 0) => tdRes d (coordsV ⟨c.val, c.isLt⟩ ⟨i.val, i.isLt⟩) (qT c.val i.val) (qT c.val i.val) (Xv m d) (Tv0 m d)
  go := fun q d c i => match q with
    | 0 => goRes d (coordsV ⟨c.val, c.isLt⟩ ⟨i.val, i.isLt⟩) (qT c.val i.val) (qT c.val i.val) (Xv m d) (Tv0 m d) (Ov m d)
  td := fun q d c i => match q with
    | 0 => tdRes d (coordsV ⟨c.val, c.isLt⟩ ⟨i.val, i.isLt⟩) (qT c.val i.val) (qT c.val i.val) (Xv m d) (Tv0 m d)
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

/-! ## The obligations -/

theorem defs₀_vector (c : Fin τ.nSC) (s : Fin τ.nSub) :
    defs₀ (F := F) (.scVector c s) 0 ()
      = SparseCore.onTile hcore0 hsub0 (fun c s => cc0_emb (coordsV c s) xV (Memref.isWhole_whole _) tV (Memref.isWhole_whole _) oV (Memref.isWhole_whole _) sT (Memref.isWhole_whole _) sI0 (Memref.isWhole_whole _) sI1 (Memref.isWhole_whole _) sO0 (Memref.isWhole_whole _) sO1 (Memref.isWhole_whole _) cc0_scratch5 cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hX : ∀ d i, (Xv m d i).toNat ≤ 6) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (qT c.val i.val) (qT c.val i.val) (Xv m d) (hX d) (Tv0 m d) (Ov m d)).trans (wp_mono frame _ _ fun _ => obl_post)

theorem vecSplit : (K (F := F)).VecSplit' (P m) 0 := by
  intro d c
  show (P m).st 0 d c ⊢ |={Set.univ}=> iprop((bigSep Finset.univ fun i : Fin ((K (F := F)).nSub 0) => (P m).go 0 d c i)
    ∗ ((bigSep Finset.univ fun i : Fin ((K (F := F)).nSub 0) => (P m).td 0 d c i) -∗ (P m).dn 0 d c))
  unfold P; dsimp only
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The output array's 320 blocks partition it -/

omit [FloatOps F] in
theorem mem_blkSet (c : Fin (grid0.bound 0)) (s : Fin (grid0.bound 1)) (g : Fin 10) (i : S25600x4x128.Idx) :
    i ∈ blkSet (coordsV c s) g ↔ (i 0).val / 80 = 20 * s.val + 10 * c.val + g.val := by
  show i ∈ ((View.whole (main_v4_scv : Ref sig .scVector)).slice (Rect.unit (s := S25600x4x128) (k0_off7 (coordsV c s) (BitVec.ofNat 32 (80 * g.val))) S80x4x128.size (k0_off7_inb (coordsV c s) g))).set ↔ _
  rw [View.set_slice_whole, Rect.mem_set_unit, k0_off7_eq (coordsV c s) g]
  have h1 : (i 1).val < 4 := (i 1).isLt
  have h2 : (i 2).val < 128 := (i 2).isLt
  have hc0 : (coordsV c s 0).val = c.val := rfl
  have hc1 : (coordsV c s 1).val = s.val := rfl
  constructor
  · intro h
    have h0 := h 0
    simp only [Matrix.cons_val_zero] at h0
    omega
  · intro h a
    match a with
    | 0 =>
      show ![1600 * (coordsV c s 1).val + 800 * (coordsV c s 0).val + 80 * g.val, 0, 0] 0 ≤ (i 0).val ∧ (i 0).val < ![1600 * (coordsV c s 1).val + 800 * (coordsV c s 0).val + 80 * g.val, 0, 0] 0 + 80
      simp only [Matrix.cons_val_zero]
      rw [hc0, hc1]; omega
    | 1 => show 0 ≤ (i 1).val ∧ (i 1).val < 0 + 4; omega
    | 2 => show 0 ≤ (i 2).val ∧ (i 2).val < 0 + 128; omega

abbrev BlkIx : Type := Fin (grid0.bound 0) × Fin (grid0.bound 1) × Fin 10
abbrev blkOf (t : BlkIx) : Finset S25600x4x128.Idx := blkSet (coordsV t.1 t.2.1) t.2.2

omit [FloatOps F] in
theorem blk_disjoint : ∀ t ∈ (Finset.univ : Finset BlkIx), ∀ t' ∈ (Finset.univ : Finset BlkIx), t ≠ t' → Disjoint (blkOf t) (blkOf t') := by
  rintro ⟨c, s, g⟩ - ⟨c', s', g'⟩ - hne
  refine Finset.disjoint_left.mpr fun i h1 h2 => hne ?_
  rw [mem_blkSet] at h1 h2
  have hc : c.val < 2 := c.isLt
  have hc' : c'.val < 2 := c'.isLt
  have hs : s.val < 16 := s.isLt
  have hs' : s'.val < 16 := s'.isLt
  have hg := g.isLt
  have hg' := g'.isLt
  have e : 20 * s.val + 10 * c.val + g.val = 20 * s'.val + 10 * c'.val + g'.val := h1.symm.trans h2
  have e1 : s.val = s'.val := by omega
  have e2 : c.val = c'.val := by omega
  have e3 : g.val = g'.val := by omega
  exact Prod.ext (Fin.ext e2) (Prod.ext (Fin.ext e1) (Fin.ext e3))

omit [FloatOps F] in
theorem blk_cover : (Finset.univ : Finset BlkIx).biUnion blkOf = Finset.univ := by
  ext i
  simp only [Finset.mem_biUnion, Finset.mem_univ, true_and, iff_true]
  have h0 : (i 0).val < 25600 := (i 0).isLt
  refine ⟨(⟨((i 0).val / 80 % 20) / 10, by show _ < 2; omega⟩, ⟨(i 0).val / 80 / 20, by show _ < 16; omega⟩, ⟨(i 0).val / 80 % 10, by omega⟩), ?_⟩
  rw [mem_blkSet]
  show (i 0).val / 80 = 20 * ((i 0).val / 80 / 20) + 10 * (((i 0).val / 80 % 20) / 10) + (i 0).val / 80 % 10
  omega

omit [FloatOps F] in
/-- The output array whole is its 320 blocks. -/
theorem oPts_blocks (d : Dev nD) (f : Buf (Elt F) (oLoc d)) :
    (oLoc d ↦{fullShare} f : sProp 𝕄)
      = bigSep Finset.univ fun c : Fin (grid0.bound 0) => bigSep Finset.univ fun s : Fin (grid0.bound 1) =>
          bigSep Finset.univ fun g : Fin 10 => oLoc d ↦[blkSet (coordsV c s) g]{fullShare} f := by
  have h : (oLoc d ↦[(Finset.univ : Finset BlkIx).biUnion blkOf]{fullShare} f : sProp 𝕄) = _ := pointsTo_biUnion (Finset.univ : Finset BlkIx) (ℓ := oLoc d) (q := fullShare) (f := f) blkOf blk_disjoint
  rw [blk_cover] at h
  refine h.trans ?_
  rw [bigSep_univ_prod (fun t : BlkIx => (oLoc d ↦[blkOf t]{fullShare} f : sProp 𝕄))]
  exact bigSep_congr fun c _ => bigSep_univ_prod (fun t : Fin (grid0.bound 1) × Fin 10 => (oLoc d ↦[blkSet (coordsV c t.1) t.2]{fullShare} f : sProp 𝕄))

/-! ## Read shares for the thirty-two tiles -/

/-- An array's thirty-two tile shares, and what is left of the whole beside them. -/
def toks32 (ℓ : Loc nD τ sig) (f : Buf (Elt F) ℓ) : sProp 𝕄 :=
  bigSep Finset.univ fun c : Fin (grid0.bound 0) => bigSep Finset.univ fun s : Fin (grid0.bound 1) => ℓ ↦{qT c.val s.val} f
def drops (ℓ : Loc nD τ sig) (f : Buf (Elt F) ℓ) : sProp 𝕄 :=
  iprop((ℓ ↦{Transfers.shareDrop fullShare 2} f) ∗ bigSep Finset.univ fun c : Fin (grid0.bound 0) => ℓ ↦{Transfers.shareDrop (Transfers.shareTokN fullShare c.val) 16} f)

omit [FloatOps F] in
theorem toks16_split (ℓ : Loc nD τ sig) (f : Buf (Elt F) ℓ) :
    (bigSep Finset.univ fun c : Fin (grid0.bound 0) => (ℓ ↦{Transfers.shareTokN fullShare c.val} f : sProp 𝕄))
      ⊢ bigSep Finset.univ fun c : Fin (grid0.bound 0) => iprop((ℓ ↦{Transfers.shareDrop (Transfers.shareTokN fullShare c.val) 16} f)
          ∗ bigSep Finset.univ fun s : Fin (grid0.bound 1) => ℓ ↦{qT c.val s.val} f) :=
  bigSep_mono fun c _ => Transfers.pointsTo_toks_split (Transfers.shareTokN fullShare c.val) 16
omit [FloatOps F] in
theorem toks16_join (ℓ : Loc nD τ sig) (f : Buf (Elt F) ℓ) :
    (bigSep Finset.univ fun c : Fin (grid0.bound 0) => iprop((ℓ ↦{Transfers.shareDrop (Transfers.shareTokN fullShare c.val) 16} f)
          ∗ bigSep Finset.univ fun s : Fin (grid0.bound 1) => ℓ ↦{qT c.val s.val} f))
      ⊢ bigSep Finset.univ fun c : Fin (grid0.bound 0) => (ℓ ↦{Transfers.shareTokN fullShare c.val} f : sProp 𝕄) :=
  bigSep_mono fun c _ => Transfers.pointsTo_toks_join (Transfers.shareTokN fullShare c.val) 16

omit [FloatOps F] in
theorem toks_split (ℓ : Loc nD τ sig) (f : Buf (Elt F) ℓ) : (ℓ ↦{fullShare} f : sProp 𝕄) ⊢ iprop(drops ℓ f ∗ toks32 ℓ f) := by
  unfold drops toks32
  iintro H
  ihave H := (Transfers.pointsTo_toks_split fullShare 2) $$ H
  icases H with ⟨Hd, Hc⟩
  ihave Hc := (Entails.of_eq (show (bigSep Finset.univ fun i : Fin 2 => (ℓ ↦{Transfers.shareTok fullShare 2 i} f : sProp 𝕄))
      = bigSep Finset.univ fun c : Fin (grid0.bound 0) => (ℓ ↦{Transfers.shareTokN fullShare c.val} f : sProp 𝕄) from rfl)) $$ Hc
  ihave Hc := (toks16_split ℓ f) $$ Hc
  ihave Hc := (Entails.of_eq (bigSep_sep' _ _ _)) $$ Hc
  icases Hc with ⟨Hdc, Htk⟩
  isplitl [Hd Hdc]
  · isplitl [Hd]; · iexact Hd
    iexact Hdc
  · iexact Htk

omit [FloatOps F] in
theorem toks_join (ℓ : Loc nD τ sig) (f : Buf (Elt F) ℓ) : iprop(drops ℓ f ∗ toks32 ℓ f) ⊢ (ℓ ↦{fullShare} f : sProp 𝕄) := by
  unfold drops toks32
  iintro ⟨⟨Hd, Hdc⟩, Htk⟩
  iapply (Transfers.pointsTo_toks_join fullShare 2)
  isplitl [Hd]; · iexact Hd
  iapply (Entails.of_eq (show (bigSep Finset.univ fun c : Fin (grid0.bound 0) => (ℓ ↦{Transfers.shareTokN fullShare c.val} f : sProp 𝕄))
      = bigSep Finset.univ fun i : Fin 2 => (ℓ ↦{Transfers.shareTok fullShare 2 i} f : sProp 𝕄) from rfl))
  iapply (toks16_join ℓ f)
  iapply (Entails.of_eq (bigSep_sep' _ _ _).symm)
  isplitl [Hdc]; · iexact Hdc
  iexact Htk

/-! ## What the call takes and hands back, regrouped -/

theorem st_all (d : Dev nD) :
    (bigSep Finset.univ fun c : Fin ((K (F := F)).nCore 0) => (P m).st 0 d c)
      = iprop(toks32 (xLoc d) (Xv m d) ∗ toks32 (tLoc d) (Tv0 m d) ∗ (oLoc d ↦{fullShare} Ov m d)) := by
  rw [oPts_blocks]
  unfold toks32
  show (bigSep Finset.univ fun c : Fin (grid0.bound 0) => bigSep Finset.univ fun i : Fin (grid0.bound 1) =>
      goRes d (coordsV c i) (qT c.val i.val) (qT c.val i.val) (Xv m d) (Tv0 m d) (Ov m d)) = _
  unfold goRes
  simp only [bigSep_sep']

theorem dn_all (d : Dev nD) :
    (bigSep Finset.univ fun c : Fin ((K (F := F)).nCore 0) => (P m).dn 0 d c)
      = iprop(toks32 (xLoc d) (Xv m d) ∗ toks32 (tLoc d) (Tv0 m d) ∗ (oLoc d ↦{fullShare} Cert.KSpec.Gk (Xv m d) (Tv0 m d))) := by
  rw [oPts_blocks]
  unfold toks32
  show (bigSep Finset.univ fun c : Fin (grid0.bound 0) => bigSep Finset.univ fun i : Fin (grid0.bound 1) =>
      tdRes d (coordsV c i) (qT c.val i.val) (qT c.val i.val) (Xv m d) (Tv0 m d)) = _
  unfold tdRes
  simp only [bigSep_sep']

/-! ## @main on the TensorCore -/

abbrev S10 : Finset (DevRef τ sig) := {a0', a1', v0', v1', v2', v3', v4', v5', v6', v7'}

omit [FloatOps F] in
theorem held_S10 (d : Dev nD) (W : Valuation τ sig (Elt F)) :
    (held (T d) S10 W : sProp 𝕄) = iprop(((SparseCore.T d).loc main_arg0 ↦{fullShare} W a0') ∗ ((SparseCore.T d).loc main_arg1 ↦{fullShare} W a1') ∗ ((SparseCore.T d).loc main_v0 ↦{fullShare} W v0') ∗ ((SparseCore.T d).loc main_v1 ↦{fullShare} W v1') ∗ ((SparseCore.T d).loc main_v2 ↦{fullShare} W v2') ∗ ((SparseCore.T d).loc main_v3 ↦{fullShare} W v3') ∗ ((SparseCore.T d).loc main_v4 ↦{fullShare} W v4') ∗ ((SparseCore.T d).loc main_v5 ↦{fullShare} W v5') ∗ ((SparseCore.T d).loc main_v6 ↦{fullShare} W v6') ∗ ((SparseCore.T d).loc main_v7 ↦{fullShare} W v7')) := by
  unfold held S10
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7)) := by
  unfold unscopedBufs
  rw [show (Finset.univ.filter fun b : Ref sig .tc => ¬ b.isScoped) = {main_arg0, main_arg1, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S10 (V0 m d) := by
  rw [unscopedBufs_eq, held_S10]; rfl

theorem main_eq (d : Dev nD) : main (F := F) d
    = (StableHlo.seq (pre (F := F)) >>= fun _ => ((K (F := F)).run d 0 >>= fun _ => (StableHlo.seq (post (F := F)) >>= fun _ => pure ⟨⟩))) := rfl

theorem hpreS : ∀ op ∈ pre (F := F), op.bufs ⊆ S10 := by
  intro op h
  simp only [List.mem_cons, List.not_mem_nil, or_false] at h
  rcases h with rfl | rfl | rfl | rfl
  · exact show ({a0', v0'} : Finset (DevRef τ sig)) ⊆ S10 by decide
  · exact show ({v0', v1'} : Finset (DevRef τ sig)) ⊆ S10 by decide
  · exact show ({v1', v2'} : Finset (DevRef τ sig)) ⊆ S10 by decide
  · exact show ({a1', v3'} : Finset (DevRef τ sig)) ⊆ S10 by decide
theorem hpostS : ∀ op ∈ post (F := F), op.bufs ⊆ S10 := by
  intro op h
  simp only [List.mem_cons, List.not_mem_nil, or_false] at h
  rcases h with rfl | rfl | rfl
  · exact show ({v4', v5'} : Finset (DevRef τ sig)) ⊆ S10 by decide
  · exact show ({v5', v6'} : Finset (DevRef τ sig)) ⊆ S10 by decide
  · exact show ({v6', v7'} : Finset (DevRef τ sig)) ⊆ S10 by decide
theorem hpreF : ∀ op ∈ pre (F := F), op.fresh = ∅ := by
  intro op h
  simp only [List.mem_cons, List.not_mem_nil, or_false] at h
  rcases h with rfl | rfl | rfl | rfl <;> rfl
theorem hpostF : ∀ op ∈ post (F := F), op.fresh = ∅ := by
  intro op h
  simp only [List.mem_cons, List.not_mem_nil, or_false] at h
  rcases h with rfl | rfl | rfl <;> rfl

/-- What @main leaves: every array of the TensorCore at its contents after the last operation. -/
abbrev FIN (d : Dev nD) : sProp 𝕄 := held (T d) S10 (V8 m d)

theorem V5_of_ne (d : Dev nD) {b : DevRef τ sig} (h : b ≠ v4') : V5 m d b = V4 m d b := Function.update_of_ne h _ _
theorem V5_v4 (d : Dev nD) : V5 m d v4' = Cert.KSpec.Gk (Xv m d) (Tv0 m d) := Function.update_self _ _ _

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S10 _ (pre (F := F)) hpreS hpreF (V0 m d)) $$ [Hb Hheld]
  · isplitl [Hb]; · iexact Hb
    iexact Hheld
  iintro ⟨Hb, Hheld⟩
  ihave Hh := (Entails.of_eq (held_S10 (F := F) d _)) $$ Hheld
  icases Hh with ⟨Ha0, Ha1, Hv0, Hv1, Hv2, Hv3, Hv4, Hv5, Hv6, Hv7⟩
  ihave Hx := (toks_split (xLoc d) _) $$ Hv2
  icases Hx with ⟨Hxd, Hxt⟩
  ihave Ht := (toks_split (tLoc d) _) $$ Hv3
  icases Ht with ⟨Htd, Htt⟩
  rw [wp_bind]
  iapply ((K (F := F)).wp_run (D (F := F)) 𝒱 (EH := EH) (P := P m) κ d 0) $$ [Hst Hxt Htt Hv4 Hxd Htd Hb Ha0 Ha1 Hv0 Hv1 Hv5 Hv6 Hv7]
  isplitr; · iexact Hctx
  isplitl [Hst]; · iexact Hst
  isplitl [Hxt Htt Hv4]
  · rw [st_all]
    isplitl [Hxt]; · iexact Hxt
    isplitl [Htt]; · iexact Htt
    iexact Hv4
  iintro ⟨Hst, Hdn⟩
  ihave Hdn := (Entails.of_eq (dn_all m d)) $$ Hdn
  icases Hdn with ⟨Hxt, Htt, Hv4⟩
  ihave Hv2 := (toks_join (xLoc d) _) $$ [Hxd Hxt]
  · isplitl [Hxd]; · iexact Hxd
    iexact Hxt
  ihave Hv3 := (toks_join (tLoc d) _) $$ [Htd Htt]
  · isplitl [Htd]; · iexact Htd
    iexact Htt
  iapply (StableHlo.wp_seq 𝒱 none Set.univ d S10 _ (post (F := F)) hpostS hpostF (V5 m d)) $$ [Hb Ha0 Ha1 Hv0 Hv1 Hv2 Hv3 Hv4 Hv5 Hv6 Hv7]
  · isplitl [Hb]; · iexact Hb
    rw [held_S10, V5_v4, V5_of_ne m d (b := a0') (by decide), V5_of_ne m d (b := a1') (by decide), V5_of_ne m d (b := v0') (by decide),
      V5_of_ne m d (b := v1') (by decide), V5_of_ne m d (b := v2') (by decide), V5_of_ne m d (b := v3') (by decide),
      V5_of_ne m d (b := v5') (by decide), V5_of_ne m d (b := v6') (by decide), V5_of_ne m d (b := v7') (by decide)]
    isplitl [Ha0]; · iexact Ha0
    isplitl [Ha1]; · iexact Ha1
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  iintro ⟨Hb, Hheld⟩
  rw [wp_pure]; imodintro
  isplitl [Hst]; · iexact Hst
  iexact Hheld

/-! ## The final memory -/

def fq (d : Dev nD) (s' : Phys nD τ sig (Elt F)) : Prop :=
  s'.mem.mem ((SparseCore.T d).loc main_v7) = V8 m d v7' ∧ s'.mem.mem ((SparseCore.T d).loc main_arg0) = V8 m d a0'
    ∧ s'.mem.mem ((SparseCore.T d).loc main_arg1) = V8 m d a1'

theorem hfin (d : Dev nD) (s' : Phys nD τ sig (Elt F)) : iprop(FIN m d ∗ SI s') ⊢ (⌜fq m d s'⌝ : sProp 𝕄) := by
  rw [show FIN m d = _ from held_S10 (F := F) d (V8 m d)]
  iintro ⟨⟨Ha0, Ha1, -, -, -, -, -, -, -, Hv7⟩, HSI⟩
  ihave H := (persistent_entails_right (SI_pointsTo_agree (st := s') (ℓ := (SparseCore.T d).loc main_v7) (I := Finset.univ) (q := fullShare) (f := V8 m d v7'))) $$ [HSI Hv7]
  · isplitl [HSI] <;> iassumption
  icases H with ⟨%h1, HSI, -⟩
  ihave H := (persistent_entails_right (SI_pointsTo_agree (st := s') (ℓ := (SparseCore.T d).loc main_arg0) (I := Finset.univ) (q := fullShare) (f := V8 m d a0'))) $$ [HSI Ha0]
  · isplitl [HSI] <;> iassumption
  icases H with ⟨%h2, HSI, -⟩
  ihave H := (SI_pointsTo_agree (st := s') (ℓ := (SparseCore.T d).loc main_arg1) (I := Finset.univ) (q := fullShare) (f := V8 m d a1')) $$ [HSI Ha1]
  · isplitl [HSI] <;> iassumption
  icases H with %h3
  ipureintro
  exact ⟨funext fun i => h1 i (Finset.mem_univ i), funext fun i => h2 i (Finset.mem_univ i), funext fun i => h3 i (Finset.mem_univ i)⟩

/-! ## The values: the arrays the kernel is given, and the result -/

theorem Xv_eq (d : Dev nD) : Xv m d = shapeCast S25600x8x128 (transpose S200x128x8x128 [2, 0, 3, 1]
    (shapeCast S128x128x200x8 (m ((SparseCore.T d).loc main_arg0)) shapeCasts_S16384x200x8_S128x128x200x8) transposes_S128x128x200x8_S200x128x8x128_2_0_3_1)
    shapeCasts_S200x128x8x128_S25600x8x128 := by
  show StableHlo.after (pre (F := F)) (V0 m d) (Proc.devRef .tc main_v2) = _
  after_results
  rfl
theorem Tv0_eq (d : Dev nD) : Tv0 m d = shapeCast S28 (m ((SparseCore.T d).loc main_arg1)) shapeCasts_S7x4_S28 := by
  show StableHlo.after (pre (F := F)) (V0 m d) (Proc.devRef .tc main_v3) = _
  after_results
  rfl
theorem V4_a0 (d : Dev nD) : V4 m d a0' = m ((SparseCore.T d).loc main_arg0) := by
  show StableHlo.after (pre (F := F)) (V0 m d) (Proc.devRef .tc main_arg0) = _
  after_results
  rfl
theorem V4_a1 (d : Dev nD) : V4 m d a1' = m ((SparseCore.T d).loc main_arg1) := by
  show StableHlo.after (pre (F := F)) (V0 m d) (Proc.devRef .tc main_arg1) = _
  after_results
  rfl
theorem V8_a0 (d : Dev nD) : V8 m d a0' = m ((SparseCore.T d).loc main_arg0) := by
  show StableHlo.after (post (F := F)) (V5 m d) (Proc.devRef .tc main_arg0) = _
  after_results
  exact (V5_of_ne m d (b := a0') (by decide)).trans (V4_a0 m d)
theorem V8_a1 (d : Dev nD) : V8 m d a1' = m ((SparseCore.T d).loc main_arg1) := by
  show StableHlo.after (post (F := F)) (V5 m d) (Proc.devRef .tc main_arg1) = _
  after_results
  exact (V5_of_ne m d (b := a1') (by decide)).trans (V4_a1 m d)
theorem V8_v7 (d : Dev nD) : V8 m d v7' = shapeCast S16384x200x4 (transpose S128x128x200x4 [1, 3, 0, 2]
    (shapeCast S200x128x4x128 (Cert.KSpec.Gk (Xv m d) (Tv0 m d)) shapeCasts_S25600x4x128_S200x128x4x128) transposes_S200x128x4x128_S128x128x200x4_1_3_0_2)
    shapeCasts_S128x128x200x4_S16384x200x4 := by
  show StableHlo.after (post (F := F)) (V5 m d) (Proc.devRef .tc main_v7) = _
  after_results
  rw [show V5 m d (Proc.devRef .tc main_v4) = _ from V5_v4 m d]
  rfl

/-- Every index word the kernel is given is one of the argument's. -/
theorem hX_of (hpre : ∀ d i, (m ((SparseCore.T d).loc main_arg0) i).toNat ≤ 6) : ∀ d i, (Xv m d i).toNat ≤ 6 := by
  intro d i
  rw [Xv_eq]
  exact hpre d _

/-- The result is the lookup specification of the arguments. -/
theorem V8_spec (hpre : ∀ d i, (m ((SparseCore.T d).loc main_arg0) i).toNat ≤ 6) (d : Dev nD) :
    V8 m d v7' = Cert.Spec.G (m ((SparseCore.T d).loc main_arg0)) (m ((SparseCore.T d).loc main_arg1)) := by
  rw [V8_v7, Xv_eq, Tv0_eq]
  exact Cert.HostValue.host_value (m ((SparseCore.T d).loc main_arg0)) (m ((SparseCore.T d).loc main_arg1)) (hpre d) _ _ _ _ _ _ _

/-! ## The program's run -/

def QC : PUnit × MemSt nD τ sig (Elt F) → Prop := fun r => ∀ c : Dev nD,
  r.2.mem ((SparseCore.T c).loc main_v7) = Cert.Spec.G (m ((SparseCore.T c).loc main_arg0)) (m ((SparseCore.T c).loc main_arg1))
    ∧ r.2.mem ((SparseCore.T c).loc main_arg0) = m ((SparseCore.T c).loc main_arg0)
    ∧ r.2.mem ((SparseCore.T c).loc main_arg1) = m ((SparseCore.T c).loc main_arg1)

theorem run_main [∀ e, Nonempty (Elt F e)] (hpre : ∀ d i, (m ((SparseCore.T d).loc main_arg0) i).toNat ≤ 6) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts (hX_of m hpre))
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (V8_spec m hpre c), (h c).2.1.trans (V8_a0 m c), (h c).2.2.trans (V8_a1 m c)⟩)

end Cert.Proof.KB
end
-- ==== Proof.RefOps.lean ====
/-
  The reference program as one straight line of operations. The program slices column 0 of the index array,
  reshapes it to two axes, and calls the table lookup, whose body (with the select it calls in turn) is a line
  of twenty-three operations over that call's own buffers: twenty-five operations in all. Once the two bodies
  are unfolded at their calls and sequencing is reassociated, the program is that list run in order, so every
  weakly fair execution terminates with each buffer at the fold of the operations over the launch contents.
-/
import proofs.«206284_g43061342110465_cont_8to1_b_1111_8_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's twenty-five operations, in order: the slice, the reshape, then the lookup's body over the
    call's buffers (the select it calls is the ninth); the twentieth, the reduction of the bounds comparisons
    over the unit axis, is a parameter. -/
abbrev opsR (red : (⟨S16384x200x1, .i1⟩ : BufTy).Contents (Elt F) → (⟨S_, .i1⟩ : BufTy).Contents (Elt F) → (⟨S16384x200, .i1⟩ : BufTy).Contents (Elt F)) :
    List (HloOp τ sig (Elt F)) :=
  [ unary main_arg0 main_v0 ((extractStridedSlice S16384x200x1 ![0, 0, 0] · slices_S16384x200x8_S16384x200x1_0_0_0) : (⟨S16384x200x8, .i32⟩ : BufTy).Contents (Elt F) → (⟨S16384x200x1, .i32⟩ : BufTy).Contents (Elt F)),
    reshape main_v0 main_v1 rfl shapeCasts_S16384x200x1_S16384x200,
    TRef.nullary main_call0.c (constantI S_ 32 0#32),
    TRef.unary main_call0.c main_call0.v0 (broadcastInDim S16384x200 ![] bcast_S_S16384x200),
    TRef.binary (.of main_v1) main_call0.v0 main_call0.v1 (cmpi .slt),
    TRef.nullary main_call0.c_0 (constantI S_ 32 7#32),
    TRef.unary main_call0.c_0 main_call0.v2 (broadcastInDim S16384x200 ![] bcast_S_S16384x200),
    TRef.binary (.of main_v1) main_call0.v2 main_call0.v3 addi,
    TRef.ternary main_call0.v1 main_call0.v3 (.of main_v1) main_call0.call0.v0 select,
    TRef.unary main_call0.call0.v0 main_call0.v5 (broadcastInDim S16384x200x1 ![0, 1] bcast_S16384x200_S16384x200x1_0_1),
    TRef.nullary main_call0.c_1 (constantI S1 32 6#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 red,
    TRef.binary (.of main_arg1) main_call0.v5 main_call0.v13 (fun x i => Host.gather gather_S7x4_S16384x200x1_S16384x200x4_2_0_n_n_0_2_14 x i),
    TRef.unary main_call0.v12 main_call0.v14 (broadcastInDim S16384x200x4 ![0, 1] bcast_S16384x200_S16384x200x4_0_1),
    TRef.nullary main_call0.cst (constant S_ .f32 0x7FC00000#32),
    TRef.unary main_call0.cst main_call0.v15 (broadcastInDim S16384x200x4 ![] bcast_S_S16384x200x4),
    TRef.ternary main_call0.v14 main_call0.v13 main_call0.v15 main_call0.v16 select ]

/-- The program's operations: the reduction is by "and". -/
abbrev ops : List (HloOp τ sig (Elt F)) :=
  opsR (fun x v => Host.reduce IntOp.andi x v reducesTo_S16384x200x1_S16384x200_d2 h_S_)

-- twenty-five binds re-associated under the two unfolded bodies
set_option maxRecDepth 1024 in
/-- The program is that straight line: the two functions' bodies unfolded at their calls, both sides are one
    chain of steps once sequencing is reassociated. -/
theorem main_eq (c : Dev nD) : main (F := F) c = seq ops := by
  simp only [main, fn_take.body, fn_where.body, seq, bind_assoc, pure_bind] <;> rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub ..⟩

/-- From any memory with zero counters every weakly fair execution of the program terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  What the reference computes, as one function of its two argument arrays, cut into named stages.
  Column 0 of the index array is read as a two-axis array. An index below zero has 7 added to it (indexing
  from the end of the table). The index is given a trailing unit axis; a position is in bounds when its index
  is between 0 and 6 (the conjunction is reduced over the unit axis, so it is that one comparison). The table
  is gathered at the indices: each result entry (b, t, c) is the table at row index[b, t, 0], clamped into the
  table, and column c. Out-of-bounds positions are replaced by a fixed fill word.
  The stages are stated over an arbitrary reduction of the bounds comparisons, and then at the program's own
  (the reduction by "and" over the unit axis): how the stages compose does not depend on which reduction it is.
-/
import proofs.«206284_g43061342110465_cont_8to1_b_1111_8_alg».proof.Proof.Gen.ReferenceIdeal

noncomputable section

namespace Cert.ReferenceIdeal.RefValue

open Cert.ReferenceIdeal Cert.ReferenceIdeal.Gen Idealize.ShloMosaic

variable {F : FTy → Type} [FloatOps F]

/-- Column 0 of the index array, as an array over the first two axes. -/
def col0 (x : IVec S16384x200x8 32) : IVec S16384x200 32 :=
  shapeCast S16384x200 (extractStridedSlice S16384x200x1 ![0, 0, 0] x slices_S16384x200x8_S16384x200x1_0_0_0)
    shapeCasts_S16384x200x1_S16384x200

/-- Indexing from the end: an index that reads negative has 7 added, any other is kept. -/
def wrap (v : IVec S16384x200 32) : IVec S16384x200 32 :=
  select (cmpi .slt v (broadcastInDim S16384x200 ![] bcast_S_S16384x200 (constantI S_ 32 0#32)))
    (addi v (broadcastInDim S16384x200 ![] bcast_S_S16384x200 (constantI S_ 32 7#32))) v

/-- The indices with a trailing unit axis: one start index per position. -/
def start3 (v : IVec S16384x200 32) : IVec S16384x200x1 32 :=
  broadcastInDim S16384x200x1 ![0, 1] bcast_S16384x200_S16384x200x1_0_1 v

/-- A reduction of a one-bit array over the unit axis, from a rank-zero initial value. -/
abbrev UnitRed : Type := IVec S16384x200x1 1 → IVec S_ 1 → IVec S16384x200 1

/-- Which positions have their start index between 0 and 6, read signed: the two comparisons' conjunction, reduced
    over the unit axis by `red` from the constant 1. -/
def inBoundsR (red : UnitRed) (s : IVec S16384x200x1 32) : IVec S16384x200 1 :=
  red
    (andi (cmpi .sge s (broadcastInDim S16384x200x1 ![] bcast_S_S16384x200x1 (constantI S_ 32 0#32)))
      (cmpi .sle s (broadcastInDim S16384x200x1 ![0, 1, 2] bcast_S1x1x1_S16384x200x1_0_1_2
        (broadcastInDim S1x1x1 ![2] bcast_S1_S1x1x1_2 (constantI S1 32 6#32)))))
    (constantI S_ 1 1#1)

/-- The table gathered at the start indices, out-of-bounds positions replaced by the fill word. -/
def lookupR (red : UnitRed) (tab : FVec F S7x4 .f32) (s : IVec S16384x200x1 32) : FVec F S16384x200x4 .f32 :=
  select (broadcastInDim S16384x200x4 ![0, 1] bcast_S16384x200_S16384x200x4_0_1 (inBoundsR red s))
    (Host.gather gather_S7x4_S16384x200x1_S16384x200x4_2_0_n_n_0_2_14 tab s)
    (broadcastInDim S16384x200x4 ![] bcast_S_S16384x200x4 (constant (F := F) S_ .f32 0x7FC00000#32))

/-- The stages composed, over an arbitrary reduction. -/
def refTermR (red : UnitRed) (x : IVec S16384x200x8 32) (tab : FVec F S7x4 .f32) : FVec F S16384x200x4 .f32 :=
  lookupR red tab (start3 (wrap (col0 x)))

/-- The program's reduction: by "and" over the unit axis. -/
def allAnd : UnitRed :=
  fun x v => Host.reduce IntOp.andi x v reducesTo_S16384x200x1_S16384x200_d2 h_S_

/-- The reference's result as a function of the index array and the table. -/
def refTerm (x : IVec S16384x200x8 32) (tab : FVec F S7x4 .f32) : FVec F S16384x200x4 .f32 :=
  refTermR allAnd x tab

end Cert.ReferenceIdeal.RefValue

end
-- ==== Proof.RefAfter.lean ====
/-
  The fold of the reference's operations, read at the result buffer and at the two argument buffers. Unrolling
  the fold, each operation's result is its function of the buffers it reads; at the result buffer the
  composition is the staged function of the two arguments, and no operation writes an argument buffer. How the
  operations compose does not depend on which reduction the bounds mask uses, so the composition is proved
  with that reduction arbitrary and then read at the program's own.
-/
import proofs.«206284_g43061342110465_cont_8to1_b_1111_8_alg».proof.Proof.RefOps
import proofs.«206284_g43061342110465_cont_8to1_b_1111_8_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- After the operations, whatever the reduction, the result buffer holds the staged function of the two
    arguments' contents. -/
theorem after_v2R (red : UnitRed) (V : Valuation τ sig (Elt F)) :
    after (opsR red) V (main_v2 : DevRef τ sig)
      = refTermR (F := F) red (V (main_arg0 : DevRef τ sig)) (V (main_arg1 : DevRef τ sig)) := by
  after_results_simp
  rfl

/-- At the program's reduction. -/
theorem after_v2 (V : Valuation τ sig (Elt F)) :
    after ops V (main_v2 : DevRef τ sig)
      = refTerm (F := F) (V (main_arg0 : DevRef τ sig)) (V (main_arg1 : DevRef τ sig)) :=
  after_v2R allAnd V

set_option maxRecDepth 8192 in
/-- No operation writes the index array. -/
theorem after_arg0 (V : Valuation τ sig (Elt F)) :
    after ops V (main_arg0 : DevRef τ sig) = V (main_arg0 : DevRef τ sig) := by
  after_results_simp

set_option maxRecDepth 8192 in
/-- No operation writes the table. -/
theorem after_arg1 (V : Valuation τ sig (Elt F)) :
    after ops V (main_arg1 : DevRef τ sig) = V (main_arg1 : DevRef τ sig) := by
  after_results_simp

/-- Every weakly fair execution of the reference terminates with its result at the staged function of the two
    argument arrays and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
        = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (after_v2 _), (h c main_arg0).trans (after_arg0 _),
      (h c main_arg1).trans (after_arg1 _)⟩)
    (run_main m ρ)

end Cert.ReferenceIdeal.RefValue

end
-- ==== Proof.RefRead.lean ====
/-
  The staged function of the reference is the lookup specification on admitted inputs. Suppose every entry of
  the index array is at most 6 read unsigned. Then every index read from column 0 reads the same signed and is
  nonnegative, so adding 7 to negative indices changes nothing; every index is between 0 and 6, so the bounds
  mask is all ones and the final select keeps the gathered value; and the gather reads, at result entry
  (b, t, c), the table at the row the start index names, clamped into [0, 6] (here unchanged), and column c.
  That is the specification's entry: the table at row x[b, t, 0] and column c.
-/
import proofs.«206284_g43061342110465_cont_8to1_b_1111_8_alg».proof.Proof.RefTerm
import proofs.«206284_g43061342110465_cont_8to1_b_1111_8_alg».proof.Proof.Spec
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx

variable {F : FTy → Type} [FloatOps F]

/-! ## Words at most 6 -/

/-- A word at most 6 read unsigned has its top bit clear: it reads the same signed. -/
theorem toInt_of_le_six {w : BitVec 32} (h : w.toNat ≤ 6) : w.toInt = (w.toNat : Int) := by
  rw [BitVec.toInt_eq_toNat_cond]
  split <;> omega

/-- Such a word is not below zero, -/
theorem not_slt_zero {w : BitVec 32} (h : w.toNat ≤ 6) : ¬IntOp.cmpi .slt w 0#32 = 1#1 := by
  have e0 : (0#32 : BitVec 32).toInt = 0 := by decide
  rw [IntOp.cmpi_slt, toInt_of_le_six h, e0]
  omega

/-- is at least zero, -/
theorem sge_zero {w : BitVec 32} (h : w.toNat ≤ 6) : IntOp.cmpi .sge w 0#32 = 1#1 := by
  have e0 : (0#32 : BitVec 32).toInt = 0 := by decide
  rw [IntOp.cmpi_sge, toInt_of_le_six h, e0]
  omega

/-- and is at most six, read signed. -/
theorem sle_six {w : BitVec 32} (h : w.toNat ≤ 6) : IntOp.cmpi .sle w 6#32 = 1#1 := by
  have e6 : (6#32 : BitVec 32).toInt = 6 := by decide
  rw [IntOp.cmpi_sle, toInt_of_le_six h, e6]
  omega

/-! ## A reduction by "and" of all ones -/

/-- A left fold by "and" from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by "and" from 1 of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The stages at an index -/

/-- Column 0 at position (b, t) is the index array's entry (b, t, 0). -/
theorem col0_apply (x : IVec S16384x200x8 32) (b : Fin 16384) (t : Fin 200) : col0 x (ix2 b t) = x (ix3 b t 0) := by
  unfold col0
  rw [shapeCast_apply _ _ (ix2 b t) (ix3 b t (0 : Fin 1)) (by
    rw [Shape.rowMajor_val_three, Shape.rowMajor_val_two]
    show (b.val * 200 + t.val) * 1 + 0 = b.val * 200 + t.val
    omega)]
  exact extractStridedSlice_apply _ _ _ _ (ix3 b t (0 : Fin 8)) (fun a => by
    match a with
    | ⟨0, _⟩ => exact (Nat.zero_add _).symm
    | ⟨1, _⟩ => exact (Nat.zero_add _).symm
    | ⟨2, _⟩ => rfl)

/-- Every entry of column 0 is an entry of the index array. -/
theorem col0_le (x : IVec S16384x200x8 32) (hx : ∀ i, (x i).toNat ≤ 6) (k : S16384x200.Idx) : (col0 x k).toNat ≤ 6 :=
  hx _

/-- An index at most 6 is kept by the wrap: it does not read negative. -/
theorem wrap_apply (v : IVec S16384x200 32) (i : S16384x200.Idx) (h : (v i).toNat ≤ 6) : wrap v i = v i := by
  show Scalar.select (IntOp.cmpi .slt (v i) 0#32) (IntOp.addi (v i) 7#32) (v i) = v i
  exact if_neg (not_slt_zero h)

/-- The start index of position (b, t) is that position's index. -/
theorem start3_apply (v : IVec S16384x200 32) (b : Fin 16384) (t : Fin 200) : start3 v (ix3 b t 0) = v (ix2 b t) := by
  unfold start3
  exact broadcastInDim_apply _ _ v (ix3 b t (0 : Fin 1)) (ix2 b t) (fun a => by
    match a with
    | ⟨0, _⟩ => rfl
    | ⟨1, _⟩ => rfl)

/-- Every start index is an entry of the array it was made from. -/
theorem start3_le (v : IVec S16384x200 32) (hv : ∀ k, (v k).toNat ≤ 6) (i : S16384x200x1.Idx) : (start3 v i).toNat ≤ 6 :=
  hv _

/-- When every start index is at most 6, every position is in bounds. -/
theorem inBounds_apply (s : IVec S16384x200x1 32) (hs : ∀ i, (s i).toNat ≤ 6) (j : S16384x200.Idx) :
    inBoundsR allAnd s j = 1#1 := by
  unfold inBoundsR allAnd
  refine reduce_andi_of_all _ _ _ _ (fun i => ?_) rfl j
  show IntOp.andi (IntOp.cmpi .sge (s i) 0#32) (IntOp.cmpi .sle (s i) 6#32) = 1#1
  rw [sge_zero (hs i), sle_six (hs i)]
  decide

/-- The gather at result entry (b, t, c): the table at the row the start index of (b, t) names, read signed and
    clamped into [0, 6], and column c. Axis 0 of the table is the one the start index addresses (and is
    collapsed: no offset), axis 1 is read at the result's offset coordinate. -/
theorem gather_apply {α : Type} (tab : S7x4.Idx → α) (s : IVec S16384x200x1 32) (b : Fin 16384) (t : Fin 200) (c : Fin 4) :
    Host.gather gather_S7x4_S16384x200x1_S16384x200x4_2_0_n_n_0_2_14 tab s (ix3 b t c)
      = tab (ix2 (⟨min (s (ix3 b t 0)).toInt.toNat 6, by omega⟩ : Fin 7) c) := by
  unfold Host.gather
  refine congrArg tab (funext fun a => Fin.ext ?_)
  match a with
  | ⟨0, _⟩ =>
    show gather_S7x4_S16384x200x1_S16384x200x4_2_0_n_n_0_2_14.start (ix3 b t c) s 0
        + gather_S7x4_S16384x200x1_S16384x200x4_2_0_n_n_0_2_14.batchCoord (ix3 b t c) 0
        + gather_S7x4_S16384x200x1_S16384x200x4_2_0_n_n_0_2_14.offCoord (ix3 b t c) 0 = min (s (ix3 b t 0)).toInt.toNat 6
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S7x4_S16384x200x1_S16384x200x4_2_0_n_n_0_2_14.startIndexMap from List.mem_singleton.mpr rfl)]
    have hsi : gather_S7x4_S16384x200x1_S16384x200x4_2_0_n_n_0_2_14.siIdx (ix3 b t c)
        ⟨List.idxOf (0 : Fin 2) gather_S7x4_S16384x200x1_S16384x200x4_2_0_n_n_0_2_14.startIndexMap,
          List.idxOf_lt_length_iff.2 (List.mem_singleton.mpr rfl)⟩ = ix3 b t (0 : Fin 1) := by
      funext d; refine Fin.ext ?_
      match d with
      | ⟨0, _⟩ => rfl
      | ⟨1, _⟩ => rfl
      | ⟨2, _⟩ => rfl
    rw [hsi]
    rfl
  | ⟨1, _⟩ =>
    show gather_S7x4_S16384x200x1_S16384x200x4_2_0_n_n_0_2_14.start (ix3 b t c) s 1
        + gather_S7x4_S16384x200x1_S16384x200x4_2_0_n_n_0_2_14.batchCoord (ix3 b t c) 1
        + gather_S7x4_S16384x200x1_S16384x200x4_2_0_n_n_0_2_14.offCoord (ix3 b t c) 1 = c.val
    have h1 : (1 : Fin 2) ∉ gather_S7x4_S16384x200x1_S16384x200x4_2_0_n_n_0_2_14.startIndexMap :=
      fun h => absurd (List.mem_singleton.mp h) (by decide)
    have hk : (1 : Fin 2) ∈ gather_S7x4_S16384x200x1_S16384x200x4_2_0_n_n_0_2_14.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## The staged function is the specification -/

/-- On an index array whose entries are all at most 6, the reference's staged function is the lookup:
    entry (b, t, c) is the table at row x[b, t, 0] and column c. -/
theorem refTerm_eq (x : IVec S16384x200x8 32) (tab : FVec F S7x4 .f32) (hx : ∀ i, (x i).toNat ≤ 6) :
    refTerm x tab = Cert.Spec.G x tab := by
  have hcol : ∀ k, (col0 x k).toNat ≤ 6 := col0_le x hx
  have hwrap : wrap (col0 x) = col0 x := funext fun i => wrap_apply _ i (hcol i)
  funext j
  obtain ⟨b, t, c, rfl⟩ : ∃ (b : Fin 16384) (t : Fin 200) (c : Fin 4), j = ix3 b t c := ⟨j 0, j 1, j 2, eq_ix3 j⟩
  have hs : ∀ i, (start3 (col0 x) i).toNat ≤ 6 := start3_le _ hcol
  have hs0 : start3 (col0 x) (ix3 b t 0) = x (ix3 b t 0) := (start3_apply _ b t).trans (col0_apply x b t)
  unfold refTerm refTermR
  rw [hwrap]
  generalize start3 (col0 x) = s at hs hs0 ⊢
  have hmk : ∀ k, inBoundsR allAnd s k = 1#1 := inBounds_apply s hs
  unfold lookupR
  generalize inBoundsR allAnd s = mk at hmk ⊢
  rw [select_apply, show broadcastInDim S16384x200x4 ![0, 1] bcast_S16384x200_S16384x200x4_0_1 mk (ix3 b t c) = 1#1 from hmk _,
    select_one, gather_apply, Cert.Spec.G_apply]
  refine congrArg tab (congrArg (fun r : Fin 7 => ix2 r c) (Fin.ext ?_))
  show min (s (ix3 b t 0)).toInt.toNat 6 = (x (ix3 b t 0)).toNat % 7
  rw [hs0]
  have hw := hx (ix3 b t 0)
  rw [toInt_of_le_six hw, Int.toNat_natCast]
  omega

end Cert.ReferenceIdeal.RefValue

end
-- ==== Proof.RefRun.lean ====
/-
  The reference's run, with its result named as the lookup specification. Every weakly fair execution of the
  reference terminates with its result buffer at the staged function of the two argument arrays and the
  arguments unchanged; when every entry of the index array is at most 6, that staged function is the
  specification: entry (b, t, c) of the result is the table at row x[b, t, 0] and column c.
-/
import proofs.«206284_g43061342110465_cont_8to1_b_1111_8_alg».proof.Proof.RefAfter
import proofs.«206284_g43061342110465_cont_8to1_b_1111_8_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- At the ideal instance, from any memory with zero counters whose index array has every entry at most 6: every
    weakly fair execution of the reference terminates, its result is the lookup specification of the two argument
    arrays, and the arguments are unchanged. -/
theorem run (m : (ℓ : Loc nD τ sig) → Buf (Elt Ideal) ℓ) (ρ : Dev nD → PrngReg)
    (hx : ∀ (c : Dev nD) i, (m ((c.tc : Thread nD τ).loc main_arg0) i).toNat ≤ 6) :
    θ_run (defs (F := Ideal)) (onTc (τ := τ) (main (F := Ideal))) ⟨m, fun _ => 0, ρ⟩ (fun r => ∀ c : Dev nD,
      r.2.mem ((c.tc : Thread nD τ).loc main_v2) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (refTerm_eq (F := Ideal) _ _ (hx c)), (h c).2⟩)
    (run_term (F := Ideal) m ρ)

end Cert.ReferenceIdeal.RefValue

end
-- ==== Proof.PreRange.lean ====
/-
  The input-domain predicate, read back: if the printed predicate evaluates to the all-ones word then every
  entry of the index array, read as a natural number, is at most 6. The predicate is the conjunction of two
  reductions by "and"; the second reduces, over the whole index array, the conjunction of the signed
  comparisons 0 ≤ x and x ≤ 6. A word that is signed-nonnegative and signed-at-most 6 has its top bit clear,
  so its unsigned value is its signed value, which is at most 6.
-/
import proofs.«206284_g43061342110465_cont_8to1_b_1111_8_alg».proof.Pre_input_domain
import Idealize.ShloMosaic.Lib.ReduceAll
import Idealize.ShloMosaic.Lib.ValueIdx

namespace Cert.PreRange

open Idealize.ShloMosaic

/-- The rank-zero shape has exactly one index. -/
instance : Subsingleton Cert.Pre_input_domain.S_.Idx := ⟨fun a b => funext fun d => d.elim0⟩

/-- A 32-bit word that is signed-nonnegative and signed-at-most 6 is at most 6 read unsigned. -/
theorem toNat_le_six {x : BitVec 32} (h0 : (0#32 : BitVec 32).toInt ≤ x.toInt) (h6 : x.toInt ≤ (6#32 : BitVec 32).toInt) :
    x.toNat ≤ 6 := by
  have e0 : (0#32 : BitVec 32).toInt = 0 := by decide
  have e6 : (6#32 : BitVec 32).toInt = 6 := by decide
  rw [e0] at h0
  rw [e6] at h6
  rw [BitVec.toInt_eq_toNat_cond] at h0 h6
  have := x.isLt
  split at h0 <;> omega

/-- Every entry of an index array the input-domain predicate admits is at most 6. -/
theorem range_of_fn {F : FTy → Type} [FloatOps F] [Cert.Pre_input_domain.Facts]
    (a0 : IVec Cert.Pre_input_domain.S16384x200x8 32) (a1 : FVec F Cert.Pre_input_domain.S7x4 .f32)
    (h : Cert.Pre_input_domain.fn (F := F) a0 a1 = fun _ => 1#1) : ∀ i, (a0 i).toNat ≤ 6 := by
  intro i
  have h0 := congrFun h ValueIdx.ix0
  dsimp only [Cert.Pre_input_domain.fn] at h0
  change IntOp.andi _ _ = 1#1 at h0
  have h1 := (IntOp.andi_eq_one.1 h0).2
  have h2 := Host.reduce_andi_all _ _ _ _ _ h1 i
  change IntOp.andi (IntOp.cmpi .sge (a0 i) (0#32)) (IntOp.cmpi .sle (a0 i) (6#32)) = 1#1 at h2
  obtain ⟨hge, hle⟩ := IntOp.andi_eq_one.1 h2
  exact toNat_le_six (IntOp.cmpi_sge.1 hge) (IntOp.cmpi_sle.1 hle)

end Cert.PreRange
-- ==== Proof.lean ====
/-
  The lookup kernel against jnp.take. Both programs compute, at (b, t, c), the table entry at row x[b, t, 0] and
  column c (Proof/Spec.lean). The kernel does it on the thirty-two vector subcores, each filling ten blocks of a
  re-laid output array from a re-laid index array and the flattened table (Proof/TileK*.lean for one subcore's task,
  Proof/LaunchK*.lean for the whole program and the layout changes around the call, Proof/HostValue.lean for the
  layout algebra); the reference gathers on the host (Proof/RefRun.lean). The precondition bounds every index word by
  6 (Proof/PreRange.lean), which keeps every table access of the kernel in range and makes the reference's bounds
  mask all ones. Nothing is rewritten by the idealization, and no float operation is performed: the result is
  data movement, the same at both instances.
-/
import proofs.«206284_g43061342110465_cont_8to1_b_1111_8_alg».proof.Defs
import proofs.«206284_g43061342110465_cont_8to1_b_1111_8_alg».proof.Proof.Gen.Kernel
import proofs.«206284_g43061342110465_cont_8to1_b_1111_8_alg».proof.Proof.Gen.Kernel.Skeleton
import proofs.«206284_g43061342110465_cont_8to1_b_1111_8_alg».proof.Proof.Gen.KernelIdeal
import proofs.«206284_g43061342110465_cont_8to1_b_1111_8_alg».proof.Proof.Gen.KernelIdeal.Skeleton
import proofs.«206284_g43061342110465_cont_8to1_b_1111_8_alg».proof.Proof.Gen.ReferenceIdeal
import proofs.«206284_g43061342110465_cont_8to1_b_1111_8_alg».proof.Proof.Gen.Pre_input_domain
import proofs.«206284_g43061342110465_cont_8to1_b_1111_8_alg».proof.Proof.LaunchKI
import proofs.«206284_g43061342110465_cont_8to1_b_1111_8_alg».proof.Proof.LaunchKB
import proofs.«206284_g43061342110465_cont_8to1_b_1111_8_alg».proof.Proof.RefRun
import proofs.«206284_g43061342110465_cont_8to1_b_1111_8_alg».proof.Proof.PreRange
import Idealize.ShloMosaic.Adequacy
import Idealize.ShloMosaic.Init

noncomputable section

namespace Cert.Proof

open Idealize.ShloMosaic Idealize.SL.Sem

/-- The kernel as printed runs to the end from every admitted memory and leaves its arguments as they were. -/
theorem frame_k : Cert.frame_Kernel := fun m ρ hpre =>
  (θ_run Cert.Kernel.defs _ _).mono (fun _ h c => (h c).2)
    (KB.run_main (F := Bits) m ρ (fun d i => Cert.PreRange.range_of_fn _ _ (hpre d) i))

/-- So does the idealized kernel. -/
theorem frame_ki : Cert.frame_KernelIdeal := fun m ρ hpre =>
  (θ_run Cert.KernelIdeal.defs _ _).mono (fun _ h c => (h c).2)
    (KI.run_main (F := Ideal) m ρ (fun d i => Cert.PreRange.range_of_fn _ _ (hpre d) i))

/-- And the reference. -/
theorem frame_ri : Cert.frame_ReferenceIdeal := fun m ρ hpre =>
  (θ_run Cert.ReferenceIdeal.defs _ _).mono (fun _ h c => (h c).2)
    (Cert.ReferenceIdeal.RefValue.run m ρ (fun c i => Cert.PreRange.range_of_fn _ _ (hpre c) i))

/-- The idealization rewrote nothing. -/
theorem preserves : Cert.preserves_Kernel_KernelIdeal := trivial

/-- From memories that agree on the arguments both runs end with the lookup of those arguments. -/
theorem algebraic : Cert.algebraic_KernelIdeal_ReferenceIdeal := by
  intro m g m' g' hpre hagree
  have hx : ∀ d i, (m ((SparseCore.T d).loc Cert.KernelIdeal.main_arg0) i).toNat ≤ 6 :=
    fun d i => Cert.PreRange.range_of_fn _ _ (hpre d) i
  refine ⟨fun c => Cert.Spec.G (m ((SparseCore.T c).loc Cert.KernelIdeal.main_arg0)) (m ((SparseCore.T c).loc Cert.KernelIdeal.main_arg1)),
    (θ_run Cert.KernelIdeal.defs _ _).mono (fun _ h c => h c) (KI.run_main (F := Ideal) m g hx), ?_⟩
  refine (θ_run Cert.ReferenceIdeal.defs _ _).mono (fun _ h c => ⟨(h c).1.trans ?_, (h c).2⟩)
    (Cert.ReferenceIdeal.RefValue.run m' g' (fun c i => by rw [(hagree c).1]; exact hx c i))
  rw [(hagree c).1, (hagree c).2]

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
